-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v19) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x128 : Shape := ⟨2, ![10000, 128]⟩
abbrev S10000x10000 : Shape := ⟨2, ![10000, 10000]⟩
abbrev S128x20 : Shape := ⟨2, ![128, 20]⟩
abbrev S20 : Shape := ⟨1, ![20]⟩
abbrev S20x20 : Shape := ⟨2, ![20, 20]⟩
abbrev S20x128 : Shape := ⟨2, ![20, 128]⟩
abbrev S128 : Shape := ⟨1, ![128]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S10000x10000 : S_.BroadcastsInDim S10000x10000 (![] : Fin 0 → Fin S10000x10000.rank)
  reducesTo_S10000x10000_S_d0_1 : S10000x10000.ReducesTo [0, 1] S_
  bcast_S_S128x20 : S_.BroadcastsInDim S128x20 (![] : Fin 0 → Fin S128x20.rank)
  reducesTo_S128x20_S_d0_1 : S128x20.ReducesTo [0, 1] S_
  bcast_S_S20 : S_.BroadcastsInDim S20 (![] : Fin 0 → Fin S20.rank)
  reducesTo_S20_S_d0 : S20.ReducesTo [0] S_
  bcast_S_S20x20 : S_.BroadcastsInDim S20x20 (![] : Fin 0 → Fin S20x20.rank)
  reducesTo_S20x20_S_d0_1 : S20x20.ReducesTo [0, 1] S_
  bcast_S_S20x128 : S_.BroadcastsInDim S20x128 (![] : Fin 0 → Fin S20x128.rank)
  reducesTo_S20x128_S_d0_1 : S20x128.ReducesTo [0, 1] S_
  bcast_S_S128 : S_.BroadcastsInDim S128 (![] : Fin 0 → Fin S128.rank)
  reducesTo_S128_S_d0 : S128.ReducesTo [0] S_

variable [Facts]

def fn_part2 {F : FTy → Type} [FloatOps F] (main_arg7 : FVec F S128 .f32) (main_v33 : IVec S_ 1) : IVec S_ 1 :=
  let main_v34 : FVec F S128 .f32 := Host.absf main_arg7
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  main_v38

def fn_part1 {F : FTy → Type} [FloatOps F] (main_arg4 : FVec F S20x20 .f32) (main_arg5 : FVec F S20 .f32) (main_arg6 : FVec F S20x128 .f32) (main_arg7 : FVec F S128 .f32) (main_v13 : IVec S_ 1) (main_v16 : IVec S20 1) : IVec S_ 1 :=
  let main_c_5 : IVec S_ 1 := constantI S_ 1 1#1
  let main_v17 : IVec S_ 1 := (fun x v => Host.reduce IntOp.andi x v reducesTo_S20_S_d0 h_S_) main_v16 main_c_5
  let main_v18 : IVec S_ 1 := andi main_v13 main_v17
  let main_v19 : FVec F S20x20 .f32 := Host.absf main_arg4
  let main_cst_6 : FVec F S_ .f32 := constant S_ .f32 0x7F800000#32
  let main_v20 : FVec F S20x20 .f32 := broadcastInDim S20x20 ![] bcast_S_S20x20 main_cst_6
  let main_v21 : IVec S20x20 1 := cmpf .olt main_v19 main_v20
  let main_c_7 : IVec S_ 1 := constantI S_ 1 1#1
  let main_v22 : IVec S_ 1 := (fun x v => Host.reduce IntOp.andi x v reducesTo_S20x20_S_d0_1 h_S_) main_v21 main_c_7
  let main_v23 : IVec S_ 1 := andi main_v18 main_v22
  let main_v24 : FVec F S20 .f32 := Host.absf main_arg5
  let main_cst_8 : FVec F S_ .f32 := constant S_ .f32 0x7F800000#32
  let main_v25 : FVec F S20 .f32 := broadcastInDim S20 ![] bcast_S_S20 main_cst_8
  let main_v26 : IVec S20 1 := cmpf .olt main_v24 main_v25
  let main_c_9 : IVec S_ 1 := constantI S_ 1 1#1
  let main_v27 : IVec S_ 1 := (fun x v => Host.reduce IntOp.andi x v reducesTo_S20_S_d0 h_S_) main_v26 main_c_9
  let main_v28 : IVec S_ 1 := andi main_v23 main_v27
  let main_v29 : FVec F S20x128 .f32 := Host.absf main_arg6
  let main_cst_10 : FVec F S_ .f32 := constant S_ .f32 0x7F800000#32
  let main_v30 : FVec F S20x128 .f32 := broadcastInDim S20x128 ![] bcast_S_S20x128 main_cst_10
  let main_v31 : IVec S20x128 1 := cmpf .olt main_v29 main_v30
  let main_c_11 : IVec S_ 1 := constantI S_ 1 1#1
  let main_v32 : IVec S_ 1 := (fun x v => Host.reduce IntOp.andi x v reducesTo_S20x128_S_d0_1 h_S_) main_v31 main_c_11
  let main_v33 : IVec S_ 1 := andi main_v28 main_v32
  fn_part2 (F := F) main_arg7 main_v33

def fn {F : FTy → Type} [FloatOps F] (main_arg0 : FVec F S10000x128 .f32) (main_arg1 : FVec F S10000x10000 .f32) (main_arg2 : FVec F S128x20 .f32) (main_arg3 : FVec F S20 .f32) (main_arg4 : FVec F S20x20 .f32) (main_arg5 : FVec F S20 .f32) (main_arg6 : FVec F S20x128 .f32) (main_arg7 : FVec F S128 .f32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S10000x10000 .f32 := Host.absf main_arg1
  let main_cst_0 : FVec F S_ .f32 := constant S_ .f32 0x7F800000#32
  let main_v5 : FVec F S10000x10000 .f32 := broadcastInDim S10000x10000 ![] bcast_S_S10000x10000 main_cst_0
  let main_v6 : IVec S10000x10000 1 := cmpf .olt main_v4 main_v5
  let main_c_1 : IVec S_ 1 := constantI S_ 1 1#1
  let main_v7 : IVec S_ 1 := (fun x v => Host.reduce IntOp.andi x v reducesTo_S10000x10000_S_d0_1 h_S_) main_v6 main_c_1
  let main_v8 : IVec S_ 1 := andi main_v3 main_v7
  let main_v9 : FVec F S128x20 .f32 := Host.absf main_arg2
  let main_cst_2 : FVec F S_ .f32 := constant S_ .f32 0x7F800000#32
  let main_v10 : FVec F S128x20 .f32 := broadcastInDim S128x20 ![] bcast_S_S128x20 main_cst_2
  let main_v11 : IVec S128x20 1 := cmpf .olt main_v9 main_v10
  let main_c_3 : IVec S_ 1 := constantI S_ 1 1#1
  let main_v12 : IVec S_ 1 := (fun x v => Host.reduce IntOp.andi x v reducesTo_S128x20_S_d0_1 h_S_) main_v11 main_c_3
  let main_v13 : IVec S_ 1 := andi main_v8 main_v12
  let main_v14 : FVec F S20 .f32 := Host.absf main_arg3
  let main_cst_4 : FVec F S_ .f32 := constant S_ .f32 0x7F800000#32
  let main_v15 : FVec F S20 .f32 := broadcastInDim S20 ![] bcast_S_S20 main_cst_4
  let main_v16 : IVec S20 1 := cmpf .olt main_v14 main_v15
  fn_part1 (F := F) main_arg4 main_arg5 main_arg6 main_arg7 main_v13 main_v16
-- ==== Kernel.lean ====
abbrev S10000x128 : Shape := ⟨2, ![10000, 128]⟩
abbrev S10000x10000 : Shape := ⟨2, ![10000, 10000]⟩
abbrev S128x20 : Shape := ⟨2, ![128, 20]⟩
abbrev S20 : Shape := ⟨1, ![20]⟩
abbrev S20x20 : Shape := ⟨2, ![20, 20]⟩
abbrev S20x128 : Shape := ⟨2, ![20, 128]⟩
abbrev S128 : Shape := ⟨1, ![128]⟩
abbrev S1x20 : Shape := ⟨2, ![1, 20]⟩
abbrev S1x128 : Shape := ⟨2, ![1, 128]⟩
abbrev S10000x20 : Shape := ⟨2, ![10000, 20]⟩
abbrev S400x10000 : Shape := ⟨2, ![400, 10000]⟩
abbrev S400x20 : Shape := ⟨2, ![400, 20]⟩
abbrev S1000x10000 : Shape := ⟨2, ![1000, 10000]⟩
abbrev S1000x128 : Shape := ⟨2, ![1000, 128]⟩
abbrev S1000x20 : Shape := ⟨2, ![1000, 20]⟩

abbrev nBuf : Space → Nat
  | .hbm => 14
  | .vmem => 22
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x20, .f32⟩
  | .hbm, ⟨3, _⟩ => ⟨S20, .f32⟩
  | .hbm, ⟨4, _⟩ => ⟨S20x20, .f32⟩
  | .hbm, ⟨5, _⟩ => ⟨S20, .f32⟩
  | .hbm, ⟨6, _⟩ => ⟨S20x128, .f32⟩
  | .hbm, ⟨7, _⟩ => ⟨S128, .f32⟩
  | .hbm, ⟨8, _⟩ => ⟨S1x20, .f32⟩
  | .hbm, ⟨9, _⟩ => ⟨S1x20, .f32⟩
  | .hbm, ⟨10, _⟩ => ⟨S1x128, .f32⟩
  | .hbm, ⟨11, _⟩ => ⟨S10000x10000, .bf16⟩
  | .hbm, ⟨12, _⟩ => ⟨S10000x20, .bf16⟩
  | .hbm, ⟨13, _⟩ => ⟨S10000x128, .f32⟩
  | .local _ .vmem, ⟨0, _⟩ => ⟨S400x10000, .f32⟩
  | .local _ .vmem, ⟨1, _⟩ => ⟨S400x10000, .f32⟩
  | .local _ .vmem, ⟨2, _⟩ => ⟨S10000x128, .f32⟩
  | .local _ .vmem, ⟨3, _⟩ => ⟨S128x20, .f32⟩
  | .local _ .vmem, ⟨4, _⟩ => ⟨S1x20, .f32⟩
  | .local _ .vmem, ⟨5, _⟩ => ⟨S20x20, .f32⟩
  | .local _ .vmem, ⟨6, _⟩ => ⟨S400x10000, .bf16⟩
  | .local _ .vmem, ⟨7, _⟩ => ⟨S400x10000, .bf16⟩
  | .local _ .vmem, ⟨8, _⟩ => ⟨S400x20, .bf16⟩
  | .local _ .vmem, ⟨9, _⟩ => ⟨S400x20, .bf16⟩
  | .local _ .vmem, ⟨10, _⟩ => ⟨S10000x20, .bf16⟩
  | .local _ .vmem, ⟨11, _⟩ => ⟨S1000x10000, .bf16⟩
  | .local _ .vmem, ⟨12, _⟩ => ⟨S1000x10000, .bf16⟩
  | .local _ .vmem, ⟨13, _⟩ => ⟨S10000x20, .bf16⟩
  | .local _ .vmem, ⟨14, _⟩ => ⟨S1x20, .f32⟩
  | .local _ .vmem, ⟨15, _⟩ => ⟨S20x128, .f32⟩
  | .local _ .vmem, ⟨16, _⟩ => ⟨S1x128, .f32⟩
  | .local _ .vmem, ⟨17, _⟩ => ⟨S1000x128, .f32⟩
  | .local _ .vmem, ⟨18, _⟩ => ⟨S1000x128, .f32⟩
  | .local _ .vmem, ⟨19, _⟩ => ⟨S1000x128, .f32⟩
  | .local _ .vmem, ⟨20, _⟩ => ⟨S1000x128, .f32⟩
  | .local _ .vmem, ⟨21, _⟩ => ⟨S10000x128, .bf16⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_call0_v0 : Ref sig .tc := ⟨.hbm, 8, rfl⟩
abbrev main_call0_v1 : Ref sig .tc := ⟨.hbm, 9, rfl⟩
abbrev main_call0_v2 : Ref sig .tc := ⟨.hbm, 10, rfl⟩
abbrev main_call0_v3_0 : Ref sig .tc := ⟨.hbm, 11, rfl⟩
abbrev main_call0_v3_1 : Ref sig .tc := ⟨.hbm, 12, rfl⟩
abbrev main_v0 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_scratch0 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg2_0 : Ref sig .tc := ⟨.vmem, 14, rfl⟩
abbrev cc1_stg3_0 : Ref sig .tc := ⟨.vmem, 15, rfl⟩
abbrev cc1_stg4_0 : Ref sig .tc := ⟨.vmem, 16, rfl⟩
abbrev cc1_stg5_0 : Ref sig .tc := ⟨.vmem, 17, rfl⟩
abbrev cc1_stg5_1 : Ref sig .tc := ⟨.vmem, 18, rfl⟩
abbrev cc1_stg6_0 : Ref sig .tc := ⟨.vmem, 19, rfl⟩
abbrev cc1_stg6_1 : Ref sig .tc := ⟨.vmem, 20, rfl⟩
abbrev cc1_scratch0 : Ref sig .tc := ⟨.vmem, 21, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc1_sem0_0 : DmaSem sig := 10
abbrev cc1_sem0_1 : DmaSem sig := 11
abbrev cc1_sem1_0 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17
abbrev cc1_sem6_0 : DmaSem sig := 18
abbrev cc1_sem6_1 : DmaSem sig := 19

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S400x10000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S10000x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x20 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x20 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S20x20 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S400x10000 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S400x20 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨2, ![2, 10], ![false, false]⟩

def k1_cond1 (i : grid1.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k1_off1 (i : grid1.Coords) : Fin 2 → Nat :=
  let arg1 : BitVec 32 := BitVec.ofNat 32 (i 1).val
  let c1000_i32 : BitVec 32 := 1000#32
  let v20 : BitVec 32 := Scalar.muli arg1 c1000_i32
  let v21 : Index := Scalar.indexCast v20
  let c0_11 : Index := 0#32
  ![v21.toNat, 0]
def k1_cond2 (i : grid1.Coords) : BitVec 1 :=
  let arg0 : BitVec 32 := BitVec.ofNat 32 (i 0).val
  let c1_i32 : BitVec 32 := 1#32
  let v3 : BitVec 1 := Scalar.cmpi .eq arg0 c1_i32
  let v4 : BitVec 32 := Scalar.extui v3
  let c0_i32_1 : BitVec 32 := 0#32
  let v5 : BitVec 1 := Scalar.cmpi .ne v4 c0_i32_1
  v5

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let arg1 : BitVec 32 := BitVec.ofNat 32 (i 1).val
  let v0 : BitVec 32 := Scalar.muli arg0 arg1
  let c0_i32 : BitVec 32 := 0#32
  let c0_i32_0 : BitVec 32 := 0#32
  ![v0.toNat, c0_i32.toNat]

def cc1_transform_6 (i : grid1.Coords) : Fin 2 → Nat :=
  let arg0 : BitVec 32 := BitVec.ofNat 32 (i 0).val
  let arg1 : BitVec 32 := BitVec.ofNat 32 (i 1).val
  let v0 : BitVec 32 := Scalar.muli arg0 arg1
  let c0_i32 : BitVec 32 := 0#32
  let c0_i32_0 : BitVec 32 := 0#32
  ![v0.toNat, c0_i32.toNat]

abbrev stage1_0 : Fin 2 → Memref sig .tc .vmem S1000x10000 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![false, true]

abbrev stage1_1 : Fin 1 → Memref sig .tc .vmem S10000x20 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, false]

abbrev stage1_2 : Fin 1 → Memref sig .tc .vmem S1x20 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 1 → Memref sig .tc .vmem S20x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false]

abbrev stage1_5 : Fin 2 → Memref sig .tc .vmem S1000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true]

abbrev stage1_6 : Fin 2 → Memref sig .tc .vmem S1000x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, true]

class Facts₀ : Prop where
  shapeCasts_S20_S1x20 : S20.ShapeCasts S1x20
  shapeCasts_S128_S1x128 : S128.ShapeCasts S1x128
  inb_S10000x128_S10000x128_0_0 : ∀ a, (![0, 0] : Fin 2 → Nat) a + S10000x128.size a ≤ S10000x128.size a
  h_S10000x128 : 0 < S10000x128.numel
  inb_S128x20_S128x20_0_0 : ∀ a, (![0, 0] : Fin 2 → Nat) a + S128x20.size a ≤ S128x20.size a
  h_S128x20 : 0 < S128x20.numel
  bitsLt_bf16_f32 : FTy.bits .bf16 < FTy.bits .f32
  inb_S10000x20_S10000x20_0_0 : ∀ a, (![0, 0] : Fin 2 → Nat) a + S10000x20.size a ≤ S10000x20.size a
  h_S10000x20 : 0 < S10000x20.numel
  shapeCasts_S10000x20_S10000x20 : S10000x20.ShapeCasts S10000x20
  packedbf16_S10000x20_S10000x20_0_0 : (Rect.unit (s := S10000x20) ![0, 0] S10000x20.size inb_S10000x20_S10000x20_0_0).PackedRows (EltTy.packing .bf16)
  inb_S400x10000_S400x10000_0_0 : ∀ a, (![0, 0] : Fin 2 → Nat) a + S400x10000.size a ≤ S400x10000.size a
  h_S400x10000 : 0 < S400x10000.numel
  packedbf16_S400x10000_S400x10000_0_0 : (Rect.unit (s := S400x10000) ![0, 0] S400x10000.size inb_S400x10000_S400x10000_0_0).PackedRows (EltTy.packing .bf16)
  inb_S1x20_S1x20_0_0 : ∀ a, (![0, 0] : Fin 2 → Nat) a + S1x20.size a ≤ S1x20.size a
  h_S1x20 : 0 < S1x20.numel
  shapeCasts_S1x20_S1x20 : S1x20.ShapeCasts S1x20
  broadcasts_S1x20_S400x20 : S1x20.Broadcasts S400x20
  inb_S20x20_S20x20_0_0 : ∀ a, (![0, 0] : Fin 2 → Nat) a + S20x20.size a ≤ S20x20.size a
  h_S20x20 : 0 < S20x20.numel
  inb_S400x20_S400x20_0_0 : ∀ a, (![0, 0] : Fin 2 → Nat) a + S400x20.size a ≤ S400x20.size a
  h_S400x20 : 0 < S400x20.numel
  packedbf16_S400x20_S400x20_0_0 : (Rect.unit (s := S400x20) ![0, 0] S400x20.size inb_S400x20_S400x20_0_0).PackedRows (EltTy.packing .bf16)
  inb_S1000x10000_S1000x10000_0_0 : ∀ a, (![0, 0] : Fin 2 → Nat) a + S1000x10000.size a ≤ S1000x10000.size a
  h_S1000x10000 : 0 < S1000x10000.numel
  shapeCasts_S1000x10000_S1000x10000 : S1000x10000.ShapeCasts S1000x10000
  broadcasts_S1x20_S1000x20 : S1x20.Broadcasts S1000x20
  inb_S20x128_S20x128_0_0 : ∀ a, (![0, 0] : Fin 2 → Nat) a + S20x128.size a ≤ S20x128.size a
  h_S20x128 : 0 < S20x128.numel
  h_S1000x128 : 0 < S1000x128.numel
  shapeCasts_S1000x128_S1000x128 : S1000x128.ShapeCasts S1000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S1000x128 : S1x128.Broadcasts S1000x128
  inb_S1000x128_S1000x128_0_0 : ∀ a, (![0, 0] : Fin 2 → Nat) a + S1000x128.size a ≤ S1000x128.size a
  dot_S10000x128_S128x20_S10000x20_1_0_0_1_n_n_wf : DotDims.WF S10000x128 S128x20 S10000x20 [1] [0] [0] [1] [] []
  dot_S400x10000_S10000x20_S400x20_1_0_0_1_n_n_wf : DotDims.WF S400x10000 S10000x20 S400x20 [1] [0] [0] [1] [] []
  dot_S400x20_S20x20_S400x20_1_0_0_1_n_n_wf : DotDims.WF S400x20 S20x20 S400x20 [1] [0] [0] [1] [] []
  dot_S1000x10000_S10000x20_S1000x20_1_0_0_1_n_n_wf : DotDims.WF S1000x10000 S10000x20 S1000x20 [1] [0] [0] [1] [] []
  dot_S1000x20_S20x128_S1000x128_1_0_0_1_n_n_wf : DotDims.WF S1000x20 S20x128 S1000x128 [1] [0] [0] [1] [] []
  dot_S1000x10000_S10000x128_S1000x128_1_0_0_1_n_n_wf : DotDims.WF S1000x10000 S10000x128 S1000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S400x10000.size a ≤ S10000x10000.size a
  hwx0_0 : ∀ i : grid0.Coords, EltTy.bits .f32 = 32 ∨ (Rect.block (s := S10000x10000) S400x10000.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S10000x128.size a ≤ S10000x128.size a
  hwx0_1 : ∀ i : grid0.Coords, EltTy.bits .f32 = 32 ∨ (Rect.block (s := S10000x128) S10000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x20.size a ≤ S128x20.size a
  hwx0_2 : ∀ i : grid0.Coords, EltTy.bits .f32 = 32 ∨ (Rect.block (s := S128x20) S128x20.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x20.size a ≤ S1x20.size a
  hwx0_3 : ∀ i : grid0.Coords, EltTy.bits .f32 = 32 ∨ (Rect.block (s := S1x20) S1x20.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S20x20.size a ≤ S20x20.size a
  hwx0_4 : ∀ i : grid0.Coords, EltTy.bits .f32 = 32 ∨ (Rect.block (s := S20x20) S20x20.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S400x10000.size a ≤ S10000x10000.size a
  hwx0_5 : ∀ i : grid0.Coords, EltTy.bits .bf16 = 32 ∨ (Rect.block (s := S10000x10000) S400x10000.size (cc0_transform_5 i) (hinb0_5 i)).WholeWords (EltTy.packing .bf16)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S400x20.size a ≤ S10000x20.size a
  hwx0_6 : ∀ i : grid0.Coords, EltTy.bits .bf16 = 32 ∨ (Rect.block (s := S10000x20) S400x20.size (cc0_transform_6 i) (hinb0_6 i)).WholeWords (EltTy.packing .bf16)
  hrank1 : 0 < grid1.rank
  k1_off1_inb : ∀ i : grid1.Coords, ∀ (k1_h1 : k1_cond1 i = 1#1), ∀ a, (k1_off1 i) a + S1000x128.size a ≤ S10000x128.size a
  k1_off1_packedbf16 : ∀ i : grid1.Coords, ∀ (k1_h1 : k1_cond1 i = 1#1), (Rect.unit (s := S10000x128) (k1_off1 i) S1000x128.size (k1_off1_inb i k1_h1)).PackedRows (EltTy.packing .bf16)
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1000x10000.size a ≤ S10000x10000.size a
  hwx1_0 : ∀ i : grid1.Coords, EltTy.bits .bf16 = 32 ∨ (Rect.block (s := S10000x10000) S1000x10000.size (cc1_transform_0 i) (hinb1_0 i)).WholeWords (EltTy.packing .bf16)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S10000x20.size a ≤ S10000x20.size a
  hwx1_1 : ∀ i : grid1.Coords, EltTy.bits .bf16 = 32 ∨ (Rect.block (s := S10000x20) S10000x20.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x20.size a ≤ S1x20.size a
  hwx1_2 : ∀ i : grid1.Coords, EltTy.bits .f32 = 32 ∨ (Rect.block (s := S1x20) S1x20.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S20x128.size a ≤ S20x128.size a
  hwx1_3 : ∀ i : grid1.Coords, EltTy.bits .f32 = 32 ∨ (Rect.block (s := S20x128) S20x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S1000x128.size a ≤ S10000x128.size a
  hwx1_5 : ∀ i : grid1.Coords, EltTy.bits .f32 = 32 ∨ (Rect.block (s := S10000x128) S1000x128.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S1000x128.size a ≤ S10000x128.size a
  hwx1_6 : ∀ i : grid1.Coords, EltTy.bits .f32 = 32 ∨ (Rect.block (s := S10000x128) S1000x128.size (cc1_transform_6 i) (hinb1_6 i)).WholeWords (EltTy.packing .f32)

variable [Facts₀]

def dot_S10000x128_S128x20_S10000x20_1_0_0_1_n_n : DotDims S10000x128 S128x20 S10000x20 where
  lhsContracting := [1]
  rhsContracting := [0]
  lhsNonContracting := [0]
  rhsNonContracting := [1]
  lhsBatch := []
  rhsBatch := []
  wf := dot_S10000x128_S128x20_S10000x20_1_0_0_1_n_n_wf
def dot_S400x10000_S10000x20_S400x20_1_0_0_1_n_n : DotDims S400x10000 S10000x20 S400x20 where
  lhsContracting := [1]
  rhsContracting := [0]
  lhsNonContracting := [0]
  rhsNonContracting := [1]
  lhsBatch := []
  rhsBatch := []
  wf := dot_S400x10000_S10000x20_S400x20_1_0_0_1_n_n_wf
def dot_S400x20_S20x20_S400x20_1_0_0_1_n_n : DotDims S400x20 S20x20 S400x20 where
  lhsContracting := [1]
  rhsContracting := [0]
  lhsNonContracting := [0]
  rhsNonContracting := [1]
  lhsBatch := []
  rhsBatch := []
  wf := dot_S400x20_S20x20_S400x20_1_0_0_1_n_n_wf
def dot_S1000x10000_S10000x20_S1000x20_1_0_0_1_n_n : DotDims S1000x10000 S10000x20 S1000x20 where
  lhsContracting := [1]
  rhsContracting := [0]
  lhsNonContracting := [0]
  rhsNonContracting := [1]
  lhsBatch := []
  rhsBatch := []
  wf := dot_S1000x10000_S10000x20_S1000x20_1_0_0_1_n_n_wf
def dot_S1000x20_S20x128_S1000x128_1_0_0_1_n_n : DotDims S1000x20 S20x128 S1000x128 where
  lhsContracting := [1]
  rhsContracting := [0]
  lhsNonContracting := [0]
  rhsNonContracting := [1]
  lhsBatch := []
  rhsBatch := []
  wf := dot_S1000x20_S20x128_S1000x128_1_0_0_1_n_n_wf
def dot_S1000x10000_S10000x128_S1000x128_1_0_0_1_n_n : DotDims S1000x10000 S10000x128 S1000x128 where
  lhsContracting := [1]
  rhsContracting := [0]
  lhsNonContracting := [0]
  rhsNonContracting := [1]
  lhsBatch := []
  rhsBatch := []
  wf := dot_S1000x10000_S10000x128_S1000x128_1_0_0_1_n_n_wf

abbrev win0_0 : Pipeline.Window sig grid0 :=
  Pipeline.Window.ofSpec (Memref.whole main_arg1) S400x10000.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S10000x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x20.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_call0_v0) S1x20.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S20x20.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_call0_v3_0) S400x10000.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_call0_v3_1) S400x20.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_call0_v3_0) S1000x10000.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_call0_v3_1) S10000x20.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_call0_v1) S1x20.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg6) S20x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_call0_v2) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg0) S1000x128.size cc1_transform_5 reads1_5 false false 2 stage1_5 sem1_5
    hrank1 hreads1_5 hinb1_5 nbuf1_5 (Memref.isWhole_whole _) hwx1_5 hstage1_5

abbrev win1_6 : Pipeline.Window sig grid1 :=
  Pipeline.Window.ofSpec (Memref.whole main_v0) S1000x128.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev idle1 : Fin 7 → grid1.Coords → Bool := fun | 0 => fun _ => false | 1 => fun _ => false | 2 => fun _ => false | 3 => fun _ => false | 4 => fun _ => false | 5 => fun _ => false | 6 => fun i => !(k1_cond2 i == 1#1) | ⟨_ + 7, h⟩ => absurd h (Nat.not_lt.2 (Nat.le_add_left _ _))

class Facts : Prop extends Facts₀ where

variable [Facts]
-- ==== ReferenceIdeal.lean ====
abbrev S10000x128 : Shape := ⟨2, ![10000, 128]⟩
abbrev S10000x10000 : Shape := ⟨2, ![10000, 10000]⟩
abbrev S128x20 : Shape := ⟨2, ![128, 20]⟩
abbrev S20 : Shape := ⟨1, ![20]⟩
abbrev S20x20 : Shape := ⟨2, ![20, 20]⟩
abbrev S20x128 : Shape := ⟨2, ![20, 128]⟩
abbrev S128 : Shape := ⟨1, ![128]⟩
abbrev S10000x20 : Shape := ⟨2, ![10000, 20]⟩
abbrev S1x20 : Shape := ⟨2, ![1, 20]⟩
abbrev S_ : Shape := ⟨0, ![]⟩
abbrev S1x128 : Shape := ⟨2, ![1, 128]⟩

abbrev nBuf : Space → Nat
  | .hbm => 36
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x20, .f32⟩
  | .hbm, ⟨3, _⟩ => ⟨S20, .f32⟩
  | .hbm, ⟨4, _⟩ => ⟨S20x20, .f32⟩
  | .hbm, ⟨5, _⟩ => ⟨S20, .f32⟩
  | .hbm, ⟨6, _⟩ => ⟨S20x128, .f32⟩
  | .hbm, ⟨7, _⟩ => ⟨S128, .f32⟩
  | .hbm, ⟨8, _⟩ => ⟨S10000x20, .f32⟩
  | .hbm, ⟨9, _⟩ => ⟨S10000x20, .f32⟩
  | .hbm, ⟨10, _⟩ => ⟨S1x20, .f32⟩
  | .hbm, ⟨11, _⟩ => ⟨S10000x20, .f32⟩
  | .hbm, ⟨12, _⟩ => ⟨S10000x20, .f32⟩
  | .hbm, ⟨13, _⟩ => ⟨S_, .f32⟩
  | .hbm, ⟨14, _⟩ => ⟨S10000x20, .f32⟩
  | .hbm, ⟨15, _⟩ => ⟨S10000x20, .f32⟩
  | .hbm, ⟨16, _⟩ => ⟨S10000x20, .f32⟩
  | .hbm, ⟨17, _⟩ => ⟨S10000x20, .f32⟩
  | .hbm, ⟨18, _⟩ => ⟨S1x20, .f32⟩
  | .hbm, ⟨19, _⟩ => ⟨S10000x20, .f32⟩
  | .hbm, ⟨20, _⟩ => ⟨S10000x20, .f32⟩
  | .hbm, ⟨21, _⟩ => ⟨S_, .f32⟩
  | .hbm, ⟨22, _⟩ => ⟨S10000x20, .f32⟩
  | .hbm, ⟨23, _⟩ => ⟨S10000x20, .f32⟩
  | .hbm, ⟨24, _⟩ => ⟨S10000x128, .f32⟩
  | .hbm, ⟨25, _⟩ => ⟨S10000x128, .f32⟩
  | .hbm, ⟨26, _⟩ => ⟨S1x128, .f32⟩
  | .hbm, ⟨27, _⟩ => ⟨S10000x128, .f32⟩
  | .hbm, ⟨28, _⟩ => ⟨S10000x128, .f32⟩
  | .hbm, ⟨29, _⟩ => ⟨S_, .f32⟩
  | .hbm, ⟨30, _⟩ => ⟨S10000x128, .f32⟩
  | .hbm, ⟨31, _⟩ => ⟨S10000x128, .f32⟩
  | .hbm, ⟨32, _⟩ => ⟨S10000x128, .f32⟩
  | .hbm, ⟨33, _⟩ => ⟨S_, .f32⟩
  | .hbm, ⟨34, _⟩ => ⟨S10000x128, .f32⟩
  | .hbm, ⟨35, _⟩ => ⟨S10000x128, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_call0_cst : Ref sig .tc := ⟨.hbm, 13, rfl⟩
abbrev main_call0_v0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_call1_cst : Ref sig .tc := ⟨.hbm, 21, rfl⟩
abbrev main_call1_v0 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_call2_cst : Ref sig .tc := ⟨.hbm, 29, rfl⟩
abbrev main_call2_v0 : Ref sig .tc := ⟨.hbm, 30, rfl⟩
abbrev main_v17 : Ref sig .tc := ⟨.hbm, 31, rfl⟩
abbrev main_v18 : Ref sig .tc := ⟨.hbm, 32, rfl⟩
abbrev main_call3_cst : Ref sig .tc := ⟨.hbm, 33, rfl⟩
abbrev main_call3_v0 : Ref sig .tc := ⟨.hbm, 34, rfl⟩
abbrev main_v19 : Ref sig .tc := ⟨.hbm, 35, rfl⟩

abbrev nD : Nat := 1
abbrev τ : Topo := Topo.v7x

variable {F : FTy → Type} [FloatOps F]

class Facts₀ : Prop where
  bcast_S20_S1x20_1 : S20.BroadcastsInDim S1x20 (![1] : Fin 1 → Fin S1x20.rank)
  bcast_S1x20_S10000x20_0_1 : S1x20.BroadcastsInDim S10000x20 (![0, 1] : Fin 2 → Fin S10000x20.rank)
  bcast_S_S10000x20 : S_.BroadcastsInDim S10000x20 (![] : Fin 0 → Fin S10000x20.rank)
  bcast_S128_S1x128_1 : S128.BroadcastsInDim S1x128 (![1] : Fin 1 → Fin S1x128.rank)
  bcast_S1x128_S10000x128_0_1 : S1x128.BroadcastsInDim S10000x128 (![0, 1] : Fin 2 → Fin S10000x128.rank)
  bcast_S_S10000x128 : S_.BroadcastsInDim S10000x128 (![] : Fin 0 → Fin S10000x128.rank)
  dot_S10000x128_S128x20_S10000x20_1_0_0_1_n_n_wf : DotDims.WF S10000x128 S128x20 S10000x20 [1] [0] [0] [1] [] []
  dot_S10000x10000_S10000x20_S10000x20_1_0_0_1_n_n_wf : DotDims.WF S10000x10000 S10000x20 S10000x20 [1] [0] [0] [1] [] []
  dot_S10000x20_S20x20_S10000x20_1_0_0_1_n_n_wf : DotDims.WF S10000x20 S20x20 S10000x20 [1] [0] [0] [1] [] []
  dot_S10000x20_S20x128_S10000x128_1_0_0_1_n_n_wf : DotDims.WF S10000x20 S20x128 S10000x128 [1] [0] [0] [1] [] []
  dot_S10000x10000_S10000x128_S10000x128_1_0_0_1_n_n_wf : DotDims.WF S10000x10000 S10000x128 S10000x128 [1] [0] [0] [1] [] []

variable [Facts₀]

def dot_S10000x128_S128x20_S10000x20_1_0_0_1_n_n : DotDims S10000x128 S128x20 S10000x20 where
  lhsContracting := [1]
  rhsContracting := [0]
  lhsNonContracting := [0]
  rhsNonContracting := [1]
  lhsBatch := []
  rhsBatch := []
  wf := dot_S10000x128_S128x20_S10000x20_1_0_0_1_n_n_wf
def dot_S10000x10000_S10000x20_S10000x20_1_0_0_1_n_n : DotDims S10000x10000 S10000x20 S10000x20 where
  lhsContracting := [1]
  rhsContracting := [0]
  lhsNonContracting := [0]
  rhsNonContracting := [1]
  lhsBatch := []
  rhsBatch := []
  wf := dot_S10000x10000_S10000x20_S10000x20_1_0_0_1_n_n_wf
def dot_S10000x20_S20x20_S10000x20_1_0_0_1_n_n : DotDims S10000x20 S20x20 S10000x20 where
  lhsContracting := [1]
  rhsContracting := [0]
  lhsNonContracting := [0]
  rhsNonContracting := [1]
  lhsBatch := []
  rhsBatch := []
  wf := dot_S10000x20_S20x20_S10000x20_1_0_0_1_n_n_wf
def dot_S10000x20_S20x128_S10000x128_1_0_0_1_n_n : DotDims S10000x20 S20x128 S10000x128 where
  lhsContracting := [1]
  rhsContracting := [0]
  lhsNonContracting := [0]
  rhsNonContracting := [1]
  lhsBatch := []
  rhsBatch := []
  wf := dot_S10000x20_S20x128_S10000x128_1_0_0_1_n_n_wf
def dot_S10000x10000_S10000x128_S10000x128_1_0_0_1_n_n : DotDims S10000x10000 S10000x128 S10000x128 where
  lhsContracting := [1]
  rhsContracting := [0]
  lhsNonContracting := [0]
  rhsNonContracting := [1]
  lhsBatch := []
  rhsBatch := []
  wf := dot_S10000x10000_S10000x128_S10000x128_1_0_0_1_n_n_wf

class Facts : Prop extends Facts₀ where

variable [Facts]
-- ==== Proof.LibUnitStore.lean ====
/-
  A store through the whole-shape rectangle at zero offsets, read back through the same view, is its payload,
  whatever the buffer held before; a store through any rectangle, read back, is the earlier contents with the
  rectangle's part replaced by the payload.
-/
import Idealize.ShloMosaic.Lib.Pipeline.FrameBody
import Idealize.ShloMosaic.Lib.Pipeline.Value

noncomputable section

namespace Cert.Lib

open Idealize.ShloMosaic

variable {Val : EltTy → Type} [∀ e, Nonempty (Val e)] {sig : RefSig} {κ : Kind} {sp : Space} {S : Shape} {e : EltTy}

/-- One store of `w` through the whole-shape rectangle, read back: `w`. -/
theorem read_writes_unit (v : View sig κ sp S e) (f : v.ty.Contents Val) {off : Fin S.rank → Nat} (h : off = fun _ => 0)
    (inb : ∀ a, off a + S.size a ≤ S.size a) (w : S.Idx → Val e) :
    v.read Val (v.writes Val f [(⟨Rect.unit off S.size inb, w⟩ : View.Piece Val S e)]) = w :=
  (View.read_writes_eq_canon v f _ (fun y => ⟨_, List.mem_singleton_self _, View.mem_set_unit_zero h inb y⟩)).trans
    (View.canon_unit_zero h inb w)

/-- One store through any rectangle, read back: the earlier contents with the rectangle's part replaced. -/
theorem read_writes_one (v : View sig κ sp S e) (f : v.ty.Contents Val) (r : Rect S) (w : r.shape.Idx → Val e) :
    v.read Val (v.writes Val f [(⟨r, w⟩ : View.Piece Val S e)]) = r.overlay (v.read Val f) w := by
  funext y
  by_cases hy : y ∈ r.set
  · obtain ⟨x, rfl⟩ : ∃ x, r.emb x = y := r.exists_idx_of_mem hy
    rw [View.read_writes_cons_emb, Rect.overlay_emb]
  · have hy' : y ∉ Finset.univ.map r.emb := by rwa [Rect.map_emb_univ]
    rw [View.writes_cons, View.read_slice_write_of_not_mem r _ _ _ hy', Rect.overlay_of_not_mem _ _ _ hy]
    rfl

/-- The rank-2 zero offsets, as the printed programs spell them. -/
theorem hz2 : (![0, 0] : Fin 2 → ℕ) = fun _ => 0 := by funext a; fin_cases a <;> rfl

end Cert.Lib

end
-- ==== Proof.K.R0Run.lean ====
/-
  Pass 1 of the kernel, one grid point: the body (at the first point only) computes the product x W1 into a scratch
  buffer it keeps for all later points, then casts its 400-row block of the adjacency matrix to bf16 (written out as
  the bf16 copy), multiplies the block with the kept product, adds the bias, clamps at zero and multiplies with W2.
  This file runs that body on whole staging buffers in its two control cases: the first grid point, and any other.
-/
import proofs.«180365_g15126874816640_cont_week2b_32_13_alg».proof.Proof.Gen.Kernel.Launch
import proofs.«180365_g15126874816640_cont_week2b_32_13_alg».proof.Proof.Gen.Kernel.Skeleton
import proofs.«180365_g15126874816640_cont_week2b_32_13_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.Pipeline.Value
import proofs.«180365_g15126874816640_cont_week2b_32_13_alg».proof.Proof.LibUnitStore

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.Kernel Cert.Kernel.Gen

variable {F : FTy → Type} [FloatOps F]

local notation "𝕄" => MT nD τ sig Unit (Elt F) ℕ (UR sig nD τ) ℕ

open Cert.Lib

/-- The conditional of pass 1: grid coordinate 0 is zero. -/
abbrev cond0 (i : grid0.Coords) : Prop := (Scalar.cmpi .ne (Scalar.extui (Scalar.cmpi .eq (BitVec.ofNat 32 (i 0).val) 0#32)) 0#32) = 1#1

/-- It holds at the first of the 25 points only. -/
theorem hcond0 : ∀ t : Fin cfg0.N, cond0 (grid0.coords t) ↔ t.val = 0 :=
  (by decide +kernel : ∀ t : Fin grid0.N, cond0 (grid0.coords t) ↔ t.val = 0)

set_option maxHeartbeats 1000000 in
/-- Any point but the first: the scratch holds xs (the kept product) and is left as it is; the bf16 copy's block
    is the cast of the adjacency block, the second output's block the fused layer of that block against xs. -/
theorem sound_kernel0_B (c : Dev nD) (E : Set ℕ) (i : grid0.Coords)
    (arg1 : Memref sig .tc .vmem S400x10000 .f32) (harg1 : arg1.IsWhole) (arg2 : Memref sig .tc .vmem S10000x128 .f32) (harg2 : arg2.IsWhole)
    (arg3 : Memref sig .tc .vmem S128x20 .f32) (harg3 : arg3.IsWhole) (arg4 : Memref sig .tc .vmem S1x20 .f32) (harg4 : arg4.IsWhole)
    (arg5 : Memref sig .tc .vmem S20x20 .f32) (harg5 : arg5.IsWhole) (arg6 : Memref sig .tc .vmem S400x10000 .bf16) (harg6 : arg6.IsWhole)
    (arg7 : Memref sig .tc .vmem S400x20 .bf16) (harg7 : arg7.IsWhole) (arg8 : Memref sig .tc .vmem S10000x20 .bf16) (harg8 : arg8.IsWhole)
    (hc : ¬cond0 i)
    (x0 : Vec F S400x10000 .f32) (x1 : Vec F S10000x128 .f32) (x2 : Vec F S128x20 .f32) (x3 : Vec F S1x20 .f32) (x4 : Vec F S20x20 .f32)
    (xs : Vec F S10000x20 .bf16) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4
        ∗ (∃ d, owns (c : Thread nD τ) arg6 fullShare d) ∗ (∃ d, owns (c : Thread nD τ) arg7 fullShare d)
        ∗ owns (c : Thread nD τ) arg8 fullShare xs
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (k0_pay2 x0) ∗ owns (c : Thread nD τ) arg7 fullShare (k0_pay3 x0 xs x3 x4)
            ∗ owns (c : Thread nD τ) arg8 fullShare xs) -∗ K ⟨⟩))
      ⊢ wp frame (wpE (defs₀ (F := F)) Variants.none c none) E (cc0__pass1_body i arg1 harg1 arg2 harg2 arg3 harg3 arg4 harg4 arg5 harg5 arg6 harg6 arg7 harg7 arg8 harg8) K := by
  simp only [cc0__pass1_body_eq_skeleton]; unfold cc0__pass1_body_skel
  unfold owns
  iintro ⟨⟨%f0, %hf0, H0⟩, ⟨%f1, %hf1, H1⟩, ⟨%f2, %hf2, H2⟩, ⟨%f3, %hf3, H3⟩, ⟨%f4, %hf4, H4⟩, ⟨%d6, %f6, -, H6⟩, ⟨%d7, %f7, -, H7⟩, ⟨%f8, %hf8, H8⟩, Hk⟩
  obtain rfl := harg1.eq_unread hf0; obtain rfl := harg2.eq_unread hf1; obtain rfl := harg3.eq_unread hf2
  obtain rfl := harg4.eq_unread hf3; obtain rfl := harg5.eq_unread hf4; obtain rfl := harg8.eq_unread hf8
  sl_exec (disch := first | exact hc)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H6]
  · iexists _; isplitr
    swap; · iexact H6
    ipureintro
    refine (read_writes_unit _ _ hz2 _ _).trans ?_
    simp only [View.readAt_eq_ld, harg1.read_unread, View.ld_unit_zero (S := S400x10000) hz2]
  isplitl [H7]
  · iexists _; isplitr
    swap; · iexact H7
    ipureintro
    refine (read_writes_unit _ _ hz2 _ _).trans ?_
    simp only [View.readAt_eq_ld, harg1.read_unread, harg4.read_unread, harg5.read_unread, harg8.read_unread,
      View.ld_unit_zero (S := S400x10000) hz2, View.ld_unit_zero (S := S10000x20) hz2, View.ld_unit_zero (S := S1x20) hz2, View.ld_unit_zero (S := S20x20) hz2]
  iexists _; isplitr; · ipureintro; exact harg8.read_unread _
  iexact H8

set_option maxHeartbeats 1000000 in
/-- The first point: the scratch, at anything, is filled with the product of x and W1 and used at once. -/
theorem sound_kernel0_A (c : Dev nD) (E : Set ℕ) (i : grid0.Coords)
    (arg1 : Memref sig .tc .vmem S400x10000 .f32) (harg1 : arg1.IsWhole) (arg2 : Memref sig .tc .vmem S10000x128 .f32) (harg2 : arg2.IsWhole)
    (arg3 : Memref sig .tc .vmem S128x20 .f32) (harg3 : arg3.IsWhole) (arg4 : Memref sig .tc .vmem S1x20 .f32) (harg4 : arg4.IsWhole)
    (arg5 : Memref sig .tc .vmem S20x20 .f32) (harg5 : arg5.IsWhole) (arg6 : Memref sig .tc .vmem S400x10000 .bf16) (harg6 : arg6.IsWhole)
    (arg7 : Memref sig .tc .vmem S400x20 .bf16) (harg7 : arg7.IsWhole) (arg8 : Memref sig .tc .vmem S10000x20 .bf16) (harg8 : arg8.IsWhole)
    (hc : cond0 i)
    (x0 : Vec F S400x10000 .f32) (x1 : Vec F S10000x128 .f32) (x2 : Vec F S128x20 .f32) (x3 : Vec F S1x20 .f32) (x4 : Vec F S20x20 .f32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4
        ∗ (∃ d, owns (c : Thread nD τ) arg6 fullShare d) ∗ (∃ d, owns (c : Thread nD τ) arg7 fullShare d)
        ∗ (∃ d, owns (c : Thread nD τ) arg8 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (k0_pay2 x0) ∗ owns (c : Thread nD τ) arg7 fullShare (k0_pay3 x0 (k0_pay1 x1 x2) x3 x4)
            ∗ owns (c : Thread nD τ) arg8 fullShare (k0_pay1 x1 x2)) -∗ K ⟨⟩))
      ⊢ wp frame (wpE (defs₀ (F := F)) Variants.none c none) E (cc0__pass1_body i arg1 harg1 arg2 harg2 arg3 harg3 arg4 harg4 arg5 harg5 arg6 harg6 arg7 harg7 arg8 harg8) K := by
  simp only [cc0__pass1_body_eq_skeleton]; unfold cc0__pass1_body_skel
  unfold owns
  iintro ⟨⟨%f0, %hf0, H0⟩, ⟨%f1, %hf1, H1⟩, ⟨%f2, %hf2, H2⟩, ⟨%f3, %hf3, H3⟩, ⟨%f4, %hf4, H4⟩, ⟨%d6, %f6, -, H6⟩, ⟨%d7, %f7, -, H7⟩, ⟨%d8, %f8, -, H8⟩, Hk⟩
  obtain rfl := harg1.eq_unread hf0; obtain rfl := harg2.eq_unread hf1; obtain rfl := harg3.eq_unread hf2
  obtain rfl := harg4.eq_unread hf3; obtain rfl := harg5.eq_unread hf4
  sl_exec (disch := first | exact hc)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H6]
  · iexists _; isplitr
    swap; · iexact H6
    ipureintro
    refine (read_writes_unit _ _ hz2 _ _).trans ?_
    simp only [View.readAt_eq_ld, harg1.read_unread, View.ld_unit_zero (S := S400x10000) hz2]
  isplitl [H7]
  · iexists _; isplitr
    swap; · iexact H7
    ipureintro
    refine (read_writes_unit _ _ hz2 _ _).trans ?_
    sl_unfold_run_names
    simp only [View.readAt_eq_ld, harg1.read_unread, harg2.read_unread, harg3.read_unread, harg4.read_unread, harg5.read_unread,
      View.readCov_unit_zero (S := S10000x20) arg8.view hz2,
      View.ld_unit_zero (S := S400x10000) hz2, View.ld_unit_zero (S := S10000x128) hz2, View.ld_unit_zero (S := S128x20) hz2, View.ld_unit_zero (S := S10000x20) hz2, View.ld_unit_zero (S := S1x20) hz2, View.ld_unit_zero (S := S20x20) hz2]
  iexists _; isplitr
  swap; · iexact H8
  ipureintro
  sl_unfold_run_names
  refine (read_writes_unit _ _ hz2 _ _).trans ?_
  simp only [View.readAt_eq_ld, harg2.read_unread, harg3.read_unread, View.ld_unit_zero (S := S10000x128) hz2, View.ld_unit_zero (S := S128x20) hz2]

end Cert.Kernel.Hand

end
-- ==== Proof.K.R0Frame.lean ====
/-
  Pass 1 of the kernel as a pipeline over 25 grid points, at any contents V of the buffers when the region is
  entered.  Window 0 is the 400-row block of the adjacency matrix at the point; windows 1 to 4 (x, W1, the bias row,
  W2) are whole arrays fetched once; window 5 is the block of the bf16 copy and window 6 the block of S2, both written
  back at every point.  The scratch buffer is filled at the first point with the product of x and W1 and holds it
  from then on: that is the invariant carried between points.  After the body at point t, window 5's buffer holds the
  cast of the adjacency block and window 6's the fused layer of that block against the kept product.
-/
import proofs.«180365_g15126874816640_cont_week2b_32_13_alg».proof.Proof.K.R0Run

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.Kernel Cert.Kernel.Gen

variable {F : FTy → Type} [FloatOps F]

local notation "𝕄" => MT nD τ sig Unit (Elt F) ℕ (UR sig nD τ) ℕ

open Cert.Lib

section Region0

variable (V : (c : Dev nD) → (b : Ref sig .tc) → Buf (Elt F) ((c : Thread nD τ).loc b))

/-- Window w's block at point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-! An input window's staging buffer holds its block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-- The first grid point. -/
abbrev t00 : Fin cfg0.N := ⟨0, by rw [show cfg0.N = 25 from N_0]; omega⟩

/-- The scratch operand, a whole scoped buffer of the kernel's own. -/
abbrev scM0 : Memref sig .tc .vmem S10000x20 .bf16 := Memref.whole cc0_scratch0

/-- What the scratch holds from the first point on: the product of x and W1 (in bf16). -/
def sc0 (c : Dev nD) : Vec F S10000x20 .bf16 := k0_pay1 (iblk0 V c 1 t00) (iblk0 V c 2 t00)

/-- The core's other scoped buffers that are no staging buffer of this call, each at some contents. -/
abbrev restA0 (c : Dev nD) : sProp 𝕄 :=
  iprop((∃ f : Buf (Elt F) ((c : Thread nD τ).loc cc1_stg0_0), ((c : Thread nD τ).loc cc1_stg0_0) ↦{fullShare} f)
    ∗ (∃ f : Buf (Elt F) ((c : Thread nD τ).loc cc1_stg0_1), ((c : Thread nD τ).loc cc1_stg0_1) ↦{fullShare} f)
    ∗ (∃ f : Buf (Elt F) ((c : Thread nD τ).loc cc1_stg1_0), ((c : Thread nD τ).loc cc1_stg1_0) ↦{fullShare} f)
    ∗ (∃ f : Buf (Elt F) ((c : Thread nD τ).loc cc1_stg2_0), ((c : Thread nD τ).loc cc1_stg2_0) ↦{fullShare} f)
    ∗ (∃ f : Buf (Elt F) ((c : Thread nD τ).loc cc1_stg3_0), ((c : Thread nD τ).loc cc1_stg3_0) ↦{fullShare} f)
    ∗ (∃ f : Buf (Elt F) ((c : Thread nD τ).loc cc1_stg4_0), ((c : Thread nD τ).loc cc1_stg4_0) ↦{fullShare} f)
    ∗ (∃ f : Buf (Elt F) ((c : Thread nD τ).loc cc1_stg5_0), ((c : Thread nD τ).loc cc1_stg5_0) ↦{fullShare} f)
    ∗ (∃ f : Buf (Elt F) ((c : Thread nD τ).loc cc1_stg5_1), ((c : Thread nD τ).loc cc1_stg5_1) ↦{fullShare} f)
    ∗ (∃ f : Buf (Elt F) ((c : Thread nD τ).loc cc1_stg6_0), ((c : Thread nD τ).loc cc1_stg6_0) ↦{fullShare} f)
    ∗ (∃ f : Buf (Elt F) ((c : Thread nD τ).loc cc1_stg6_1), ((c : Thread nD τ).loc cc1_stg6_1) ↦{fullShare} f)
    ∗ (∃ f : Buf (Elt F) ((c : Thread nD τ).loc cc1_scratch0), ((c : Thread nD τ).loc cc1_scratch0) ↦{fullShare} f))

/-- The class invariant with the scratch operand split off. -/
theorem PhiA0_eq (c : Dev nD) :
    (Pipeline.ΦA spec0 c : sProp 𝕄) = iprop(((∃ d, owns (c : Thread nD τ) scM0 fullShare d) ∗ restA0 c) ∗ (∃ r, prngReg c r)) := by
  unfold Pipeline.ΦA; rw [scopedRest0_eq]; simp only [scM0, owns_whole]; try rfl

/-- The invariant before position n: before the first point every scratch at anything; afterwards the scratch at
    the kept product. -/
def PhiS0 (c : Dev nD) : (n : ℕ) → n ≤ cfg0.N → sProp 𝕄
  | 0, _ => Pipeline.ΦA spec0 c
  | _ + 1, _ => iprop((owns (c : Thread nD τ) scM0 fullShare (sc0 V c) ∗ restA0 c) ∗ (∃ r, prngReg c r))

theorem PhiS0_zero (c : Dev nD) (n : ℕ) (h : n ≤ cfg0.N) (hz : n = 0) : PhiS0 V c n h = Pipeline.ΦA spec0 c := by
  subst hz; rfl
theorem PhiS0_pos (c : Dev nD) (n : ℕ) (h : n ≤ cfg0.N) (hz : n ≠ 0) :
    PhiS0 V c n h = iprop((owns (c : Thread nD τ) scM0 fullShare (sc0 V c) ∗ restA0 c) ∗ (∃ r, prngReg c r)) := by
  cases n with
  | zero => exact absurd rfl hz
  | succ n => rfl

/-- The proof data of pass 1 on core c. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => k0_pay2 (iblk0 V c 0 t)
    | ⟨6, _⟩ => k0_pay3 (iblk0 V c 0 t) (sc0 V c) (iblk0 V c 3 t) (iblk0 V c 4 t)
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = k0_pay2 (iblk0 V c 0 t) := by dsimp only [dat0]
theorem after0_6 (c : Dev nD) (t : Fin cfg0.N) :
    (dat0 V c).after 6 t = k0_pay3 (iblk0 V c 0 t) (sc0 V c) (iblk0 V c 3 t) (iblk0 V c 4 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d

theorem Phi0_castSucc (c : Dev nD) (t : Fin cfg0.N) :
    (dat0 V c).Φ t.castSucc = PhiS0 V c t.val (Nat.le_of_lt t.isLt) := by
  dsimp only [dat0]; simp only [Fin.coe_castSucc]

/-- What the body is called with at point t, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t))

set_option maxHeartbeats 4000000 in
/-- The body at any point: the inputs' buffers hold their blocks; the first point fills the scratch, every other
    finds it at the kept product and leaves it so. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4]
  rw [show (dat0 V c).owesAt () t.succ = (dat0 V c).owesAt () t.castSucc from rfl,
    show (dat0 V c).Φ t.succ = PhiS0 V c (t.val + 1) t.isLt from rfl, PhiS0_pos V c _ _ (Nat.succ_ne_zero _),
    after0_0, after0_1, after0_2, after0_3, after0_4, after0_5, after0_6, Phi0_castSucc]
  by_cases hz : t.val = 0
  · obtain rfl : t = t00 := Fin.ext hz
    rw [PhiS0_zero V c _ _ rfl, PhiA0_eq]
    iintro ⟨⟨⟨HS, HR⟩, Hg⟩, Ho, ⟨%d0, H0⟩, ⟨%d1, H1⟩, ⟨%d2, H2⟩, ⟨%d3, H3⟩, ⟨%d4, H4⟩, ⟨%d5, H5⟩, ⟨%d6, H6⟩⟩
    iapply (sound_kernel0_A c Set.univ (grid0.coords t00) _ _ _ _ _ _ _ _ _ _ _ _ _ _ _ _ ((hcond0 t00).mpr rfl)
      (iblk0 V c 0 t00) (iblk0 V c 1 t00) (iblk0 V c 2 t00) (iblk0 V c 3 t00) (iblk0 V c 4 t00) _)
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    isplitl [HS]; · iexact HS
    iintro ⟨H0, H1, H2, H3, H4, H5, H6, HS⟩
    isplitl [HS HR Hg]
    · isplitl [HS HR]
      · isplitl [HS]; · iexact HS
        iexact HR
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6
  · rw [PhiS0_pos V c _ _ hz]
    iintro ⟨⟨⟨HS, HR⟩, Hg⟩, Ho, ⟨%d0, H0⟩, ⟨%d1, H1⟩, ⟨%d2, H2⟩, ⟨%d3, H3⟩, ⟨%d4, H4⟩, ⟨%d5, H5⟩, ⟨%d6, H6⟩⟩
    iapply (sound_kernel0_B c Set.univ (grid0.coords t) _ _ _ _ _ _ _ _ _ _ _ _ _ _ _ _ (fun h => hz ((hcond0 t).mp h))
      (iblk0 V c 0 t) (iblk0 V c 1 t) (iblk0 V c 2 t) (iblk0 V c 3 t) (iblk0 V c 4 t) (sc0 V c) _)
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    isplitl [HS]; · iexact HS
    iintro ⟨H0, H1, H2, H3, H4, H5, H6, HS⟩
    isplitl [HS HR Hg]
    · isplitl [HS HR]
      · isplitl [HS]; · iexact HS
        iexact HR
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6

/-- The pipeline library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point, -/
theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

/-- and after the last point the invariant gives it back, the scratch's contents forgotten. -/
theorem hout0 (c : Dev nD) : (dat0 V c).Φ (Fin.last cfg0.N) ⊢ Pipeline.ΦA spec0 c := by
  rw [show (dat0 V c).Φ (Fin.last cfg0.N) = PhiS0 V c (Fin.last cfg0.N).val (Nat.le_of_lt_succ (Fin.last cfg0.N).isLt) from rfl,
    PhiS0_pos V c _ _ (by rw [Fin.val_last]; have : cfg0.N = 25 := N_0; omega), PhiA0_eq]
  iintro ⟨⟨HS, HR⟩, Hg⟩
  isplitl [HS HR]
  · isplitl [HS]; · iexists _; iexact HS
    iexact HR
  iexact Hg

end Region0

end Cert.Kernel.Hand

end
-- ==== Proof.K.R1Run.lean ====
/-
  Passes 2 and 3 of the kernel, one grid point (phase, row block).  In phase 0 the body multiplies its 1000-row
  block of the bf16 adjacency copy with S2, adds the bias, clamps at zero, multiplies with W3 and stores the
  1000 x 128 result into rows [1000 i, 1000 i + 1000) of a scratch buffer that holds S3; the output block is not
  touched.  In phase 1 it multiplies the block with the whole scratch, adds the bias, clamps, adds the block of x
  and clamps again into the output block; the scratch is left as it is.  This file runs the body on whole staging
  buffers in these two control cases.
-/
import proofs.«180365_g15126874816640_cont_week2b_32_13_alg».proof.Proof.Gen.Kernel.Launch
import proofs.«180365_g15126874816640_cont_week2b_32_13_alg».proof.Proof.Gen.Kernel.Skeleton
import proofs.«180365_g15126874816640_cont_week2b_32_13_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.Pipeline.Value
import proofs.«180365_g15126874816640_cont_week2b_32_13_alg».proof.Proof.LibUnitStore

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.Kernel Cert.Kernel.Gen

variable {F : FTy → Type} [FloatOps F]

local notation "𝕄" => MT nD τ sig Unit (Elt F) ℕ (UR sig nD τ) ℕ

open Cert.Lib

/-- Where phase 0 stores at point i: the scratch's rows [1000 i, 1000 i + 1000), all 128 columns. -/
abbrev s3rect (i : grid1.Coords) (h1 : k1_cond1 i = 1#1) : Rect S10000x128 :=
  Rect.unit (s := S10000x128) (k1_off1 i) S1000x128.size (k1_off1_inb i h1)

set_option maxHeartbeats 1000000 in
/-- Phase 0. -/
theorem sound_kernel1_A (c : Dev nD) (E : Set ℕ) (i : grid1.Coords)
    (arg2 : Memref sig .tc .vmem S1000x10000 .bf16) (harg2 : arg2.IsWhole) (arg3 : Memref sig .tc .vmem S10000x20 .bf16) (harg3 : arg3.IsWhole)
    (arg4 : Memref sig .tc .vmem S1x20 .f32) (harg4 : arg4.IsWhole) (arg5 : Memref sig .tc .vmem S20x128 .f32) (harg5 : arg5.IsWhole)
    (arg6 : Memref sig .tc .vmem S1x128 .f32) (harg6 : arg6.IsWhole) (arg7 : Memref sig .tc .vmem S1000x128 .f32) (harg7 : arg7.IsWhole)
    (arg8 : Memref sig .tc .vmem S1000x128 .f32) (harg8 : arg8.IsWhole) (arg9 : Memref sig .tc .vmem S10000x128 .bf16) (harg9 : arg9.IsWhole)
    (h1 : k1_cond1 i = 1#1) (h2 : ¬k1_cond2 i = 1#1)
    (x0 : Vec F S1000x10000 .bf16) (x1 : Vec F S10000x20 .bf16) (x2 : Vec F S1x20 .f32) (x3 : Vec F S20x128 .f32) (x4 : Vec F S1x128 .f32) (x5 : Vec F S1000x128 .f32)
    (xs : Vec F S10000x128 .bf16) (xo : Vec F S1000x128 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xo ∗ owns (c : Thread nD τ) arg9 fullShare xs
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xo
            ∗ owns (c : Thread nD τ) arg9 fullShare ((s3rect i h1).overlay xs (k1_pay1 x0 x1 x2 x3))) -∗ K ⟨⟩))
      ⊢ wp frame (wpE (defs₀ (F := F)) Variants.none c none) E (cc1__pass23_body i arg2 harg2 arg3 harg3 arg4 harg4 arg5 harg5 arg6 harg6 arg7 harg7 arg8 harg8 arg9 harg9) K := by
  simp only [cc1__pass23_body_eq_skeleton]; unfold cc1__pass23_body_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f8, %hf8, H8⟩, ⟨%f9, %hf9, H9⟩, Hk⟩
  obtain rfl := harg2.eq_unread hf0; obtain rfl := harg3.eq_unread hf1; obtain rfl := harg4.eq_unread hf2
  obtain rfl := harg5.eq_unread hf3; obtain rfl := harg6.eq_unread hf4; obtain rfl := harg7.eq_unread hf5
  obtain rfl := harg8.eq_unread hf8; obtain rfl := harg9.eq_unread hf9
  sl_exec (disch := first | exact h1 | exact h2)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H8]
  · iexists _; isplitr; · ipureintro; exact harg8.read_unread _
    iexact H8
  iexists _; isplitr
  swap; · iexact H9
  ipureintro
  refine (read_writes_one _ _ _ _).trans ?_
  simp only [View.readAt_eq_ld, harg2.read_unread, harg3.read_unread, harg4.read_unread, harg5.read_unread, harg9.read_unread,
    View.ld_unit_zero (S := S1000x10000) hz2, View.ld_unit_zero (S := S10000x20) hz2, View.ld_unit_zero (S := S1x20) hz2, View.ld_unit_zero (S := S20x128) hz2]

set_option maxHeartbeats 1000000 in
/-- Phase 1. -/
theorem sound_kernel1_B (c : Dev nD) (E : Set ℕ) (i : grid1.Coords)
    (arg2 : Memref sig .tc .vmem S1000x10000 .bf16) (harg2 : arg2.IsWhole) (arg3 : Memref sig .tc .vmem S10000x20 .bf16) (harg3 : arg3.IsWhole)
    (arg4 : Memref sig .tc .vmem S1x20 .f32) (harg4 : arg4.IsWhole) (arg5 : Memref sig .tc .vmem S20x128 .f32) (harg5 : arg5.IsWhole)
    (arg6 : Memref sig .tc .vmem S1x128 .f32) (harg6 : arg6.IsWhole) (arg7 : Memref sig .tc .vmem S1000x128 .f32) (harg7 : arg7.IsWhole)
    (arg8 : Memref sig .tc .vmem S1000x128 .f32) (harg8 : arg8.IsWhole) (arg9 : Memref sig .tc .vmem S10000x128 .bf16) (harg9 : arg9.IsWhole)
    (h1 : ¬k1_cond1 i = 1#1) (h2 : k1_cond2 i = 1#1)
    (x0 : Vec F S1000x10000 .bf16) (x1 : Vec F S10000x20 .bf16) (x2 : Vec F S1x20 .f32) (x3 : Vec F S20x128 .f32) (x4 : Vec F S1x128 .f32) (x5 : Vec F S1000x128 .f32)
    (xs : Vec F S10000x128 .bf16) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ owns (c : Thread nD τ) arg9 fullShare xs
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare (k1_pay2 x0 xs x4 x5)
            ∗ owns (c : Thread nD τ) arg9 fullShare xs) -∗ K ⟨⟩))
      ⊢ wp frame (wpE (defs₀ (F := F)) Variants.none c none) E (cc1__pass23_body i arg2 harg2 arg3 harg3 arg4 harg4 arg5 harg5 arg6 harg6 arg7 harg7 arg8 harg8 arg9 harg9) K := by
  simp only [cc1__pass23_body_eq_skeleton]; unfold cc1__pass23_body_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d8, %f8, -, H8⟩, ⟨%f9, %hf9, H9⟩, Hk⟩
  obtain rfl := harg2.eq_unread hf0; obtain rfl := harg3.eq_unread hf1; obtain rfl := harg4.eq_unread hf2
  obtain rfl := harg5.eq_unread hf3; obtain rfl := harg6.eq_unread hf4; obtain rfl := harg7.eq_unread hf5
  obtain rfl := harg9.eq_unread hf9
  sl_exec (disch := first | exact h1 | exact h2)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H8]
  · iexists _; isplitr
    swap; · iexact H8
    ipureintro
    refine (read_writes_unit _ _ hz2 _ _).trans ?_
    simp only [View.readAt_eq_ld, harg2.read_unread, harg6.read_unread, harg7.read_unread, harg9.read_unread,
      View.ld_unit_zero (S := S1000x10000) hz2, View.ld_unit_zero (S := S10000x128) hz2, View.ld_unit_zero (S := S1x128) hz2, View.ld_unit_zero (S := S1000x128) hz2]
  iexists _; isplitr; · ipureintro; exact harg9.read_unread _
  iexact H9

end Cert.Kernel.Hand

end
-- ==== Proof.K.R1Frame.lean ====
/-
  Passes 2 and 3 of the kernel as one pipeline over 20 grid points (phase 0: points 0 to 9, phase 1: points 10 to
  19), at any contents V of the buffers when the region is entered.  Window 0 is the 1000-row block of the bf16
  adjacency copy; windows 1 to 4 (S2, the bias row b2, W3, the bias row b3) are whole arrays fetched once; window
  5 is a block of x; window 6 the output block, idle and not written back during phase 0.  The scratch buffer
  collects S3 during phase 0, 1000 rows per point: what is carried between points is that its rows below
  1000 n agree, before point n, with the array built by laying the ten phase-0 results one over the other.
  After phase 0 that is the whole buffer, which phase 1 reads.
-/
import proofs.«180365_g15126874816640_cont_week2b_32_13_alg».proof.Proof.K.R1Run
import Idealize.ShloMosaic.Lib.ValueIdx

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.Kernel Cert.Kernel.Gen

variable {F : FTy → Type} [FloatOps F]

local notation "𝕄" => MT nD τ sig Unit (Elt F) ℕ (UR sig nD τ) ℕ

open Cert.Lib

section Region1

variable (V : (c : Dev nD) → (b : Ref sig .tc) → Buf (Elt F) ((c : Thread nD τ).loc b))

/-- Window w's block at point t, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! An input window's staging buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

/-! The two conditionals in closed form over the grid, the output window's idle points, the scratch offset. -/
theorem hcond1 : ∀ t : Fin cfg1.N, k1_cond1 (grid1.coords t) = 1#1 ↔ t.val < 10 :=
  (by decide +kernel : ∀ t : Fin grid1.N, k1_cond1 (grid1.coords t) = 1#1 ↔ t.val < 10)
theorem hcond2 : ∀ t : Fin cfg1.N, k1_cond2 (grid1.coords t) = 1#1 ↔ 10 ≤ t.val :=
  (by decide +kernel : ∀ t : Fin grid1.N, k1_cond2 (grid1.coords t) = 1#1 ↔ 10 ≤ t.val)
theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem liveAt1_3 : ∀ t : Fin cfg1.N, cfg1.idle 3 (grid1.coords t) = false := by decide +kernel
theorem liveAt1_4 : ∀ t : Fin cfg1.N, cfg1.idle 4 (grid1.coords t) = false := by decide +kernel
theorem liveAt1_5 : ∀ t : Fin cfg1.N, cfg1.idle 5 (grid1.coords t) = false := by decide +kernel
theorem idleAt1_6 : ∀ t : Fin cfg1.N, t.val < 10 → cfg1.idle 6 (grid1.coords t) = true := by decide +kernel
theorem noFlush1_6 : ∀ t : Fin cfg1.N, t.val < 10 → (cfg1.win 6).flush t = false := by decide +kernel
theorem liveAt1_6 : ∀ t : Fin cfg1.N, 10 ≤ t.val → cfg1.idle 6 (grid1.coords t) = false := by decide +kernel
theorem off1_0 : ∀ t : Fin cfg1.N, t.val < 10 → k1_off1 (grid1.coords t) 0 = 1000 * t.val :=
  (by decide +kernel : ∀ t : Fin grid1.N, t.val < 10 → k1_off1 (grid1.coords t) 0 = 1000 * t.val)
theorem off1_1 : ∀ t : Fin cfg1.N, t.val < 10 → k1_off1 (grid1.coords t) 1 = 0 :=
  (by decide +kernel : ∀ t : Fin grid1.N, t.val < 10 → k1_off1 (grid1.coords t) 1 = 0)

/-- Phase 0's store at point t covers exactly the rows [1000 t, 1000 t + 1000). -/
theorem mem_s3rect_iff (t : Fin cfg1.N) (ht : t.val < 10) (h1 : k1_cond1 (grid1.coords t) = 1#1) (y : S10000x128.Idx) :
    y ∈ (s3rect (grid1.coords t) h1).set ↔ 1000 * t.val ≤ (y 0).val ∧ (y 0).val < 1000 * t.val + 1000 := by
  rw [Rect.mem_set_unit]
  have e0 := off1_0 t ht
  have e1 := off1_1 t ht
  have hs0 : S1000x128.size (0 : Fin 2) = 1000 := rfl
  have hs1 : S1000x128.size (1 : Fin 2) = 128 := rfl
  have hy1 : (y 1).val < 128 := ValueIdx.idx2_lt1 y
  constructor
  · intro h
    have h0 := h (0 : Fin 2)
    rw [e0, hs0] at h0
    exact h0
  · intro h a
    match a with
    | ⟨0, _⟩ => rw [show ((⟨0, by decide⟩ : Fin S10000x128.rank)) = (0 : Fin 2) from rfl, e0, hs0]; exact h
    | ⟨1, _⟩ => rw [show ((⟨1, by decide⟩ : Fin S10000x128.rank)) = (1 : Fin 2) from rfl, e1, hs1]; omega

/-- The scratch operand, a whole scoped buffer of the kernel's own. -/
abbrev scM1 : Memref sig .tc .vmem S10000x128 .bf16 := Memref.whole cc1_scratch0

/-- Point n of the grid, for n below 10. -/
abbrev pt1 (n : ℕ) (h : n < 10) : Fin cfg1.N := ⟨n, by rw [show cfg1.N = 20 from N_1]; omega⟩

/-- What point t of phase 0 stores: the fused second layer of its adjacency block, times W3. -/
def s3blk (c : Dev nD) (t : Fin cfg1.N) : Vec F S1000x128 .bf16 :=
  k1_pay1 (iblk1 V c 0 t) (iblk1 V c 1 t) (iblk1 V c 2 t) (iblk1 V c 3 t)

/-- The first n phase-0 results laid one over the other, over arbitrary contents. -/
def scN (c : Dev nD) : ℕ → Vec F S10000x128 .bf16
  | 0 => fun _ => Classical.choice (Elt.nonempty F _)
  | n + 1 => if h : n < 10 then (s3rect (grid1.coords (pt1 n h)) ((hcond1 (pt1 n h)).mpr h)).overlay (scN c n) (s3blk V c (pt1 n h)) else scN c n

/-- The scratch after phase 0: all ten. -/
def scFull (c : Dev nD) : Vec F S10000x128 .bf16 := scN V c 10

theorem scN_succ (c : Dev nD) (n : ℕ) (h : n < 10) :
    scN V c (n + 1) = (s3rect (grid1.coords (pt1 n h)) ((hcond1 (pt1 n h)).mpr h)).overlay (scN V c n) (s3blk V c (pt1 n h)) := by
  rw [scN, dif_pos h]

/-- Later results leave the rows below 1000 n as the first n left them. -/
theorem scN_stable (c : Dev nD) (n : ℕ) (y : S10000x128.Idx) (hy : (y 0).val < 1000 * n) :
    ∀ k, n ≤ k → scN V c k y = scN V c n y := by
  intro k hk
  induction k, hk using Nat.le_induction with
  | base => rfl
  | succ k hk ih =>
    by_cases h : k < 10
    · rw [scN_succ V c k h, Rect.overlay_of_not_mem _ _ _ (fun hm => by
        have := (mem_s3rect_iff (pt1 k h) h _ y).mp hm
        have hk' : (pt1 k h).val = k := rfl
        rw [hk'] at this
        have : 1000 * n ≤ 1000 * k := Nat.mul_le_mul_left _ hk
        omega), ih]
    · rw [scN, dif_neg h, ih]

/-- Rows below 1000 n hold what the ten results leave there. -/
def Agree1 (c : Dev nD) (n : ℕ) (xs : Vec F S10000x128 .bf16) : Prop :=
  ∀ y : S10000x128.Idx, (y 0).val < 1000 * n → xs y = scFull V c y

theorem agree1_zero (c : Dev nD) (xs : Vec F S10000x128 .bf16) : Agree1 V c 0 xs :=
  fun y h => absurd h (by omega)

/-- One more phase-0 point: its store extends the agreement by 1000 rows. -/
theorem agree1_step (c : Dev nD) (t : Fin cfg1.N) (ht : t.val < 10) (h1 : k1_cond1 (grid1.coords t) = 1#1)
    (xs : Vec F S10000x128 .bf16) (hxs : Agree1 V c t.val xs) :
    Agree1 V c (t.val + 1) ((s3rect (grid1.coords t) h1).overlay xs (s3blk V c t)) := by
  intro y hy
  obtain ⟨n, hn⟩ := t
  have ht0 : n < 10 := ht
  have hy0 : (y 0).val < 1000 * (n + 1) := hy
  by_cases hm : y ∈ (s3rect (grid1.coords ⟨n, hn⟩) h1).set
  · obtain ⟨x, rfl⟩ : ∃ x, (s3rect (grid1.coords ⟨n, hn⟩) h1).emb x = y := (s3rect (grid1.coords ⟨n, hn⟩) h1).exists_idx_of_mem hm
    rw [Rect.overlay_emb]
    unfold scFull
    rw [scN_stable V c (n + 1) _ hy0 10 (by omega), scN_succ V c n ht0]
    exact (Rect.overlay_emb _ _ _ x).symm
  · rw [Rect.overlay_of_not_mem _ _ _ hm]
    refine hxs y ?_
    have := (mem_s3rect_iff ⟨n, hn⟩ ht h1 y).not.mp hm
    show (y 0).val < 1000 * n
    have e : (⟨n, hn⟩ : Fin cfg1.N).val = n := rfl
    rw [e] at this
    omega

/-- The core's other scoped buffers that are no staging buffer of this call, each at some contents, then S. -/
abbrev chain1 (c : Dev nD) (S : sProp 𝕄) : sProp 𝕄 :=
  iprop((∃ f : Buf (Elt F) ((c : Thread nD τ).loc cc0_stg0_0), ((c : Thread nD τ).loc cc0_stg0_0) ↦{fullShare} f)
    ∗ (∃ f : Buf (Elt F) ((c : Thread nD τ).loc cc0_stg0_1), ((c : Thread nD τ).loc cc0_stg0_1) ↦{fullShare} f)
    ∗ (∃ f : Buf (Elt F) ((c : Thread nD τ).loc cc0_stg1_0), ((c : Thread nD τ).loc cc0_stg1_0) ↦{fullShare} f)
    ∗ (∃ f : Buf (Elt F) ((c : Thread nD τ).loc cc0_stg2_0), ((c : Thread nD τ).loc cc0_stg2_0) ↦{fullShare} f)
    ∗ (∃ f : Buf (Elt F) ((c : Thread nD τ).loc cc0_stg3_0), ((c : Thread nD τ).loc cc0_stg3_0) ↦{fullShare} f)
    ∗ (∃ f : Buf (Elt F) ((c : Thread nD τ).loc cc0_stg4_0), ((c : Thread nD τ).loc cc0_stg4_0) ↦{fullShare} f)
    ∗ (∃ f : Buf (Elt F) ((c : Thread nD τ).loc cc0_stg5_0), ((c : Thread nD τ).loc cc0_stg5_0) ↦{fullShare} f)
    ∗ (∃ f : Buf (Elt F) ((c : Thread nD τ).loc cc0_stg5_1), ((c : Thread nD τ).loc cc0_stg5_1) ↦{fullShare} f)
    ∗ (∃ f : Buf (Elt F) ((c : Thread nD τ).loc cc0_stg6_0), ((c : Thread nD τ).loc cc0_stg6_0) ↦{fullShare} f)
    ∗ (∃ f : Buf (Elt F) ((c : Thread nD τ).loc cc0_stg6_1), ((c : Thread nD τ).loc cc0_stg6_1) ↦{fullShare} f)
    ∗ (∃ f : Buf (Elt F) ((c : Thread nD τ).loc cc0_scratch0), ((c : Thread nD τ).loc cc0_scratch0) ↦{fullShare} f)
    ∗ S)

/-- The class invariant with the scratch operand named. -/
theorem PhiA1_eq (c : Dev nD) :
    (Pipeline.ΦA spec1 c : sProp 𝕄) = iprop(chain1 c iprop(∃ d, owns (c : Thread nD τ) scM1 fullShare d) ∗ (∃ r, prngReg c r)) := by
  unfold Pipeline.ΦA; rw [scopedRest1_eq]; simp only [scM1, owns_whole]; try rfl

/-- The invariant before position n. -/
def PhiS1 (c : Dev nD) (n : ℕ) : sProp 𝕄 :=
  iprop(chain1 c iprop(∃ xs, ⌜Agree1 V c n xs⌝ ∗ owns (c : Thread nD τ) scM1 fullShare xs) ∗ (∃ r, prngReg c r))

/-- The proof data of passes 2 and 3 on core c. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => k1_pay2 (iblk1 V c 0 t) (scFull V c) (iblk1 V c 4 t) (iblk1 V c 5 t)
  Φ t := PhiS1 V c t.val
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) :
    (dat1 V c).after 6 t = k1_pay2 (iblk1 V c 0 t) (scFull V c) (iblk1 V c 4 t) (iblk1 V c 5 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d

theorem Phi1_castSucc (c : Dev nD) (t : Fin cfg1.N) : (dat1 V c).Φ t.castSucc = PhiS1 V c t.val := by
  dsimp only [dat1]; simp only [Fin.coe_castSucc]

/-- What the body is called with at point t, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t
    ∗ (dat1 V c).leavesExact 6 t)

set_option maxHeartbeats 4000000 in
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5]
  rw [show (dat1 V c).owesAt () t.succ = (dat1 V c).owesAt () t.castSucc from rfl,
    show (dat1 V c).Φ t.succ = PhiS1 V c (t.val + 1) from rfl, Phi1_castSucc]
  rw [show (dat1 V c).leavesExact 0 t = owns (c : Thread nD τ) (st1_0 t) fullShare ((dat1 V c).after 0 t) from by
    unfold Dat.leavesExact; rw [liveAt1_0 t], after1_0]
  rw [show (dat1 V c).leavesExact 1 t = owns (c : Thread nD τ) (st1_1 t) fullShare ((dat1 V c).after 1 t) from by
    unfold Dat.leavesExact; rw [liveAt1_1 t], after1_1]
  rw [show (dat1 V c).leavesExact 2 t = owns (c : Thread nD τ) (st1_2 t) fullShare ((dat1 V c).after 2 t) from by
    unfold Dat.leavesExact; rw [liveAt1_2 t], after1_2]
  rw [show (dat1 V c).leavesExact 3 t = owns (c : Thread nD τ) (st1_3 t) fullShare ((dat1 V c).after 3 t) from by
    unfold Dat.leavesExact; rw [liveAt1_3 t], after1_3]
  rw [show (dat1 V c).leavesExact 4 t = owns (c : Thread nD τ) (st1_4 t) fullShare ((dat1 V c).after 4 t) from by
    unfold Dat.leavesExact; rw [liveAt1_4 t], after1_4]
  rw [show (dat1 V c).leavesExact 5 t = owns (c : Thread nD τ) (st1_5 t) fullShare ((dat1 V c).after 5 t) from by
    unfold Dat.leavesExact; rw [liveAt1_5 t], after1_5]
  unfold PhiS1
  by_cases ht : t.val < 10
  · have h1 := (hcond1 t).mpr ht
    have h2 : ¬k1_cond2 (grid1.coords t) = 1#1 := fun h => by have := (hcond2 t).mp h; omega
    rw [Dat.leavesExact_idle (dat1 V c) 6 t (idleAt1_6 t ht) (noFlush1_6 t ht)]
    iintro ⟨⟨⟨T1, T2, T3, T4, T5, T6, T7, T8, T9, T10, T11, ⟨%xs, %hxs, HS⟩⟩, Hg⟩, Ho, ⟨%d0, H0⟩, ⟨%d1, H1⟩, ⟨%d2, H2⟩, ⟨%d3, H3⟩, ⟨%d4, H4⟩, ⟨%d5, H5⟩, ⟨%d6, H6⟩⟩
    iapply (sound_kernel1_A c Set.univ (grid1.coords t) _ _ _ _ _ _ _ _ _ _ _ _ _ _ _ _ h1 h2
      (iblk1 V c 0 t) (iblk1 V c 1 t) (iblk1 V c 2 t) (iblk1 V c 3 t) (iblk1 V c 4 t) (iblk1 V c 5 t) xs ((dat1 V c).before 6 t d6) _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [HS]; · iexact HS
    iintro ⟨H0, H1, H2, H3, H4, H5, H6, HS⟩
    isplitl [T1 T2 T3 T4 T5 T6 T7 T8 T9 T10 T11 HS Hg]
    · isplitl [T1 T2 T3 T4 T5 T6 T7 T8 T9 T10 T11 HS]
      · isplitl [T1]; · iexact T1
        isplitl [T2]; · iexact T2
        isplitl [T3]; · iexact T3
        isplitl [T4]; · iexact T4
        isplitl [T5]; · iexact T5
        isplitl [T6]; · iexact T6
        isplitl [T7]; · iexact T7
        isplitl [T8]; · iexact T8
        isplitl [T9]; · iexact T9
        isplitl [T10]; · iexact T10
        isplitl [T11]; · iexact T11
        iexists _; isplitr; · ipureintro; exact agree1_step V c t ht h1 xs hxs
        iexact HS
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexists d6; iexact H6
  · have h2 := (hcond2 t).mpr (Nat.le_of_not_lt ht)
    have h1 : ¬k1_cond1 (grid1.coords t) = 1#1 := fun h => ht ((hcond1 t).mp h)
    rw [show (dat1 V c).leavesExact 6 t = owns (c : Thread nD τ) (st1_6 t) fullShare ((dat1 V c).after 6 t) from by
      unfold Dat.leavesExact; rw [liveAt1_6 t (Nat.le_of_not_lt ht)], after1_6]
    iintro ⟨⟨⟨T1, T2, T3, T4, T5, T6, T7, T8, T9, T10, T11, ⟨%xs, %hxs, HS⟩⟩, Hg⟩, Ho, ⟨%d0, H0⟩, ⟨%d1, H1⟩, ⟨%d2, H2⟩, ⟨%d3, H3⟩, ⟨%d4, H4⟩, ⟨%d5, H5⟩, ⟨%d6, H6⟩⟩
    obtain rfl : xs = scFull V c := funext fun y => hxs y (by have := ValueIdx.idx2_lt0 y; omega)
    iapply (sound_kernel1_B c Set.univ (grid1.coords t) _ _ _ _ _ _ _ _ _ _ _ _ _ _ _ _ h1 h2
      (iblk1 V c 0 t) (iblk1 V c 1 t) (iblk1 V c 2 t) (iblk1 V c 3 t) (iblk1 V c 4 t) (iblk1 V c 5 t) (scFull V c) _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [HS]; · iexact HS
    iintro ⟨H0, H1, H2, H3, H4, H5, H6, HS⟩
    isplitl [T1 T2 T3 T4 T5 T6 T7 T8 T9 T10 T11 HS Hg]
    · isplitl [T1 T2 T3 T4 T5 T6 T7 T8 T9 T10 T11 HS]
      · isplitl [T1]; · iexact T1
        isplitl [T2]; · iexact T2
        isplitl [T3]; · iexact T3
        isplitl [T4]; · iexact T4
        isplitl [T5]; · iexact T5
        isplitl [T6]; · iexact T6
        isplitl [T7]; · iexact T7
        isplitl [T8]; · iexact T8
        isplitl [T9]; · iexact T9
        isplitl [T10]; · iexact T10
        isplitl [T11]; · iexact T11
        iexists _; isplitr; · ipureintro; exact fun y _ => rfl
        iexact HS
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6

/-- The pipeline library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point (nothing is claimed of the scratch), -/
theorem hin1 (c : Dev nD) : Pipeline.ΦA spec1 c ⊢ (dat1 V c).Φ 0 := by
  rw [show (dat1 V c).Φ 0 = PhiS1 V c 0 from rfl, PhiA1_eq]; unfold PhiS1
  iintro ⟨⟨T1, T2, T3, T4, T5, T6, T7, T8, T9, T10, T11, ⟨%d, HS⟩⟩, Hg⟩
  isplitl [T1 T2 T3 T4 T5 T6 T7 T8 T9 T10 T11 HS]
  · isplitl [T1]; · iexact T1
    isplitl [T2]; · iexact T2
    isplitl [T3]; · iexact T3
    isplitl [T4]; · iexact T4
    isplitl [T5]; · iexact T5
    isplitl [T6]; · iexact T6
    isplitl [T7]; · iexact T7
    isplitl [T8]; · iexact T8
    isplitl [T9]; · iexact T9
    isplitl [T10]; · iexact T10
    isplitl [T11]; · iexact T11
    iexists d; isplitr; · ipureintro; exact agree1_zero V c d
    iexact HS
  iexact Hg

/-- and after the last point the invariant gives it back, the scratch's contents forgotten. -/
theorem hout1 (c : Dev nD) : (dat1 V c).Φ (Fin.last cfg1.N) ⊢ Pipeline.ΦA spec1 c := by
  rw [show (dat1 V c).Φ (Fin.last cfg1.N) = PhiS1 V c (Fin.last cfg1.N).val from rfl, PhiA1_eq]; unfold PhiS1
  iintro ⟨⟨T1, T2, T3, T4, T5, T6, T7, T8, T9, T10, T11, ⟨%xs, -, HS⟩⟩, Hg⟩
  isplitl [T1 T2 T3 T4 T5 T6 T7 T8 T9 T10 T11 HS]
  · isplitl [T1]; · iexact T1
    isplitl [T2]; · iexact T2
    isplitl [T3]; · iexact T3
    isplitl [T4]; · iexact T4
    isplitl [T5]; · iexact T5
    isplitl [T6]; · iexact T6
    isplitl [T7]; · iexact T7
    isplitl [T8]; · iexact T8
    isplitl [T9]; · iexact T9
    isplitl [T10]; · iexact T10
    isplitl [T11]; · iexact T11
    iexists xs; iexact HS
  iexact Hg

end Region1

end Cert.Kernel.Hand

end
-- ==== Proof.K.Run.lean ====
/-
  The whole program on every core: three reshapes of the bias vectors on the host, then the two kernel launches.
  The contents of the unscoped buffers at each boundary are a fold from the launch memory: after the reshapes, after
  pass 1 (its two output arrays at what its write-backs leave, everything else as before), after passes 2 and 3
  (the result array at what its write-backs leave).  Every weakly fair execution terminates without a fault with
  every unscoped buffer at the last of these; the eight argument arrays walk back through the fold to the launch
  memory, since no host operation and no kernel launch writes one.
-/
import proofs.«180365_g15126874816640_cont_week2b_32_13_alg».proof.Proof.K.R0Frame
import proofs.«180365_g15126874816640_cont_week2b_32_13_alg».proof.Proof.K.R1Frame

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Core c's buffers at launch. -/
abbrev E0 : Dev nD → Valuation τ sig (Elt F) := fun c b => (s₀ m ρ).mem ((c : Dev nD), b)
/-- After the three reshapes (pass 1's entry). -/
abbrev E1 : Dev nD → Valuation τ sig (Elt F) := fun c => StableHlo.after hostOps0 (E0 m ρ c)
/-- The same read at the TensorCore's references. -/
abbrev B1 : (c : Dev nD) → (b : Ref sig .tc) → Buf (Elt F) ((c : Thread nD τ).loc b) := fun c b => E1 m ρ c b
/-- After pass 1: its arrays at what the pipeline leaves, every other buffer as entered. -/
def E2 (c : Dev nD) : Valuation τ sig (Elt F) :=
  Pipeline.withArrays spec0 c (E1 m ρ c) fun w => (dat0 (B1 m ρ) c).arrAt w cfg0.N
theorem E2_arr (c : Dev nD) (w : Fin cfg0.W) :
    E2 m ρ c (Proc.devRef .tc (Pipeline.arrRef spec0 w)) = (dat0 (B1 m ρ) c).arrAt w cfg0.N := by
  unfold E2; exact Pipeline.withArrays_arr spec0 launch0.win.arr_inj c _ _ w
theorem E2_of_ne (c : Dev nD) (b : Ref sig .tc) (hb : ∀ w, Pipeline.arrRef spec0 w ≠ b) :
    E2 m ρ c (Proc.devRef .tc b) = E1 m ρ c (Proc.devRef .tc b) := by
  unfold E2; exact Pipeline.withArrays_of_ne spec0 c _ _ b hb
abbrev B2 : (c : Dev nD) → (b : Ref sig .tc) → Buf (Elt F) ((c : Thread nD τ).loc b) := fun c b => E2 m ρ c b
theorem hF0 (c : Dev nD) (w : Fin cfg0.W) : (dat0 (B1 m ρ) c).arrAt w cfg0.N = B2 m ρ c (Pipeline.arrRef spec0 w) :=
  (E2_arr m ρ c w).symm
theorem hrest0 (c : Dev nD) : ∀ b, b ∉ Finset.univ.image (Pipeline.arrRef spec0) → B2 m ρ c b = B1 m ρ c b :=
  fun b hb => E2_of_ne m ρ c b fun w e => hb (Finset.mem_image.mpr ⟨w, Finset.mem_univ _, e⟩)

/-- After passes 2 and 3: their arrays at what the pipeline leaves, every other buffer as entered. -/
def E3 (c : Dev nD) : Valuation τ sig (Elt F) :=
  Pipeline.withArrays spec1 c (E2 m ρ c) fun w => (dat1 (B2 m ρ) c).arrAt w cfg1.N
theorem E3_arr (c : Dev nD) (w : Fin cfg1.W) :
    E3 m ρ c (Proc.devRef .tc (Pipeline.arrRef spec1 w)) = (dat1 (B2 m ρ) c).arrAt w cfg1.N := by
  unfold E3; exact Pipeline.withArrays_arr spec1 launch1.win.arr_inj c _ _ w
theorem E3_of_ne (c : Dev nD) (b : Ref sig .tc) (hb : ∀ w, Pipeline.arrRef spec1 w ≠ b) :
    E3 m ρ c (Proc.devRef .tc b) = E2 m ρ c (Proc.devRef .tc b) := by
  unfold E3; exact Pipeline.withArrays_of_ne spec1 c _ _ b hb
abbrev B3 : (c : Dev nD) → (b : Ref sig .tc) → Buf (Elt F) ((c : Thread nD τ).loc b) := fun c b => E3 m ρ c b
theorem hF1 (c : Dev nD) (w : Fin cfg1.W) : (dat1 (B2 m ρ) c).arrAt w cfg1.N = B3 m ρ c (Pipeline.arrRef spec1 w) :=
  (E3_arr m ρ c w).symm
theorem hrest1 (c : Dev nD) : ∀ b, b ∉ Finset.univ.image (Pipeline.arrRef spec1) → B3 m ρ c b = B2 m ρ c b :=
  fun b hb => E3_of_ne m ρ c b fun w e => hb (Finset.mem_image.mpr ⟨w, Finset.mem_univ _, e⟩)

/-! The arguments end as launched. -/
theorem E3_main_arg0 (c : Dev nD) : E3 m ρ c (Proc.devRef .tc main_arg0) = m ((c : Thread nD τ).loc main_arg0) :=
  calc E3 m ρ c (Proc.devRef .tc main_arg0)
    _ = E2 m ρ c (Proc.devRef .tc main_arg0) := (E3_arr m ρ c 5).trans (((dat1 (B2 m ρ) c).arrAt_in 5 rfl _).trans (A_eq1 (B2 m ρ) c 5))
    _ = E1 m ρ c (Proc.devRef .tc main_arg0) := (E2_arr m ρ c 1).trans (((dat0 (B1 m ρ) c).arrAt_in 1 rfl _).trans (A_eq0 (B1 m ρ) c 1))
    _ = E0 m ρ c (Proc.devRef .tc main_arg0) := StableHlo.after_of_forall_not_mem (b := Proc.devRef .tc main_arg0) _ _ (List.forall_iff_forall_mem.mp (by
          simp only [hostOps0, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg0) := rfl
theorem E3_main_arg1 (c : Dev nD) : E3 m ρ c (Proc.devRef .tc main_arg1) = m ((c : Thread nD τ).loc main_arg1) :=
  calc E3 m ρ c (Proc.devRef .tc main_arg1)
    _ = E2 m ρ c (Proc.devRef .tc main_arg1) := E3_of_ne m ρ c main_arg1 (by decide)
    _ = E1 m ρ c (Proc.devRef .tc main_arg1) := (E2_arr m ρ c 0).trans (((dat0 (B1 m ρ) c).arrAt_in 0 rfl _).trans (A_eq0 (B1 m ρ) c 0))
    _ = E0 m ρ c (Proc.devRef .tc main_arg1) := StableHlo.after_of_forall_not_mem (b := Proc.devRef .tc main_arg1) _ _ (List.forall_iff_forall_mem.mp (by
          simp only [hostOps0, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg1) := rfl
theorem E3_main_arg2 (c : Dev nD) : E3 m ρ c (Proc.devRef .tc main_arg2) = m ((c : Thread nD τ).loc main_arg2) :=
  calc E3 m ρ c (Proc.devRef .tc main_arg2)
    _ = E2 m ρ c (Proc.devRef .tc main_arg2) := E3_of_ne m ρ c main_arg2 (by decide)
    _ = E1 m ρ c (Proc.devRef .tc main_arg2) := (E2_arr m ρ c 2).trans (((dat0 (B1 m ρ) c).arrAt_in 2 rfl _).trans (A_eq0 (B1 m ρ) c 2))
    _ = E0 m ρ c (Proc.devRef .tc main_arg2) := StableHlo.after_of_forall_not_mem (b := Proc.devRef .tc main_arg2) _ _ (List.forall_iff_forall_mem.mp (by
          simp only [hostOps0, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg2) := rfl
theorem E3_main_arg3 (c : Dev nD) : E3 m ρ c (Proc.devRef .tc main_arg3) = m ((c : Thread nD τ).loc main_arg3) :=
  calc E3 m ρ c (Proc.devRef .tc main_arg3)
    _ = E2 m ρ c (Proc.devRef .tc main_arg3) := E3_of_ne m ρ c main_arg3 (by decide)
    _ = E1 m ρ c (Proc.devRef .tc main_arg3) := E2_of_ne m ρ c main_arg3 (by decide)
    _ = E0 m ρ c (Proc.devRef .tc main_arg3) := StableHlo.after_of_forall_not_mem (b := Proc.devRef .tc main_arg3) _ _ (List.forall_iff_forall_mem.mp (by
          simp only [hostOps0, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg3) := rfl
theorem E3_main_arg4 (c : Dev nD) : E3 m ρ c (Proc.devRef .tc main_arg4) = m ((c : Thread nD τ).loc main_arg4) :=
  calc E3 m ρ c (Proc.devRef .tc main_arg4)
    _ = E2 m ρ c (Proc.devRef .tc main_arg4) := E3_of_ne m ρ c main_arg4 (by decide)
    _ = E1 m ρ c (Proc.devRef .tc main_arg4) := (E2_arr m ρ c 4).trans (((dat0 (B1 m ρ) c).arrAt_in 4 rfl _).trans (A_eq0 (B1 m ρ) c 4))
    _ = E0 m ρ c (Proc.devRef .tc main_arg4) := StableHlo.after_of_forall_not_mem (b := Proc.devRef .tc main_arg4) _ _ (List.forall_iff_forall_mem.mp (by
          simp only [hostOps0, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg4) := rfl
theorem E3_main_arg5 (c : Dev nD) : E3 m ρ c (Proc.devRef .tc main_arg5) = m ((c : Thread nD τ).loc main_arg5) :=
  calc E3 m ρ c (Proc.devRef .tc main_arg5)
    _ = E2 m ρ c (Proc.devRef .tc main_arg5) := E3_of_ne m ρ c main_arg5 (by decide)
    _ = E1 m ρ c (Proc.devRef .tc main_arg5) := E2_of_ne m ρ c main_arg5 (by decide)
    _ = E0 m ρ c (Proc.devRef .tc main_arg5) := StableHlo.after_of_forall_not_mem (b := Proc.devRef .tc main_arg5) _ _ (List.forall_iff_forall_mem.mp (by
          simp only [hostOps0, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg5) := rfl
theorem E3_main_arg6 (c : Dev nD) : E3 m ρ c (Proc.devRef .tc main_arg6) = m ((c : Thread nD τ).loc main_arg6) :=
  calc E3 m ρ c (Proc.devRef .tc main_arg6)
    _ = E2 m ρ c (Proc.devRef .tc main_arg6) := (E3_arr m ρ c 3).trans (((dat1 (B2 m ρ) c).arrAt_in 3 rfl _).trans (A_eq1 (B2 m ρ) c 3))
    _ = E1 m ρ c (Proc.devRef .tc main_arg6) := E2_of_ne m ρ c main_arg6 (by decide)
    _ = E0 m ρ c (Proc.devRef .tc main_arg6) := StableHlo.after_of_forall_not_mem (b := Proc.devRef .tc main_arg6) _ _ (List.forall_iff_forall_mem.mp (by
          simp only [hostOps0, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg6) := rfl
theorem E3_main_arg7 (c : Dev nD) : E3 m ρ c (Proc.devRef .tc main_arg7) = m ((c : Thread nD τ).loc main_arg7) :=
  calc E3 m ρ c (Proc.devRef .tc main_arg7)
    _ = E2 m ρ c (Proc.devRef .tc main_arg7) := E3_of_ne m ρ c main_arg7 (by decide)
    _ = E1 m ρ c (Proc.devRef .tc main_arg7) := E2_of_ne m ρ c main_arg7 (by decide)
    _ = E0 m ρ c (Proc.devRef .tc main_arg7) := StableHlo.after_of_forall_not_mem (b := Proc.devRef .tc main_arg7) _ _ (List.forall_iff_forall_mem.mp (by
          simp only [hostOps0, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg7) := rfl

/-! The proof data family and the thread state. -/

abbrev adm : (p : Fin 2) → (pcfgs (F := F) p).Adm := fun p => (cfgs p).toPCfg_adm
def pdats : (p : Fin 2) → (c : Dev nD) → Dat τ (Elt F) Unit ℕ (UR sig nD τ) ℕ (Pipeline.pin (pcfgs (F := F)) adm p) c
  | ⟨0, _⟩ => fun c => dat0 (B1 m ρ) c
  | ⟨1, _⟩ => fun c => dat1 (B2 m ρ) c
abbrev 𝒱₀ : Variants := Variants.none
abbrev L : GSem nD τ sig → Finset Unit := fun _ => ∅
abbrev lv : GSem nD τ sig → Unit → ℕ := fun _ _ => 0
/-- What rides beside the buffers through every segment: the generator register at some state, nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem hostOps0_noalloc : (hostOps0 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (E3 m ρ c) ∗ ∃ r, prngReg c r)

/-! The two launches as segments: the arrays split out of the unscoped buffers at entry and put back at the exit
    contents; the generator register into the invariant and out; nothing owed; no semaphore of the kernels' own. -/

set_option backward.isDefEq.respectTransparency.types false in
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (B1 m ρ) c).loose
  hwaits := Pipeline.hwaits_of_owed_zero _ _ _ _ L lv 0 fun _ _ => rfl
  pre c := iprop(StableHlo.held (c : Thread nD τ) (Pipeline.ucRefs τ sig) (E1 m ρ c) ∗ R c)
  post c := iprop(StableHlo.held (c : Thread nD τ) (Pipeline.ucRefs τ sig) (E2 m ρ c) ∗ R c)
  X c := iprop(∃ r, prngReg c r)
  Y c := iprop(∃ r, prngReg c r)
  Z c := Pipeline.unscopedRest (Ix := Unit) (Name := ℕ) (U := UR sig nD τ) (Lvl := ℕ) spec0 c (B1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (B1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin0 (B1 m ρ) c)
    unfold Pipeline.ΦA
    iintro ⟨Hp, -, Hr⟩
    isplitl [Hr]; · iexact Hr
    iexact Hp
  hout c := by
    refine BIBase.Entails.trans (hout0 (B1 m ρ) c) ?_
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (B1 m ρ c) (B2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (B2 m ρ) c).loose
  hwaits := Pipeline.hwaits_of_owed_zero _ _ _ _ L lv 1 fun _ _ => rfl
  pre c := iprop(StableHlo.held (c : Thread nD τ) (Pipeline.ucRefs τ sig) (E2 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (B2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (B2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin1 (B2 m ρ) c)
    unfold Pipeline.ΦA
    iintro ⟨Hp, -, Hr⟩
    isplitl [Hr]; · iexact Hr
    iexact Hp
  hout c := by
    refine BIBase.Entails.trans (hout1 (B2 m ρ) c) ?_
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (B2 m ρ c) (B3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

abbrev segs : List (Pipeline.Seg (pcfgs (F := F)) adm (pdats m ρ) () defs₀ 𝒱₀ L lv) :=
  [ .host (hseg hostOps0 hostOps0_sub hostOps0_noalloc (E0 m ρ)),
    .region (reg0 m ρ),
    .region (reg1 m ρ) ]
theorem main_run (c : Dev nD) : main (F := F) c = Pipeline.Seg.run (segs m ρ) := (main_chain c).trans (by chain_rfl)

set_option backward.isDefEq.respectTransparency.types false in
/-- Every weakly fair execution terminates, nothing faulting, with every unscoped buffer at the last boundary's
    contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = E3 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (E0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (E0 m ρ c)
        from Pipeline.unscopedBufs_held c (E0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = E3 m ρ c b)
    (hfin := fun c s' => by
      iintro ⟨⟨Hh, -⟩, HSI⟩
      unfold StableHlo.held
      imodintro
      iapply (pointsTo_read_all (Pipeline.ucRefs τ sig) (fun b => (((c : Thread nD τ)).1, b)) (E3 m ρ c) s')
      isplitl [Hh] <;> iassumption)
    (hQ := fun s h => h)

/-- The frame: every execution terminates without a fault and the eight argument arrays end as launched. -/
theorem frame_all : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧       r.2.mem ((c.tc : Thread nD τ).loc main_arg1) = m ((c.tc : Thread nD τ).loc main_arg1)
      ∧       r.2.mem ((c.tc : Thread nD τ).loc main_arg2) = m ((c.tc : Thread nD τ).loc main_arg2)
      ∧       r.2.mem ((c.tc : Thread nD τ).loc main_arg3) = m ((c.tc : Thread nD τ).loc main_arg3)
      ∧       r.2.mem ((c.tc : Thread nD τ).loc main_arg4) = m ((c.tc : Thread nD τ).loc main_arg4)
      ∧       r.2.mem ((c.tc : Thread nD τ).loc main_arg5) = m ((c.tc : Thread nD τ).loc main_arg5)
      ∧       r.2.mem ((c.tc : Thread nD τ).loc main_arg6) = m ((c.tc : Thread nD τ).loc main_arg6)
      ∧       r.2.mem ((c.tc : Thread nD τ).loc main_arg7) = m ((c.tc : Thread nD τ).loc main_arg7)) :=
  (θ_run defs _ _).mono (fun r h c =>
    ⟨(h c _ (mem_uc main_arg0 (by decide))).trans (E3_main_arg0 m ρ c),
     (h c _ (mem_uc main_arg1 (by decide))).trans (E3_main_arg1 m ρ c),
     (h c _ (mem_uc main_arg2 (by decide))).trans (E3_main_arg2 m ρ c),
     (h c _ (mem_uc main_arg3 (by decide))).trans (E3_main_arg3 m ρ c),
     (h c _ (mem_uc main_arg4 (by decide))).trans (E3_main_arg4 m ρ c),
     (h c _ (mem_uc main_arg5 (by decide))).trans (E3_main_arg5 m ρ c),
     (h c _ (mem_uc main_arg6 (by decide))).trans (E3_main_arg6 m ρ c),
     (h c _ (mem_uc main_arg7 (by decide))).trans (E3_main_arg7 m ρ c)⟩) (run_all m ρ)

end Cert.Kernel.Hand

end
-- ==== Proof.KI.R0Run.lean ====
/-
  Pass 1 of the kernel, one grid point: the body (at the first point only) computes the product x W1 into a scratch
  buffer it keeps for all later points, then casts its 400-row block of the adjacency matrix to bf16 (written out as
  the bf16 copy), multiplies the block with the kept product, adds the bias, clamps at zero and multiplies with W2.
  This file runs that body on whole staging buffers in its two control cases: the first grid point, and any other.
-/
import proofs.«180365_g15126874816640_cont_week2b_32_13_alg».proof.Proof.Gen.KernelIdeal.Launch
import proofs.«180365_g15126874816640_cont_week2b_32_13_alg».proof.Proof.Gen.KernelIdeal.Skeleton
import proofs.«180365_g15126874816640_cont_week2b_32_13_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.Pipeline.Value
import proofs.«180365_g15126874816640_cont_week2b_32_13_alg».proof.Proof.LibUnitStore

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.KernelIdeal Cert.KernelIdeal.Gen

variable {F : FTy → Type} [FloatOps F]

local notation "𝕄" => MT nD τ sig Unit (Elt F) ℕ (UR sig nD τ) ℕ

open Cert.Lib

/-- The conditional of pass 1: grid coordinate 0 is zero. -/
abbrev cond0 (i : grid0.Coords) : Prop := (Scalar.cmpi .ne (Scalar.extui (Scalar.cmpi .eq (BitVec.ofNat 32 (i 0).val) 0#32)) 0#32) = 1#1

/-- It holds at the first of the 25 points only. -/
theorem hcond0 : ∀ t : Fin cfg0.N, cond0 (grid0.coords t) ↔ t.val = 0 :=
  (by decide +kernel : ∀ t : Fin grid0.N, cond0 (grid0.coords t) ↔ t.val = 0)

set_option maxHeartbeats 1000000 in
/-- Any point but the first: the scratch holds xs (the kept product) and is left as it is; the bf16 copy's block
    is the cast of the adjacency block, the second output's block the fused layer of that block against xs. -/
theorem sound_kernel0_B (c : Dev nD) (E : Set ℕ) (i : grid0.Coords)
    (arg1 : Memref sig .tc .vmem S400x10000 .f32) (harg1 : arg1.IsWhole) (arg2 : Memref sig .tc .vmem S10000x128 .f32) (harg2 : arg2.IsWhole)
    (arg3 : Memref sig .tc .vmem S128x20 .f32) (harg3 : arg3.IsWhole) (arg4 : Memref sig .tc .vmem S1x20 .f32) (harg4 : arg4.IsWhole)
    (arg5 : Memref sig .tc .vmem S20x20 .f32) (harg5 : arg5.IsWhole) (arg6 : Memref sig .tc .vmem S400x10000 .bf16) (harg6 : arg6.IsWhole)
    (arg7 : Memref sig .tc .vmem S400x20 .bf16) (harg7 : arg7.IsWhole) (arg8 : Memref sig .tc .vmem S10000x20 .bf16) (harg8 : arg8.IsWhole)
    (hc : ¬cond0 i)
    (x0 : Vec F S400x10000 .f32) (x1 : Vec F S10000x128 .f32) (x2 : Vec F S128x20 .f32) (x3 : Vec F S1x20 .f32) (x4 : Vec F S20x20 .f32)
    (xs : Vec F S10000x20 .bf16) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4
        ∗ (∃ d, owns (c : Thread nD τ) arg6 fullShare d) ∗ (∃ d, owns (c : Thread nD τ) arg7 fullShare d)
        ∗ owns (c : Thread nD τ) arg8 fullShare xs
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (k0_pay2 x0) ∗ owns (c : Thread nD τ) arg7 fullShare (k0_pay3 x0 xs x3 x4)
            ∗ owns (c : Thread nD τ) arg8 fullShare xs) -∗ K ⟨⟩))
      ⊢ wp frame (wpE (defs₀ (F := F)) Variants.none c none) E (cc0__pass1_body i arg1 harg1 arg2 harg2 arg3 harg3 arg4 harg4 arg5 harg5 arg6 harg6 arg7 harg7 arg8 harg8) K := by
  simp only [cc0__pass1_body_eq_skeleton]; unfold cc0__pass1_body_skel
  unfold owns
  iintro ⟨⟨%f0, %hf0, H0⟩, ⟨%f1, %hf1, H1⟩, ⟨%f2, %hf2, H2⟩, ⟨%f3, %hf3, H3⟩, ⟨%f4, %hf4, H4⟩, ⟨%d6, %f6, -, H6⟩, ⟨%d7, %f7, -, H7⟩, ⟨%f8, %hf8, H8⟩, Hk⟩
  obtain rfl := harg1.eq_unread hf0; obtain rfl := harg2.eq_unread hf1; obtain rfl := harg3.eq_unread hf2
  obtain rfl := harg4.eq_unread hf3; obtain rfl := harg5.eq_unread hf4; obtain rfl := harg8.eq_unread hf8
  sl_exec (disch := first | exact hc)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H6]
  · iexists _; isplitr
    swap; · iexact H6
    ipureintro
    refine (read_writes_unit _ _ hz2 _ _).trans ?_
    simp only [View.readAt_eq_ld, harg1.read_unread, View.ld_unit_zero (S := S400x10000) hz2]
  isplitl [H7]
  · iexists _; isplitr
    swap; · iexact H7
    ipureintro
    refine (read_writes_unit _ _ hz2 _ _).trans ?_
    simp only [View.readAt_eq_ld, harg1.read_unread, harg4.read_unread, harg5.read_unread, harg8.read_unread,
      View.ld_unit_zero (S := S400x10000) hz2, View.ld_unit_zero (S := S10000x20) hz2, View.ld_unit_zero (S := S1x20) hz2, View.ld_unit_zero (S := S20x20) hz2]
  iexists _; isplitr; · ipureintro; exact harg8.read_unread _
  iexact H8

set_option maxHeartbeats 1000000 in
/-- The first point: the scratch, at anything, is filled with the product of x and W1 and used at once. -/
theorem sound_kernel0_A (c : Dev nD) (E : Set ℕ) (i : grid0.Coords)
    (arg1 : Memref sig .tc .vmem S400x10000 .f32) (harg1 : arg1.IsWhole) (arg2 : Memref sig .tc .vmem S10000x128 .f32) (harg2 : arg2.IsWhole)
    (arg3 : Memref sig .tc .vmem S128x20 .f32) (harg3 : arg3.IsWhole) (arg4 : Memref sig .tc .vmem S1x20 .f32) (harg4 : arg4.IsWhole)
    (arg5 : Memref sig .tc .vmem S20x20 .f32) (harg5 : arg5.IsWhole) (arg6 : Memref sig .tc .vmem S400x10000 .bf16) (harg6 : arg6.IsWhole)
    (arg7 : Memref sig .tc .vmem S400x20 .bf16) (harg7 : arg7.IsWhole) (arg8 : Memref sig .tc .vmem S10000x20 .bf16) (harg8 : arg8.IsWhole)
    (hc : cond0 i)
    (x0 : Vec F S400x10000 .f32) (x1 : Vec F S10000x128 .f32) (x2 : Vec F S128x20 .f32) (x3 : Vec F S1x20 .f32) (x4 : Vec F S20x20 .f32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4
        ∗ (∃ d, owns (c : Thread nD τ) arg6 fullShare d) ∗ (∃ d, owns (c : Thread nD τ) arg7 fullShare d)
        ∗ (∃ d, owns (c : Thread nD τ) arg8 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (k0_pay2 x0) ∗ owns (c : Thread nD τ) arg7 fullShare (k0_pay3 x0 (k0_pay1 x1 x2) x3 x4)
            ∗ owns (c : Thread nD τ) arg8 fullShare (k0_pay1 x1 x2)) -∗ K ⟨⟩))
      ⊢ wp frame (wpE (defs₀ (F := F)) Variants.none c none) E (cc0__pass1_body i arg1 harg1 arg2 harg2 arg3 harg3 arg4 harg4 arg5 harg5 arg6 harg6 arg7 harg7 arg8 harg8) K := by
  simp only [cc0__pass1_body_eq_skeleton]; unfold cc0__pass1_body_skel
  unfold owns
  iintro ⟨⟨%f0, %hf0, H0⟩, ⟨%f1, %hf1, H1⟩, ⟨%f2, %hf2, H2⟩, ⟨%f3, %hf3, H3⟩, ⟨%f4, %hf4, H4⟩, ⟨%d6, %f6, -, H6⟩, ⟨%d7, %f7, -, H7⟩, ⟨%d8, %f8, -, H8⟩, Hk⟩
  obtain rfl := harg1.eq_unread hf0; obtain rfl := harg2.eq_unread hf1; obtain rfl := harg3.eq_unread hf2
  obtain rfl := harg4.eq_unread hf3; obtain rfl := harg5.eq_unread hf4
  sl_exec (disch := first | exact hc)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H6]
  · iexists _; isplitr
    swap; · iexact H6
    ipureintro
    refine (read_writes_unit _ _ hz2 _ _).trans ?_
    simp only [View.readAt_eq_ld, harg1.read_unread, View.ld_unit_zero (S := S400x10000) hz2]
  isplitl [H7]
  · iexists _; isplitr
    swap; · iexact H7
    ipureintro
    refine (read_writes_unit _ _ hz2 _ _).trans ?_
    sl_unfold_run_names
    simp only [View.readAt_eq_ld, harg1.read_unread, harg2.read_unread, harg3.read_unread, harg4.read_unread, harg5.read_unread,
      View.readCov_unit_zero (S := S10000x20) arg8.view hz2,
      View.ld_unit_zero (S := S400x10000) hz2, View.ld_unit_zero (S := S10000x128) hz2, View.ld_unit_zero (S := S128x20) hz2, View.ld_unit_zero (S := S10000x20) hz2, View.ld_unit_zero (S := S1x20) hz2, View.ld_unit_zero (S := S20x20) hz2]
  iexists _; isplitr
  swap; · iexact H8
  ipureintro
  sl_unfold_run_names
  refine (read_writes_unit _ _ hz2 _ _).trans ?_
  simp only [View.readAt_eq_ld, harg2.read_unread, harg3.read_unread, View.ld_unit_zero (S := S10000x128) hz2, View.ld_unit_zero (S := S128x20) hz2]

end Cert.KernelIdeal.Hand

end
-- ==== Proof.KI.R0Frame.lean ====
/-
  Pass 1 of the kernel as a pipeline over 25 grid points, at any contents V of the buffers when the region is
  entered.  Window 0 is the 400-row block of the adjacency matrix at the point; windows 1 to 4 (x, W1, the bias row,
  W2) are whole arrays fetched once; window 5 is the block of the bf16 copy and window 6 the block of S2, both written
  back at every point.  The scratch buffer is filled at the first point with the product of x and W1 and holds it
  from then on: that is the invariant carried between points.  After the body at point t, window 5's buffer holds the
  cast of the adjacency block and window 6's the fused layer of that block against the kept product.
-/
import proofs.«180365_g15126874816640_cont_week2b_32_13_alg».proof.Proof.KI.R0Run

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.KernelIdeal Cert.KernelIdeal.Gen

variable {F : FTy → Type} [FloatOps F]

local notation "𝕄" => MT nD τ sig Unit (Elt F) ℕ (UR sig nD τ) ℕ

open Cert.Lib

section Region0

variable (V : (c : Dev nD) → (b : Ref sig .tc) → Buf (Elt F) ((c : Thread nD τ).loc b))

/-- Window w's block at point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-! An input window's staging buffer holds its block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-- The first grid point. -/
abbrev t00 : Fin cfg0.N := ⟨0, by rw [show cfg0.N = 25 from N_0]; omega⟩

/-- The scratch operand, a whole scoped buffer of the kernel's own. -/
abbrev scM0 : Memref sig .tc .vmem S10000x20 .bf16 := Memref.whole cc0_scratch0

/-- What the scratch holds from the first point on: the product of x and W1 (in bf16). -/
def sc0 (c : Dev nD) : Vec F S10000x20 .bf16 := k0_pay1 (iblk0 V c 1 t00) (iblk0 V c 2 t00)

/-- The core's other scoped buffers that are no staging buffer of this call, each at some contents. -/
abbrev restA0 (c : Dev nD) : sProp 𝕄 :=
  iprop((∃ f : Buf (Elt F) ((c : Thread nD τ).loc cc1_stg0_0), ((c : Thread nD τ).loc cc1_stg0_0) ↦{fullShare} f)
    ∗ (∃ f : Buf (Elt F) ((c : Thread nD τ).loc cc1_stg0_1), ((c : Thread nD τ).loc cc1_stg0_1) ↦{fullShare} f)
    ∗ (∃ f : Buf (Elt F) ((c : Thread nD τ).loc cc1_stg1_0), ((c : Thread nD τ).loc cc1_stg1_0) ↦{fullShare} f)
    ∗ (∃ f : Buf (Elt F) ((c : Thread nD τ).loc cc1_stg2_0), ((c : Thread nD τ).loc cc1_stg2_0) ↦{fullShare} f)
    ∗ (∃ f : Buf (Elt F) ((c : Thread nD τ).loc cc1_stg3_0), ((c : Thread nD τ).loc cc1_stg3_0) ↦{fullShare} f)
    ∗ (∃ f : Buf (Elt F) ((c : Thread nD τ).loc cc1_stg4_0), ((c : Thread nD τ).loc cc1_stg4_0) ↦{fullShare} f)
    ∗ (∃ f : Buf (Elt F) ((c : Thread nD τ).loc cc1_stg5_0), ((c : Thread nD τ).loc cc1_stg5_0) ↦{fullShare} f)
    ∗ (∃ f : Buf (Elt F) ((c : Thread nD τ).loc cc1_stg5_1), ((c : Thread nD τ).loc cc1_stg5_1) ↦{fullShare} f)
    ∗ (∃ f : Buf (Elt F) ((c : Thread nD τ).loc cc1_stg6_0), ((c : Thread nD τ).loc cc1_stg6_0) ↦{fullShare} f)
    ∗ (∃ f : Buf (Elt F) ((c : Thread nD τ).loc cc1_stg6_1), ((c : Thread nD τ).loc cc1_stg6_1) ↦{fullShare} f)
    ∗ (∃ f : Buf (Elt F) ((c : Thread nD τ).loc cc1_scratch0), ((c : Thread nD τ).loc cc1_scratch0) ↦{fullShare} f))

/-- The class invariant with the scratch operand split off. -/
theorem PhiA0_eq (c : Dev nD) :
    (Pipeline.ΦA spec0 c : sProp 𝕄) = iprop(((∃ d, owns (c : Thread nD τ) scM0 fullShare d) ∗ restA0 c) ∗ (∃ r, prngReg c r)) := by
  unfold Pipeline.ΦA; rw [scopedRest0_eq]; simp only [scM0, owns_whole]; try rfl

/-- The invariant before position n: before the first point every scratch at anything; afterwards the scratch at
    the kept product. -/
def PhiS0 (c : Dev nD) : (n : ℕ) → n ≤ cfg0.N → sProp 𝕄
  | 0, _ => Pipeline.ΦA spec0 c
  | _ + 1, _ => iprop((owns (c : Thread nD τ) scM0 fullShare (sc0 V c) ∗ restA0 c) ∗ (∃ r, prngReg c r))

theorem PhiS0_zero (c : Dev nD) (n : ℕ) (h : n ≤ cfg0.N) (hz : n = 0) : PhiS0 V c n h = Pipeline.ΦA spec0 c := by
  subst hz; rfl
theorem PhiS0_pos (c : Dev nD) (n : ℕ) (h : n ≤ cfg0.N) (hz : n ≠ 0) :
    PhiS0 V c n h = iprop((owns (c : Thread nD τ) scM0 fullShare (sc0 V c) ∗ restA0 c) ∗ (∃ r, prngReg c r)) := by
  cases n with
  | zero => exact absurd rfl hz
  | succ n => rfl

/-- The proof data of pass 1 on core c. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => k0_pay2 (iblk0 V c 0 t)
    | ⟨6, _⟩ => k0_pay3 (iblk0 V c 0 t) (sc0 V c) (iblk0 V c 3 t) (iblk0 V c 4 t)
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = k0_pay2 (iblk0 V c 0 t) := by dsimp only [dat0]
theorem after0_6 (c : Dev nD) (t : Fin cfg0.N) :
    (dat0 V c).after 6 t = k0_pay3 (iblk0 V c 0 t) (sc0 V c) (iblk0 V c 3 t) (iblk0 V c 4 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d

theorem Phi0_castSucc (c : Dev nD) (t : Fin cfg0.N) :
    (dat0 V c).Φ t.castSucc = PhiS0 V c t.val (Nat.le_of_lt t.isLt) := by
  dsimp only [dat0]; simp only [Fin.coe_castSucc]

/-- What the body is called with at point t, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t))

set_option maxHeartbeats 4000000 in
/-- The body at any point: the inputs' buffers hold their blocks; the first point fills the scratch, every other
    finds it at the kept product and leaves it so. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4]
  rw [show (dat0 V c).owesAt () t.succ = (dat0 V c).owesAt () t.castSucc from rfl,
    show (dat0 V c).Φ t.succ = PhiS0 V c (t.val + 1) t.isLt from rfl, PhiS0_pos V c _ _ (Nat.succ_ne_zero _),
    after0_0, after0_1, after0_2, after0_3, after0_4, after0_5, after0_6, Phi0_castSucc]
  by_cases hz : t.val = 0
  · obtain rfl : t = t00 := Fin.ext hz
    rw [PhiS0_zero V c _ _ rfl, PhiA0_eq]
    iintro ⟨⟨⟨HS, HR⟩, Hg⟩, Ho, ⟨%d0, H0⟩, ⟨%d1, H1⟩, ⟨%d2, H2⟩, ⟨%d3, H3⟩, ⟨%d4, H4⟩, ⟨%d5, H5⟩, ⟨%d6, H6⟩⟩
    iapply (sound_kernel0_A c Set.univ (grid0.coords t00) _ _ _ _ _ _ _ _ _ _ _ _ _ _ _ _ ((hcond0 t00).mpr rfl)
      (iblk0 V c 0 t00) (iblk0 V c 1 t00) (iblk0 V c 2 t00) (iblk0 V c 3 t00) (iblk0 V c 4 t00) _)
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    isplitl [HS]; · iexact HS
    iintro ⟨H0, H1, H2, H3, H4, H5, H6, HS⟩
    isplitl [HS HR Hg]
    · isplitl [HS HR]
      · isplitl [HS]; · iexact HS
        iexact HR
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6
  · rw [PhiS0_pos V c _ _ hz]
    iintro ⟨⟨⟨HS, HR⟩, Hg⟩, Ho, ⟨%d0, H0⟩, ⟨%d1, H1⟩, ⟨%d2, H2⟩, ⟨%d3, H3⟩, ⟨%d4, H4⟩, ⟨%d5, H5⟩, ⟨%d6, H6⟩⟩
    iapply (sound_kernel0_B c Set.univ (grid0.coords t) _ _ _ _ _ _ _ _ _ _ _ _ _ _ _ _ (fun h => hz ((hcond0 t).mp h))
      (iblk0 V c 0 t) (iblk0 V c 1 t) (iblk0 V c 2 t) (iblk0 V c 3 t) (iblk0 V c 4 t) (sc0 V c) _)
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    isplitl [HS]; · iexact HS
    iintro ⟨H0, H1, H2, H3, H4, H5, H6, HS⟩
    isplitl [HS HR Hg]
    · isplitl [HS HR]
      · isplitl [HS]; · iexact HS
        iexact HR
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6

/-- The pipeline library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point, -/
theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

/-- and after the last point the invariant gives it back, the scratch's contents forgotten. -/
theorem hout0 (c : Dev nD) : (dat0 V c).Φ (Fin.last cfg0.N) ⊢ Pipeline.ΦA spec0 c := by
  rw [show (dat0 V c).Φ (Fin.last cfg0.N) = PhiS0 V c (Fin.last cfg0.N).val (Nat.le_of_lt_succ (Fin.last cfg0.N).isLt) from rfl,
    PhiS0_pos V c _ _ (by rw [Fin.val_last]; have : cfg0.N = 25 := N_0; omega), PhiA0_eq]
  iintro ⟨⟨HS, HR⟩, Hg⟩
  isplitl [HS HR]
  · isplitl [HS]; · iexists _; iexact HS
    iexact HR
  iexact Hg

end Region0

end Cert.KernelIdeal.Hand

end
-- ==== Proof.KI.R1Run.lean ====
/-
  Passes 2 and 3 of the kernel, one grid point (phase, row block).  In phase 0 the body multiplies its 1000-row
  block of the bf16 adjacency copy with S2, adds the bias, clamps at zero, multiplies with W3 and stores the
  1000 x 128 result into rows [1000 i, 1000 i + 1000) of a scratch buffer that holds S3; the output block is not
  touched.  In phase 1 it multiplies the block with the whole scratch, adds the bias, clamps, adds the block of x
  and clamps again into the output block; the scratch is left as it is.  This file runs the body on whole staging
  buffers in these two control cases.
-/
import proofs.«180365_g15126874816640_cont_week2b_32_13_alg».proof.Proof.Gen.KernelIdeal.Launch
import proofs.«180365_g15126874816640_cont_week2b_32_13_alg».proof.Proof.Gen.KernelIdeal.Skeleton
import proofs.«180365_g15126874816640_cont_week2b_32_13_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.Pipeline.Value
import proofs.«180365_g15126874816640_cont_week2b_32_13_alg».proof.Proof.LibUnitStore

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.KernelIdeal Cert.KernelIdeal.Gen

variable {F : FTy → Type} [FloatOps F]

local notation "𝕄" => MT nD τ sig Unit (Elt F) ℕ (UR sig nD τ) ℕ

open Cert.Lib

/-- Where phase 0 stores at point i: the scratch's rows [1000 i, 1000 i + 1000), all 128 columns. -/
abbrev s3rect (i : grid1.Coords) (h1 : k1_cond1 i = 1#1) : Rect S10000x128 :=
  Rect.unit (s := S10000x128) (k1_off1 i) S1000x128.size (k1_off1_inb i h1)

set_option maxHeartbeats 1000000 in
/-- Phase 0. -/
theorem sound_kernel1_A (c : Dev nD) (E : Set ℕ) (i : grid1.Coords)
    (arg2 : Memref sig .tc .vmem S1000x10000 .bf16) (harg2 : arg2.IsWhole) (arg3 : Memref sig .tc .vmem S10000x20 .bf16) (harg3 : arg3.IsWhole)
    (arg4 : Memref sig .tc .vmem S1x20 .f32) (harg4 : arg4.IsWhole) (arg5 : Memref sig .tc .vmem S20x128 .f32) (harg5 : arg5.IsWhole)
    (arg6 : Memref sig .tc .vmem S1x128 .f32) (harg6 : arg6.IsWhole) (arg7 : Memref sig .tc .vmem S1000x128 .f32) (harg7 : arg7.IsWhole)
    (arg8 : Memref sig .tc .vmem S1000x128 .f32) (harg8 : arg8.IsWhole) (arg9 : Memref sig .tc .vmem S10000x128 .bf16) (harg9 : arg9.IsWhole)
    (h1 : k1_cond1 i = 1#1) (h2 : ¬k1_cond2 i = 1#1)
    (x0 : Vec F S1000x10000 .bf16) (x1 : Vec F S10000x20 .bf16) (x2 : Vec F S1x20 .f32) (x3 : Vec F S20x128 .f32) (x4 : Vec F S1x128 .f32) (x5 : Vec F S1000x128 .f32)
    (xs : Vec F S10000x128 .bf16) (xo : Vec F S1000x128 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xo ∗ owns (c : Thread nD τ) arg9 fullShare xs
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xo
            ∗ owns (c : Thread nD τ) arg9 fullShare ((s3rect i h1).overlay xs (k1_pay1 x0 x1 x2 x3))) -∗ K ⟨⟩))
      ⊢ wp frame (wpE (defs₀ (F := F)) Variants.none c none) E (cc1__pass23_body i arg2 harg2 arg3 harg3 arg4 harg4 arg5 harg5 arg6 harg6 arg7 harg7 arg8 harg8 arg9 harg9) K := by
  simp only [cc1__pass23_body_eq_skeleton]; unfold cc1__pass23_body_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f8, %hf8, H8⟩, ⟨%f9, %hf9, H9⟩, Hk⟩
  obtain rfl := harg2.eq_unread hf0; obtain rfl := harg3.eq_unread hf1; obtain rfl := harg4.eq_unread hf2
  obtain rfl := harg5.eq_unread hf3; obtain rfl := harg6.eq_unread hf4; obtain rfl := harg7.eq_unread hf5
  obtain rfl := harg8.eq_unread hf8; obtain rfl := harg9.eq_unread hf9
  sl_exec (disch := first | exact h1 | exact h2)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H8]
  · iexists _; isplitr; · ipureintro; exact harg8.read_unread _
    iexact H8
  iexists _; isplitr
  swap; · iexact H9
  ipureintro
  refine (read_writes_one _ _ _ _).trans ?_
  simp only [View.readAt_eq_ld, harg2.read_unread, harg3.read_unread, harg4.read_unread, harg5.read_unread, harg9.read_unread,
    View.ld_unit_zero (S := S1000x10000) hz2, View.ld_unit_zero (S := S10000x20) hz2, View.ld_unit_zero (S := S1x20) hz2, View.ld_unit_zero (S := S20x128) hz2]

set_option maxHeartbeats 1000000 in
/-- Phase 1. -/
theorem sound_kernel1_B (c : Dev nD) (E : Set ℕ) (i : grid1.Coords)
    (arg2 : Memref sig .tc .vmem S1000x10000 .bf16) (harg2 : arg2.IsWhole) (arg3 : Memref sig .tc .vmem S10000x20 .bf16) (harg3 : arg3.IsWhole)
    (arg4 : Memref sig .tc .vmem S1x20 .f32) (harg4 : arg4.IsWhole) (arg5 : Memref sig .tc .vmem S20x128 .f32) (harg5 : arg5.IsWhole)
    (arg6 : Memref sig .tc .vmem S1x128 .f32) (harg6 : arg6.IsWhole) (arg7 : Memref sig .tc .vmem S1000x128 .f32) (harg7 : arg7.IsWhole)
    (arg8 : Memref sig .tc .vmem S1000x128 .f32) (harg8 : arg8.IsWhole) (arg9 : Memref sig .tc .vmem S10000x128 .bf16) (harg9 : arg9.IsWhole)
    (h1 : ¬k1_cond1 i = 1#1) (h2 : k1_cond2 i = 1#1)
    (x0 : Vec F S1000x10000 .bf16) (x1 : Vec F S10000x20 .bf16) (x2 : Vec F S1x20 .f32) (x3 : Vec F S20x128 .f32) (x4 : Vec F S1x128 .f32) (x5 : Vec F S1000x128 .f32)
    (xs : Vec F S10000x128 .bf16) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ owns (c : Thread nD τ) arg9 fullShare xs
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare (k1_pay2 x0 xs x4 x5)
            ∗ owns (c : Thread nD τ) arg9 fullShare xs) -∗ K ⟨⟩))
      ⊢ wp frame (wpE (defs₀ (F := F)) Variants.none c none) E (cc1__pass23_body i arg2 harg2 arg3 harg3 arg4 harg4 arg5 harg5 arg6 harg6 arg7 harg7 arg8 harg8 arg9 harg9) K := by
  simp only [cc1__pass23_body_eq_skeleton]; unfold cc1__pass23_body_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d8, %f8, -, H8⟩, ⟨%f9, %hf9, H9⟩, Hk⟩
  obtain rfl := harg2.eq_unread hf0; obtain rfl := harg3.eq_unread hf1; obtain rfl := harg4.eq_unread hf2
  obtain rfl := harg5.eq_unread hf3; obtain rfl := harg6.eq_unread hf4; obtain rfl := harg7.eq_unread hf5
  obtain rfl := harg9.eq_unread hf9
  sl_exec (disch := first | exact h1 | exact h2)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H8]
  · iexists _; isplitr
    swap; · iexact H8
    ipureintro
    refine (read_writes_unit _ _ hz2 _ _).trans ?_
    simp only [View.readAt_eq_ld, harg2.read_unread, harg6.read_unread, harg7.read_unread, harg9.read_unread,
      View.ld_unit_zero (S := S1000x10000) hz2, View.ld_unit_zero (S := S10000x128) hz2, View.ld_unit_zero (S := S1x128) hz2, View.ld_unit_zero (S := S1000x128) hz2]
  iexists _; isplitr; · ipureintro; exact harg9.read_unread _
  iexact H9

end Cert.KernelIdeal.Hand

end
-- ==== Proof.KI.R1Frame.lean ====
/-
  Passes 2 and 3 of the kernel as one pipeline over 20 grid points (phase 0: points 0 to 9, phase 1: points 10 to
  19), at any contents V of the buffers when the region is entered.  Window 0 is the 1000-row block of the bf16
  adjacency copy; windows 1 to 4 (S2, the bias row b2, W3, the bias row b3) are whole arrays fetched once; window
  5 is a block of x; window 6 the output block, idle and not written back during phase 0.  The scratch buffer
  collects S3 during phase 0, 1000 rows per point: what is carried between points is that its rows below
  1000 n agree, before point n, with the array built by laying the ten phase-0 results one over the other.
  After phase 0 that is the whole buffer, which phase 1 reads.
-/
import proofs.«180365_g15126874816640_cont_week2b_32_13_alg».proof.Proof.KI.R1Run
import Idealize.ShloMosaic.Lib.ValueIdx

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.KernelIdeal Cert.KernelIdeal.Gen

variable {F : FTy → Type} [FloatOps F]

local notation "𝕄" => MT nD τ sig Unit (Elt F) ℕ (UR sig nD τ) ℕ

open Cert.Lib

section Region1

variable (V : (c : Dev nD) → (b : Ref sig .tc) → Buf (Elt F) ((c : Thread nD τ).loc b))

/-- Window w's block at point t, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! An input window's staging buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

/-! The two conditionals in closed form over the grid, the output window's idle points, the scratch offset. -/
theorem hcond1 : ∀ t : Fin cfg1.N, k1_cond1 (grid1.coords t) = 1#1 ↔ t.val < 10 :=
  (by decide +kernel : ∀ t : Fin grid1.N, k1_cond1 (grid1.coords t) = 1#1 ↔ t.val < 10)
theorem hcond2 : ∀ t : Fin cfg1.N, k1_cond2 (grid1.coords t) = 1#1 ↔ 10 ≤ t.val :=
  (by decide +kernel : ∀ t : Fin grid1.N, k1_cond2 (grid1.coords t) = 1#1 ↔ 10 ≤ t.val)
theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem liveAt1_3 : ∀ t : Fin cfg1.N, cfg1.idle 3 (grid1.coords t) = false := by decide +kernel
theorem liveAt1_4 : ∀ t : Fin cfg1.N, cfg1.idle 4 (grid1.coords t) = false := by decide +kernel
theorem liveAt1_5 : ∀ t : Fin cfg1.N, cfg1.idle 5 (grid1.coords t) = false := by decide +kernel
theorem idleAt1_6 : ∀ t : Fin cfg1.N, t.val < 10 → cfg1.idle 6 (grid1.coords t) = true := by decide +kernel
theorem noFlush1_6 : ∀ t : Fin cfg1.N, t.val < 10 → (cfg1.win 6).flush t = false := by decide +kernel
theorem liveAt1_6 : ∀ t : Fin cfg1.N, 10 ≤ t.val → cfg1.idle 6 (grid1.coords t) = false := by decide +kernel
theorem off1_0 : ∀ t : Fin cfg1.N, t.val < 10 → k1_off1 (grid1.coords t) 0 = 1000 * t.val :=
  (by decide +kernel : ∀ t : Fin grid1.N, t.val < 10 → k1_off1 (grid1.coords t) 0 = 1000 * t.val)
theorem off1_1 : ∀ t : Fin cfg1.N, t.val < 10 → k1_off1 (grid1.coords t) 1 = 0 :=
  (by decide +kernel : ∀ t : Fin grid1.N, t.val < 10 → k1_off1 (grid1.coords t) 1 = 0)

/-- Phase 0's store at point t covers exactly the rows [1000 t, 1000 t + 1000). -/
theorem mem_s3rect_iff (t : Fin cfg1.N) (ht : t.val < 10) (h1 : k1_cond1 (grid1.coords t) = 1#1) (y : S10000x128.Idx) :
    y ∈ (s3rect (grid1.coords t) h1).set ↔ 1000 * t.val ≤ (y 0).val ∧ (y 0).val < 1000 * t.val + 1000 := by
  rw [Rect.mem_set_unit]
  have e0 := off1_0 t ht
  have e1 := off1_1 t ht
  have hs0 : S1000x128.size (0 : Fin 2) = 1000 := rfl
  have hs1 : S1000x128.size (1 : Fin 2) = 128 := rfl
  have hy1 : (y 1).val < 128 := ValueIdx.idx2_lt1 y
  constructor
  · intro h
    have h0 := h (0 : Fin 2)
    rw [e0, hs0] at h0
    exact h0
  · intro h a
    match a with
    | ⟨0, _⟩ => rw [show ((⟨0, by decide⟩ : Fin S10000x128.rank)) = (0 : Fin 2) from rfl, e0, hs0]; exact h
    | ⟨1, _⟩ => rw [show ((⟨1, by decide⟩ : Fin S10000x128.rank)) = (1 : Fin 2) from rfl, e1, hs1]; omega

/-- The scratch operand, a whole scoped buffer of the kernel's own. -/
abbrev scM1 : Memref sig .tc .vmem S10000x128 .bf16 := Memref.whole cc1_scratch0

/-- Point n of the grid, for n below 10. -/
abbrev pt1 (n : ℕ) (h : n < 10) : Fin cfg1.N := ⟨n, by rw [show cfg1.N = 20 from N_1]; omega⟩

/-- What point t of phase 0 stores: the fused second layer of its adjacency block, times W3. -/
def s3blk (c : Dev nD) (t : Fin cfg1.N) : Vec F S1000x128 .bf16 :=
  k1_pay1 (iblk1 V c 0 t) (iblk1 V c 1 t) (iblk1 V c 2 t) (iblk1 V c 3 t)

/-- The first n phase-0 results laid one over the other, over arbitrary contents. -/
def scN (c : Dev nD) : ℕ → Vec F S10000x128 .bf16
  | 0 => fun _ => Classical.choice (Elt.nonempty F _)
  | n + 1 => if h : n < 10 then (s3rect (grid1.coords (pt1 n h)) ((hcond1 (pt1 n h)).mpr h)).overlay (scN c n) (s3blk V c (pt1 n h)) else scN c n

/-- The scratch after phase 0: all ten. -/
def scFull (c : Dev nD) : Vec F S10000x128 .bf16 := scN V c 10

theorem scN_succ (c : Dev nD) (n : ℕ) (h : n < 10) :
    scN V c (n + 1) = (s3rect (grid1.coords (pt1 n h)) ((hcond1 (pt1 n h)).mpr h)).overlay (scN V c n) (s3blk V c (pt1 n h)) := by
  rw [scN, dif_pos h]

/-- Later results leave the rows below 1000 n as the first n left them. -/
theorem scN_stable (c : Dev nD) (n : ℕ) (y : S10000x128.Idx) (hy : (y 0).val < 1000 * n) :
    ∀ k, n ≤ k → scN V c k y = scN V c n y := by
  intro k hk
  induction k, hk using Nat.le_induction with
  | base => rfl
  | succ k hk ih =>
    by_cases h : k < 10
    · rw [scN_succ V c k h, Rect.overlay_of_not_mem _ _ _ (fun hm => by
        have := (mem_s3rect_iff (pt1 k h) h _ y).mp hm
        have hk' : (pt1 k h).val = k := rfl
        rw [hk'] at this
        have : 1000 * n ≤ 1000 * k := Nat.mul_le_mul_left _ hk
        omega), ih]
    · rw [scN, dif_neg h, ih]

/-- Rows below 1000 n hold what the ten results leave there. -/
def Agree1 (c : Dev nD) (n : ℕ) (xs : Vec F S10000x128 .bf16) : Prop :=
  ∀ y : S10000x128.Idx, (y 0).val < 1000 * n → xs y = scFull V c y

theorem agree1_zero (c : Dev nD) (xs : Vec F S10000x128 .bf16) : Agree1 V c 0 xs :=
  fun y h => absurd h (by omega)

/-- One more phase-0 point: its store extends the agreement by 1000 rows. -/
theorem agree1_step (c : Dev nD) (t : Fin cfg1.N) (ht : t.val < 10) (h1 : k1_cond1 (grid1.coords t) = 1#1)
    (xs : Vec F S10000x128 .bf16) (hxs : Agree1 V c t.val xs) :
    Agree1 V c (t.val + 1) ((s3rect (grid1.coords t) h1).overlay xs (s3blk V c t)) := by
  intro y hy
  obtain ⟨n, hn⟩ := t
  have ht0 : n < 10 := ht
  have hy0 : (y 0).val < 1000 * (n + 1) := hy
  by_cases hm : y ∈ (s3rect (grid1.coords ⟨n, hn⟩) h1).set
  · obtain ⟨x, rfl⟩ : ∃ x, (s3rect (grid1.coords ⟨n, hn⟩) h1).emb x = y := (s3rect (grid1.coords ⟨n, hn⟩) h1).exists_idx_of_mem hm
    rw [Rect.overlay_emb]
    unfold scFull
    rw [scN_stable V c (n + 1) _ hy0 10 (by omega), scN_succ V c n ht0]
    exact (Rect.overlay_emb _ _ _ x).symm
  · rw [Rect.overlay_of_not_mem _ _ _ hm]
    refine hxs y ?_
    have := (mem_s3rect_iff ⟨n, hn⟩ ht h1 y).not.mp hm
    show (y 0).val < 1000 * n
    have e : (⟨n, hn⟩ : Fin cfg1.N).val = n := rfl
    rw [e] at this
    omega

/-- The core's other scoped buffers that are no staging buffer of this call, each at some contents, then S. -/
abbrev chain1 (c : Dev nD) (S : sProp 𝕄) : sProp 𝕄 :=
  iprop((∃ f : Buf (Elt F) ((c : Thread nD τ).loc cc0_stg0_0), ((c : Thread nD τ).loc cc0_stg0_0) ↦{fullShare} f)
    ∗ (∃ f : Buf (Elt F) ((c : Thread nD τ).loc cc0_stg0_1), ((c : Thread nD τ).loc cc0_stg0_1) ↦{fullShare} f)
    ∗ (∃ f : Buf (Elt F) ((c : Thread nD τ).loc cc0_stg1_0), ((c : Thread nD τ).loc cc0_stg1_0) ↦{fullShare} f)
    ∗ (∃ f : Buf (Elt F) ((c : Thread nD τ).loc cc0_stg2_0), ((c : Thread nD τ).loc cc0_stg2_0) ↦{fullShare} f)
    ∗ (∃ f : Buf (Elt F) ((c : Thread nD τ).loc cc0_stg3_0), ((c : Thread nD τ).loc cc0_stg3_0) ↦{fullShare} f)
    ∗ (∃ f : Buf (Elt F) ((c : Thread nD τ).loc cc0_stg4_0), ((c : Thread nD τ).loc cc0_stg4_0) ↦{fullShare} f)
    ∗ (∃ f : Buf (Elt F) ((c : Thread nD τ).loc cc0_stg5_0), ((c : Thread nD τ).loc cc0_stg5_0) ↦{fullShare} f)
    ∗ (∃ f : Buf (Elt F) ((c : Thread nD τ).loc cc0_stg5_1), ((c : Thread nD τ).loc cc0_stg5_1) ↦{fullShare} f)
    ∗ (∃ f : Buf (Elt F) ((c : Thread nD τ).loc cc0_stg6_0), ((c : Thread nD τ).loc cc0_stg6_0) ↦{fullShare} f)
    ∗ (∃ f : Buf (Elt F) ((c : Thread nD τ).loc cc0_stg6_1), ((c : Thread nD τ).loc cc0_stg6_1) ↦{fullShare} f)
    ∗ (∃ f : Buf (Elt F) ((c : Thread nD τ).loc cc0_scratch0), ((c : Thread nD τ).loc cc0_scratch0) ↦{fullShare} f)
    ∗ S)

/-- The class invariant with the scratch operand named. -/
theorem PhiA1_eq (c : Dev nD) :
    (Pipeline.ΦA spec1 c : sProp 𝕄) = iprop(chain1 c iprop(∃ d, owns (c : Thread nD τ) scM1 fullShare d) ∗ (∃ r, prngReg c r)) := by
  unfold Pipeline.ΦA; rw [scopedRest1_eq]; simp only [scM1, owns_whole]; try rfl

/-- The invariant before position n. -/
def PhiS1 (c : Dev nD) (n : ℕ) : sProp 𝕄 :=
  iprop(chain1 c iprop(∃ xs, ⌜Agree1 V c n xs⌝ ∗ owns (c : Thread nD τ) scM1 fullShare xs) ∗ (∃ r, prngReg c r))

/-- The proof data of passes 2 and 3 on core c. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => k1_pay2 (iblk1 V c 0 t) (scFull V c) (iblk1 V c 4 t) (iblk1 V c 5 t)
  Φ t := PhiS1 V c t.val
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) :
    (dat1 V c).after 6 t = k1_pay2 (iblk1 V c 0 t) (scFull V c) (iblk1 V c 4 t) (iblk1 V c 5 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d

theorem Phi1_castSucc (c : Dev nD) (t : Fin cfg1.N) : (dat1 V c).Φ t.castSucc = PhiS1 V c t.val := by
  dsimp only [dat1]; simp only [Fin.coe_castSucc]

/-- What the body is called with at point t, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t
    ∗ (dat1 V c).leavesExact 6 t)

set_option maxHeartbeats 4000000 in
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5]
  rw [show (dat1 V c).owesAt () t.succ = (dat1 V c).owesAt () t.castSucc from rfl,
    show (dat1 V c).Φ t.succ = PhiS1 V c (t.val + 1) from rfl, Phi1_castSucc]
  rw [show (dat1 V c).leavesExact 0 t = owns (c : Thread nD τ) (st1_0 t) fullShare ((dat1 V c).after 0 t) from by
    unfold Dat.leavesExact; rw [liveAt1_0 t], after1_0]
  rw [show (dat1 V c).leavesExact 1 t = owns (c : Thread nD τ) (st1_1 t) fullShare ((dat1 V c).after 1 t) from by
    unfold Dat.leavesExact; rw [liveAt1_1 t], after1_1]
  rw [show (dat1 V c).leavesExact 2 t = owns (c : Thread nD τ) (st1_2 t) fullShare ((dat1 V c).after 2 t) from by
    unfold Dat.leavesExact; rw [liveAt1_2 t], after1_2]
  rw [show (dat1 V c).leavesExact 3 t = owns (c : Thread nD τ) (st1_3 t) fullShare ((dat1 V c).after 3 t) from by
    unfold Dat.leavesExact; rw [liveAt1_3 t], after1_3]
  rw [show (dat1 V c).leavesExact 4 t = owns (c : Thread nD τ) (st1_4 t) fullShare ((dat1 V c).after 4 t) from by
    unfold Dat.leavesExact; rw [liveAt1_4 t], after1_4]
  rw [show (dat1 V c).leavesExact 5 t = owns (c : Thread nD τ) (st1_5 t) fullShare ((dat1 V c).after 5 t) from by
    unfold Dat.leavesExact; rw [liveAt1_5 t], after1_5]
  unfold PhiS1
  by_cases ht : t.val < 10
  · have h1 := (hcond1 t).mpr ht
    have h2 : ¬k1_cond2 (grid1.coords t) = 1#1 := fun h => by have := (hcond2 t).mp h; omega
    rw [Dat.leavesExact_idle (dat1 V c) 6 t (idleAt1_6 t ht) (noFlush1_6 t ht)]
    iintro ⟨⟨⟨T1, T2, T3, T4, T5, T6, T7, T8, T9, T10, T11, ⟨%xs, %hxs, HS⟩⟩, Hg⟩, Ho, ⟨%d0, H0⟩, ⟨%d1, H1⟩, ⟨%d2, H2⟩, ⟨%d3, H3⟩, ⟨%d4, H4⟩, ⟨%d5, H5⟩, ⟨%d6, H6⟩⟩
    iapply (sound_kernel1_A c Set.univ (grid1.coords t) _ _ _ _ _ _ _ _ _ _ _ _ _ _ _ _ h1 h2
      (iblk1 V c 0 t) (iblk1 V c 1 t) (iblk1 V c 2 t) (iblk1 V c 3 t) (iblk1 V c 4 t) (iblk1 V c 5 t) xs ((dat1 V c).before 6 t d6) _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [HS]; · iexact HS
    iintro ⟨H0, H1, H2, H3, H4, H5, H6, HS⟩
    isplitl [T1 T2 T3 T4 T5 T6 T7 T8 T9 T10 T11 HS Hg]
    · isplitl [T1 T2 T3 T4 T5 T6 T7 T8 T9 T10 T11 HS]
      · isplitl [T1]; · iexact T1
        isplitl [T2]; · iexact T2
        isplitl [T3]; · iexact T3
        isplitl [T4]; · iexact T4
        isplitl [T5]; · iexact T5
        isplitl [T6]; · iexact T6
        isplitl [T7]; · iexact T7
        isplitl [T8]; · iexact T8
        isplitl [T9]; · iexact T9
        isplitl [T10]; · iexact T10
        isplitl [T11]; · iexact T11
        iexists _; isplitr; · ipureintro; exact agree1_step V c t ht h1 xs hxs
        iexact HS
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexists d6; iexact H6
  · have h2 := (hcond2 t).mpr (Nat.le_of_not_lt ht)
    have h1 : ¬k1_cond1 (grid1.coords t) = 1#1 := fun h => ht ((hcond1 t).mp h)
    rw [show (dat1 V c).leavesExact 6 t = owns (c : Thread nD τ) (st1_6 t) fullShare ((dat1 V c).after 6 t) from by
      unfold Dat.leavesExact; rw [liveAt1_6 t (Nat.le_of_not_lt ht)], after1_6]
    iintro ⟨⟨⟨T1, T2, T3, T4, T5, T6, T7, T8, T9, T10, T11, ⟨%xs, %hxs, HS⟩⟩, Hg⟩, Ho, ⟨%d0, H0⟩, ⟨%d1, H1⟩, ⟨%d2, H2⟩, ⟨%d3, H3⟩, ⟨%d4, H4⟩, ⟨%d5, H5⟩, ⟨%d6, H6⟩⟩
    obtain rfl : xs = scFull V c := funext fun y => hxs y (by have := ValueIdx.idx2_lt0 y; omega)
    iapply (sound_kernel1_B c Set.univ (grid1.coords t) _ _ _ _ _ _ _ _ _ _ _ _ _ _ _ _ h1 h2
      (iblk1 V c 0 t) (iblk1 V c 1 t) (iblk1 V c 2 t) (iblk1 V c 3 t) (iblk1 V c 4 t) (iblk1 V c 5 t) (scFull V c) _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [HS]; · iexact HS
    iintro ⟨H0, H1, H2, H3, H4, H5, H6, HS⟩
    isplitl [T1 T2 T3 T4 T5 T6 T7 T8 T9 T10 T11 HS Hg]
    · isplitl [T1 T2 T3 T4 T5 T6 T7 T8 T9 T10 T11 HS]
      · isplitl [T1]; · iexact T1
        isplitl [T2]; · iexact T2
        isplitl [T3]; · iexact T3
        isplitl [T4]; · iexact T4
        isplitl [T5]; · iexact T5
        isplitl [T6]; · iexact T6
        isplitl [T7]; · iexact T7
        isplitl [T8]; · iexact T8
        isplitl [T9]; · iexact T9
        isplitl [T10]; · iexact T10
        isplitl [T11]; · iexact T11
        iexists _; isplitr; · ipureintro; exact fun y _ => rfl
        iexact HS
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6

/-- The pipeline library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point (nothing is claimed of the scratch), -/
theorem hin1 (c : Dev nD) : Pipeline.ΦA spec1 c ⊢ (dat1 V c).Φ 0 := by
  rw [show (dat1 V c).Φ 0 = PhiS1 V c 0 from rfl, PhiA1_eq]; unfold PhiS1
  iintro ⟨⟨T1, T2, T3, T4, T5, T6, T7, T8, T9, T10, T11, ⟨%d, HS⟩⟩, Hg⟩
  isplitl [T1 T2 T3 T4 T5 T6 T7 T8 T9 T10 T11 HS]
  · isplitl [T1]; · iexact T1
    isplitl [T2]; · iexact T2
    isplitl [T3]; · iexact T3
    isplitl [T4]; · iexact T4
    isplitl [T5]; · iexact T5
    isplitl [T6]; · iexact T6
    isplitl [T7]; · iexact T7
    isplitl [T8]; · iexact T8
    isplitl [T9]; · iexact T9
    isplitl [T10]; · iexact T10
    isplitl [T11]; · iexact T11
    iexists d; isplitr; · ipureintro; exact agree1_zero V c d
    iexact HS
  iexact Hg

/-- and after the last point the invariant gives it back, the scratch's contents forgotten. -/
theorem hout1 (c : Dev nD) : (dat1 V c).Φ (Fin.last cfg1.N) ⊢ Pipeline.ΦA spec1 c := by
  rw [show (dat1 V c).Φ (Fin.last cfg1.N) = PhiS1 V c (Fin.last cfg1.N).val from rfl, PhiA1_eq]; unfold PhiS1
  iintro ⟨⟨T1, T2, T3, T4, T5, T6, T7, T8, T9, T10, T11, ⟨%xs, -, HS⟩⟩, Hg⟩
  isplitl [T1 T2 T3 T4 T5 T6 T7 T8 T9 T10 T11 HS]
  · isplitl [T1]; · iexact T1
    isplitl [T2]; · iexact T2
    isplitl [T3]; · iexact T3
    isplitl [T4]; · iexact T4
    isplitl [T5]; · iexact T5
    isplitl [T6]; · iexact T6
    isplitl [T7]; · iexact T7
    isplitl [T8]; · iexact T8
    isplitl [T9]; · iexact T9
    isplitl [T10]; · iexact T10
    isplitl [T11]; · iexact T11
    iexists xs; iexact HS
  iexact Hg

end Region1

end Cert.KernelIdeal.Hand

end
-- ==== Proof.KI.Run.lean ====
/-
  The whole program on every core: three reshapes of the bias vectors on the host, then the two kernel launches.
  The contents of the unscoped buffers at each boundary are a fold from the launch memory: after the reshapes, after
  pass 1 (its two output arrays at what its write-backs leave, everything else as before), after passes 2 and 3
  (the result array at what its write-backs leave).  Every weakly fair execution terminates without a fault with
  every unscoped buffer at the last of these; the eight argument arrays walk back through the fold to the launch
  memory, since no host operation and no kernel launch writes one.
-/
import proofs.«180365_g15126874816640_cont_week2b_32_13_alg».proof.Proof.KI.R0Frame
import proofs.«180365_g15126874816640_cont_week2b_32_13_alg».proof.Proof.KI.R1Frame

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Core c's buffers at launch. -/
abbrev E0 : Dev nD → Valuation τ sig (Elt F) := fun c b => (s₀ m ρ).mem ((c : Dev nD), b)
/-- After the three reshapes (pass 1's entry). -/
abbrev E1 : Dev nD → Valuation τ sig (Elt F) := fun c => StableHlo.after hostOps0 (E0 m ρ c)
/-- The same read at the TensorCore's references. -/
abbrev B1 : (c : Dev nD) → (b : Ref sig .tc) → Buf (Elt F) ((c : Thread nD τ).loc b) := fun c b => E1 m ρ c b
/-- After pass 1: its arrays at what the pipeline leaves, every other buffer as entered. -/
def E2 (c : Dev nD) : Valuation τ sig (Elt F) :=
  Pipeline.withArrays spec0 c (E1 m ρ c) fun w => (dat0 (B1 m ρ) c).arrAt w cfg0.N
theorem E2_arr (c : Dev nD) (w : Fin cfg0.W) :
    E2 m ρ c (Proc.devRef .tc (Pipeline.arrRef spec0 w)) = (dat0 (B1 m ρ) c).arrAt w cfg0.N := by
  unfold E2; exact Pipeline.withArrays_arr spec0 launch0.win.arr_inj c _ _ w
theorem E2_of_ne (c : Dev nD) (b : Ref sig .tc) (hb : ∀ w, Pipeline.arrRef spec0 w ≠ b) :
    E2 m ρ c (Proc.devRef .tc b) = E1 m ρ c (Proc.devRef .tc b) := by
  unfold E2; exact Pipeline.withArrays_of_ne spec0 c _ _ b hb
abbrev B2 : (c : Dev nD) → (b : Ref sig .tc) → Buf (Elt F) ((c : Thread nD τ).loc b) := fun c b => E2 m ρ c b
theorem hF0 (c : Dev nD) (w : Fin cfg0.W) : (dat0 (B1 m ρ) c).arrAt w cfg0.N = B2 m ρ c (Pipeline.arrRef spec0 w) :=
  (E2_arr m ρ c w).symm
theorem hrest0 (c : Dev nD) : ∀ b, b ∉ Finset.univ.image (Pipeline.arrRef spec0) → B2 m ρ c b = B1 m ρ c b :=
  fun b hb => E2_of_ne m ρ c b fun w e => hb (Finset.mem_image.mpr ⟨w, Finset.mem_univ _, e⟩)

/-- After passes 2 and 3: their arrays at what the pipeline leaves, every other buffer as entered. -/
def E3 (c : Dev nD) : Valuation τ sig (Elt F) :=
  Pipeline.withArrays spec1 c (E2 m ρ c) fun w => (dat1 (B2 m ρ) c).arrAt w cfg1.N
theorem E3_arr (c : Dev nD) (w : Fin cfg1.W) :
    E3 m ρ c (Proc.devRef .tc (Pipeline.arrRef spec1 w)) = (dat1 (B2 m ρ) c).arrAt w cfg1.N := by
  unfold E3; exact Pipeline.withArrays_arr spec1 launch1.win.arr_inj c _ _ w
theorem E3_of_ne (c : Dev nD) (b : Ref sig .tc) (hb : ∀ w, Pipeline.arrRef spec1 w ≠ b) :
    E3 m ρ c (Proc.devRef .tc b) = E2 m ρ c (Proc.devRef .tc b) := by
  unfold E3; exact Pipeline.withArrays_of_ne spec1 c _ _ b hb
abbrev B3 : (c : Dev nD) → (b : Ref sig .tc) → Buf (Elt F) ((c : Thread nD τ).loc b) := fun c b => E3 m ρ c b
theorem hF1 (c : Dev nD) (w : Fin cfg1.W) : (dat1 (B2 m ρ) c).arrAt w cfg1.N = B3 m ρ c (Pipeline.arrRef spec1 w) :=
  (E3_arr m ρ c w).symm
theorem hrest1 (c : Dev nD) : ∀ b, b ∉ Finset.univ.image (Pipeline.arrRef spec1) → B3 m ρ c b = B2 m ρ c b :=
  fun b hb => E3_of_ne m ρ c b fun w e => hb (Finset.mem_image.mpr ⟨w, Finset.mem_univ _, e⟩)

/-! The arguments end as launched. -/
theorem E3_main_arg0 (c : Dev nD) : E3 m ρ c (Proc.devRef .tc main_arg0) = m ((c : Thread nD τ).loc main_arg0) :=
  calc E3 m ρ c (Proc.devRef .tc main_arg0)
    _ = E2 m ρ c (Proc.devRef .tc main_arg0) := (E3_arr m ρ c 5).trans (((dat1 (B2 m ρ) c).arrAt_in 5 rfl _).trans (A_eq1 (B2 m ρ) c 5))
    _ = E1 m ρ c (Proc.devRef .tc main_arg0) := (E2_arr m ρ c 1).trans (((dat0 (B1 m ρ) c).arrAt_in 1 rfl _).trans (A_eq0 (B1 m ρ) c 1))
    _ = E0 m ρ c (Proc.devRef .tc main_arg0) := StableHlo.after_of_forall_not_mem (b := Proc.devRef .tc main_arg0) _ _ (List.forall_iff_forall_mem.mp (by
          simp only [hostOps0, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg0) := rfl
theorem E3_main_arg1 (c : Dev nD) : E3 m ρ c (Proc.devRef .tc main_arg1) = m ((c : Thread nD τ).loc main_arg1) :=
  calc E3 m ρ c (Proc.devRef .tc main_arg1)
    _ = E2 m ρ c (Proc.devRef .tc main_arg1) := E3_of_ne m ρ c main_arg1 (by decide)
    _ = E1 m ρ c (Proc.devRef .tc main_arg1) := (E2_arr m ρ c 0).trans (((dat0 (B1 m ρ) c).arrAt_in 0 rfl _).trans (A_eq0 (B1 m ρ) c 0))
    _ = E0 m ρ c (Proc.devRef .tc main_arg1) := StableHlo.after_of_forall_not_mem (b := Proc.devRef .tc main_arg1) _ _ (List.forall_iff_forall_mem.mp (by
          simp only [hostOps0, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg1) := rfl
theorem E3_main_arg2 (c : Dev nD) : E3 m ρ c (Proc.devRef .tc main_arg2) = m ((c : Thread nD τ).loc main_arg2) :=
  calc E3 m ρ c (Proc.devRef .tc main_arg2)
    _ = E2 m ρ c (Proc.devRef .tc main_arg2) := E3_of_ne m ρ c main_arg2 (by decide)
    _ = E1 m ρ c (Proc.devRef .tc main_arg2) := (E2_arr m ρ c 2).trans (((dat0 (B1 m ρ) c).arrAt_in 2 rfl _).trans (A_eq0 (B1 m ρ) c 2))
    _ = E0 m ρ c (Proc.devRef .tc main_arg2) := StableHlo.after_of_forall_not_mem (b := Proc.devRef .tc main_arg2) _ _ (List.forall_iff_forall_mem.mp (by
          simp only [hostOps0, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg2) := rfl
theorem E3_main_arg3 (c : Dev nD) : E3 m ρ c (Proc.devRef .tc main_arg3) = m ((c : Thread nD τ).loc main_arg3) :=
  calc E3 m ρ c (Proc.devRef .tc main_arg3)
    _ = E2 m ρ c (Proc.devRef .tc main_arg3) := E3_of_ne m ρ c main_arg3 (by decide)
    _ = E1 m ρ c (Proc.devRef .tc main_arg3) := E2_of_ne m ρ c main_arg3 (by decide)
    _ = E0 m ρ c (Proc.devRef .tc main_arg3) := StableHlo.after_of_forall_not_mem (b := Proc.devRef .tc main_arg3) _ _ (List.forall_iff_forall_mem.mp (by
          simp only [hostOps0, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg3) := rfl
theorem E3_main_arg4 (c : Dev nD) : E3 m ρ c (Proc.devRef .tc main_arg4) = m ((c : Thread nD τ).loc main_arg4) :=
  calc E3 m ρ c (Proc.devRef .tc main_arg4)
    _ = E2 m ρ c (Proc.devRef .tc main_arg4) := E3_of_ne m ρ c main_arg4 (by decide)
    _ = E1 m ρ c (Proc.devRef .tc main_arg4) := (E2_arr m ρ c 4).trans (((dat0 (B1 m ρ) c).arrAt_in 4 rfl _).trans (A_eq0 (B1 m ρ) c 4))
    _ = E0 m ρ c (Proc.devRef .tc main_arg4) := StableHlo.after_of_forall_not_mem (b := Proc.devRef .tc main_arg4) _ _ (List.forall_iff_forall_mem.mp (by
          simp only [hostOps0, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg4) := rfl
theorem E3_main_arg5 (c : Dev nD) : E3 m ρ c (Proc.devRef .tc main_arg5) = m ((c : Thread nD τ).loc main_arg5) :=
  calc E3 m ρ c (Proc.devRef .tc main_arg5)
    _ = E2 m ρ c (Proc.devRef .tc main_arg5) := E3_of_ne m ρ c main_arg5 (by decide)
    _ = E1 m ρ c (Proc.devRef .tc main_arg5) := E2_of_ne m ρ c main_arg5 (by decide)
    _ = E0 m ρ c (Proc.devRef .tc main_arg5) := StableHlo.after_of_forall_not_mem (b := Proc.devRef .tc main_arg5) _ _ (List.forall_iff_forall_mem.mp (by
          simp only [hostOps0, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg5) := rfl
theorem E3_main_arg6 (c : Dev nD) : E3 m ρ c (Proc.devRef .tc main_arg6) = m ((c : Thread nD τ).loc main_arg6) :=
  calc E3 m ρ c (Proc.devRef .tc main_arg6)
    _ = E2 m ρ c (Proc.devRef .tc main_arg6) := (E3_arr m ρ c 3).trans (((dat1 (B2 m ρ) c).arrAt_in 3 rfl _).trans (A_eq1 (B2 m ρ) c 3))
    _ = E1 m ρ c (Proc.devRef .tc main_arg6) := E2_of_ne m ρ c main_arg6 (by decide)
    _ = E0 m ρ c (Proc.devRef .tc main_arg6) := StableHlo.after_of_forall_not_mem (b := Proc.devRef .tc main_arg6) _ _ (List.forall_iff_forall_mem.mp (by
          simp only [hostOps0, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg6) := rfl
theorem E3_main_arg7 (c : Dev nD) : E3 m ρ c (Proc.devRef .tc main_arg7) = m ((c : Thread nD τ).loc main_arg7) :=
  calc E3 m ρ c (Proc.devRef .tc main_arg7)
    _ = E2 m ρ c (Proc.devRef .tc main_arg7) := E3_of_ne m ρ c main_arg7 (by decide)
    _ = E1 m ρ c (Proc.devRef .tc main_arg7) := E2_of_ne m ρ c main_arg7 (by decide)
    _ = E0 m ρ c (Proc.devRef .tc main_arg7) := StableHlo.after_of_forall_not_mem (b := Proc.devRef .tc main_arg7) _ _ (List.forall_iff_forall_mem.mp (by
          simp only [hostOps0, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg7) := rfl

/-! The proof data family and the thread state. -/

abbrev adm : (p : Fin 2) → (pcfgs (F := F) p).Adm := fun p => (cfgs p).toPCfg_adm
def pdats : (p : Fin 2) → (c : Dev nD) → Dat τ (Elt F) Unit ℕ (UR sig nD τ) ℕ (Pipeline.pin (pcfgs (F := F)) adm p) c
  | ⟨0, _⟩ => fun c => dat0 (B1 m ρ) c
  | ⟨1, _⟩ => fun c => dat1 (B2 m ρ) c
abbrev 𝒱₀ : Variants := Variants.none
abbrev L : GSem nD τ sig → Finset Unit := fun _ => ∅
abbrev lv : GSem nD τ sig → Unit → ℕ := fun _ _ => 0
/-- What rides beside the buffers through every segment: the generator register at some state, nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem hostOps0_noalloc : (hostOps0 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (E3 m ρ c) ∗ ∃ r, prngReg c r)

/-! The two launches as segments: the arrays split out of the unscoped buffers at entry and put back at the exit
    contents; the generator register into the invariant and out; nothing owed; no semaphore of the kernels' own. -/

set_option backward.isDefEq.respectTransparency.types false in
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (B1 m ρ) c).loose
  hwaits := Pipeline.hwaits_of_owed_zero _ _ _ _ L lv 0 fun _ _ => rfl
  pre c := iprop(StableHlo.held (c : Thread nD τ) (Pipeline.ucRefs τ sig) (E1 m ρ c) ∗ R c)
  post c := iprop(StableHlo.held (c : Thread nD τ) (Pipeline.ucRefs τ sig) (E2 m ρ c) ∗ R c)
  X c := iprop(∃ r, prngReg c r)
  Y c := iprop(∃ r, prngReg c r)
  Z c := Pipeline.unscopedRest (Ix := Unit) (Name := ℕ) (U := UR sig nD τ) (Lvl := ℕ) spec0 c (B1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (B1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin0 (B1 m ρ) c)
    unfold Pipeline.ΦA
    iintro ⟨Hp, -, Hr⟩
    isplitl [Hr]; · iexact Hr
    iexact Hp
  hout c := by
    refine BIBase.Entails.trans (hout0 (B1 m ρ) c) ?_
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (B1 m ρ c) (B2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (B2 m ρ) c).loose
  hwaits := Pipeline.hwaits_of_owed_zero _ _ _ _ L lv 1 fun _ _ => rfl
  pre c := iprop(StableHlo.held (c : Thread nD τ) (Pipeline.ucRefs τ sig) (E2 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (B2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (B2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin1 (B2 m ρ) c)
    unfold Pipeline.ΦA
    iintro ⟨Hp, -, Hr⟩
    isplitl [Hr]; · iexact Hr
    iexact Hp
  hout c := by
    refine BIBase.Entails.trans (hout1 (B2 m ρ) c) ?_
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (B2 m ρ c) (B3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

abbrev segs : List (Pipeline.Seg (pcfgs (F := F)) adm (pdats m ρ) () defs₀ 𝒱₀ L lv) :=
  [ .host (hseg hostOps0 hostOps0_sub hostOps0_noalloc (E0 m ρ)),
    .region (reg0 m ρ),
    .region (reg1 m ρ) ]
theorem main_run (c : Dev nD) : main (F := F) c = Pipeline.Seg.run (segs m ρ) := (main_chain c).trans (by chain_rfl)

set_option backward.isDefEq.respectTransparency.types false in
/-- Every weakly fair execution terminates, nothing faulting, with every unscoped buffer at the last boundary's
    contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = E3 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (E0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (E0 m ρ c)
        from Pipeline.unscopedBufs_held c (E0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = E3 m ρ c b)
    (hfin := fun c s' => by
      iintro ⟨⟨Hh, -⟩, HSI⟩
      unfold StableHlo.held
      imodintro
      iapply (pointsTo_read_all (Pipeline.ucRefs τ sig) (fun b => (((c : Thread nD τ)).1, b)) (E3 m ρ c) s')
      isplitl [Hh] <;> iassumption)
    (hQ := fun s h => h)

/-- The frame: every execution terminates without a fault and the eight argument arrays end as launched. -/
theorem frame_all : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧       r.2.mem ((c.tc : Thread nD τ).loc main_arg1) = m ((c.tc : Thread nD τ).loc main_arg1)
      ∧       r.2.mem ((c.tc : Thread nD τ).loc main_arg2) = m ((c.tc : Thread nD τ).loc main_arg2)
      ∧       r.2.mem ((c.tc : Thread nD τ).loc main_arg3) = m ((c.tc : Thread nD τ).loc main_arg3)
      ∧       r.2.mem ((c.tc : Thread nD τ).loc main_arg4) = m ((c.tc : Thread nD τ).loc main_arg4)
      ∧       r.2.mem ((c.tc : Thread nD τ).loc main_arg5) = m ((c.tc : Thread nD τ).loc main_arg5)
      ∧       r.2.mem ((c.tc : Thread nD τ).loc main_arg6) = m ((c.tc : Thread nD τ).loc main_arg6)
      ∧       r.2.mem ((c.tc : Thread nD τ).loc main_arg7) = m ((c.tc : Thread nD τ).loc main_arg7)) :=
  (θ_run defs _ _).mono (fun r h c =>
    ⟨(h c _ (mem_uc main_arg0 (by decide))).trans (E3_main_arg0 m ρ c),
     (h c _ (mem_uc main_arg1 (by decide))).trans (E3_main_arg1 m ρ c),
     (h c _ (mem_uc main_arg2 (by decide))).trans (E3_main_arg2 m ρ c),
     (h c _ (mem_uc main_arg3 (by decide))).trans (E3_main_arg3 m ρ c),
     (h c _ (mem_uc main_arg4 (by decide))).trans (E3_main_arg4 m ρ c),
     (h c _ (mem_uc main_arg5 (by decide))).trans (E3_main_arg5 m ρ c),
     (h c _ (mem_uc main_arg6 (by decide))).trans (E3_main_arg6 m ρ c),
     (h c _ (mem_uc main_arg7 (by decide))).trans (E3_main_arg7 m ρ c)⟩) (run_all m ρ)

end Cert.KernelIdeal.Hand

end
-- ==== Proof.Spec.lean ====
/-
  The three stacked graph-convolution layers as one function of the eight argument arrays, entry by entry, over the
  extended reals:
    S1 = x W1,  H1 = max (adj S1 + b1) 0,  S2 = H1 W2,  H2 = max (adj S2 + b2) 0,  S3 = H2 W3,
    H3 = max (adj S3 + b3) 0,  out = max (H3 + x) 0,
  every matrix product a plain finite sum and the zero of each clamp the float word both programs spell.
-/
import Idealize.ShloMosaic.PureOps.Ideal
import Idealize.ShloMosaic.Lib.ValueIdx

noncomputable section

open scoped BigOperators

namespace Cert.Spec

open Idealize.ShloMosaic Idealize.ShloMosaic.ValueIdx

/-- A matrix of extended reals of literal extents. -/
abbrev Mat (a b : ℕ) : Type := (⟨2, ![a, b]⟩ : Shape).Idx → EReal
/-- A row of extended reals of a literal extent. -/
abbrev Row (a : ℕ) : Type := (⟨1, ![a]⟩ : Shape).Idx → EReal

/-- The zero every clamp compares with: the f32 word 0x00000000 read at the ideal instance. -/
def zero : EReal := Ideal.ofBits .f32 0x00000000#32

/-- Entry (r, j) of a matrix product: the sum over the shared axis. -/
def mm {n k p : ℕ} (a : Mat n k) (b : Mat k p) (r : Fin n) (j : Fin p) : EReal :=
  ∑ l : Fin k, a (ix2 r l) * b (ix2 l j)

/-- Entry (r, j) of one graph-convolution layer after its clamp: max (adj s + bias, 0). -/
def conv {n f : ℕ} (adj : Mat n n) (s : Mat n f) (b : Row f) (r : Fin n) (j : Fin f) : EReal :=
  max (mm adj s r j + b (ix1 j)) zero

def S1 (x : Mat 10000 128) (W1 : Mat 128 20) : Mat 10000 20 := fun i => mm x W1 (i 0) (i 1)
def H1 (x : Mat 10000 128) (adj : Mat 10000 10000) (W1 : Mat 128 20) (b1 : Row 20) : Mat 10000 20 :=
  fun i => conv adj (S1 x W1) b1 (i 0) (i 1)
def S2 (x : Mat 10000 128) (adj : Mat 10000 10000) (W1 : Mat 128 20) (b1 : Row 20) (W2 : Mat 20 20) : Mat 10000 20 :=
  fun i => mm (H1 x adj W1 b1) W2 (i 0) (i 1)
def H2 (x : Mat 10000 128) (adj : Mat 10000 10000) (W1 : Mat 128 20) (b1 : Row 20) (W2 : Mat 20 20) (b2 : Row 20) : Mat 10000 20 :=
  fun i => conv adj (S2 x adj W1 b1 W2) b2 (i 0) (i 1)
def S3 (x : Mat 10000 128) (adj : Mat 10000 10000) (W1 : Mat 128 20) (b1 : Row 20) (W2 : Mat 20 20) (b2 : Row 20)
    (W3 : Mat 20 128) : Mat 10000 128 :=
  fun i => mm (H2 x adj W1 b1 W2 b2) W3 (i 0) (i 1)
def H3 (x : Mat 10000 128) (adj : Mat 10000 10000) (W1 : Mat 128 20) (b1 : Row 20) (W2 : Mat 20 20) (b2 : Row 20)
    (W3 : Mat 20 128) (b3 : Row 128) : Mat 10000 128 :=
  fun i => conv adj (S3 x adj W1 b1 W2 b2 W3) b3 (i 0) (i 1)
/-- The block's result: the third layer plus the shortcut, clamped. -/
def out (x : Mat 10000 128) (adj : Mat 10000 10000) (W1 : Mat 128 20) (b1 : Row 20) (W2 : Mat 20 20) (b2 : Row 20)
    (W3 : Mat 20 128) (b3 : Row 128) : Mat 10000 128 :=
  fun i => max (H3 x adj W1 b1 W2 b2 W3 b3 i + x i) zero

end Cert.Spec

end
-- ==== Proof.PayIdeal.lean ====
/-
  The kernel's five stored values read entry by entry over the extended reals.

  Every matrix product in the kernel contracts the last axis of its left operand with the first axis of its right
  operand and accumulates into a zero splat, so at the ideal values its entry (r, j) is the plain finite sum
  ∑ l, a (r, l) * b (l, j).  A change of float format is the identity there, a shape cast between equal shapes is
  the identity, and a bias row [1, p] broadcast over the rows reads its one row at the column.  With these, the
  first layer's product is the specification's matrix product, the adjacency block's bf16 copy is the block itself,
  and each later stored value is "clamp (adjacency block times the previous product, plus the bias row), times the
  next weight matrix" — the last one with the shortcut added and clamped again instead of a product.
-/
import proofs.«180365_g15126874816640_cont_week2b_32_13_alg».proof.Proof.Gen.KernelIdeal.Skeleton
import proofs.«180365_g15126874816640_cont_week2b_32_13_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.Pay

open Cert.KernelIdeal Cert.KernelIdeal.Gen Idealize.ShloMosaic Idealize.ShloMosaic.ValueIdx

/-! ## A rows-by-columns matrix product at an entry -/

/-- The left operand's index at result entry `i` and contraction position `q` has the result's row … -/
theorem plain_lhs0 {n k p : ℕ} (i : (⟨2, ![n, p]⟩ : Shape).Idx) (q : (DotDims.plain n k p).contr.Idx) :
    ((DotDims.plain n k p).lhsIdx i q 0).val = (i 0).val := by
  unfold DotDims.lhsIdx
  rw [dif_neg (show ¬(0 : Fin 2) ∈ (DotDims.plain n k p).lhsBatch from List.not_mem_nil),
    dif_pos (show (0 : Fin 2) ∈ (DotDims.plain n k p).lhsNonContracting from List.mem_singleton.mpr rfl)]
  rfl

/-- … and the contraction position as its column. -/
theorem plain_lhs1 {n k p : ℕ} (i : (⟨2, ![n, p]⟩ : Shape).Idx) (q : (DotDims.plain n k p).contr.Idx) :
    ((DotDims.plain n k p).lhsIdx i q 1).val = (q ⟨0, Nat.one_pos⟩).val :=
  (DotDims.plain n k p).lhsIdx_val_of_single rfl i q

/-- The right operand's index has the contraction position as its row … -/
theorem plain_rhs0 {n k p : ℕ} (i : (⟨2, ![n, p]⟩ : Shape).Idx) (q : (DotDims.plain n k p).contr.Idx) :
    ((DotDims.plain n k p).rhsIdx i q 0).val = (q ⟨0, Nat.one_pos⟩).val :=
  (DotDims.plain n k p).rhsIdx_val_of_single rfl i q

/-- … and the result's column. -/
theorem plain_rhs1 {n k p : ℕ} (i : (⟨2, ![n, p]⟩ : Shape).Idx) (q : (DotDims.plain n k p).contr.Idx) :
    ((DotDims.plain n k p).rhsIdx i q 1).val = (i 1).val := by
  unfold DotDims.rhsIdx
  rw [dif_neg (show ¬(1 : Fin 2) ∈ (DotDims.plain n k p).rhsBatch from List.not_mem_nil),
    dif_pos (show (1 : Fin 2) ∈ (DotDims.plain n k p).rhsNonContracting from List.mem_singleton.mpr rfl)]
  rfl

/-- An [n, k] by [k, p] product accumulated into the zero splat is, at entry (r, j), the sum over the shared axis of
    the products of row r of the left operand with column j of the right: the contraction's one-axis index is
    re-indexed by its coordinate. The kernel's six dimension-number records all have these lists, so each is this one. -/
theorem matmul_plain_zero_apply {n k p : ℕ} {φ₁ φ₂ : FTy} (prec : Option ContractPrecision)
    (a : FVec Ideal ⟨2, ![n, k]⟩ φ₁) (b : FVec Ideal ⟨2, ![k, p]⟩ φ₂) (r : Fin n) (j : Fin p) :
    FloatOps.matmul (DotDims.plain n k p) prec a b (constant ⟨2, ![n, p]⟩ .f32 0x00000000#32) (ix2 r j)
      = ∑ l : Fin k, a (ix2 r l) * b (ix2 l j) := by
  rw [Ideal.matmul_constant_zero_apply, ← Equiv.sum_comp (contrEquiv1 (DotDims.plain n k p) k rfl rfl).symm]
  refine Finset.sum_congr rfl fun l _ => ?_
  have hk := contrEquiv1_symm_val (DotDims.plain n k p) k rfl rfl l
  have el : (DotDims.plain n k p).lhsIdx (ix2 r j) ((contrEquiv1 (DotDims.plain n k p) k rfl rfl).symm l) = ix2 r l :=
    funext fun a => Fin.ext (by
      match a with
      | ⟨0, _⟩ => exact plain_lhs0 _ _
      | ⟨1, _⟩ => exact (plain_lhs1 _ _).trans hk)
  have er : (DotDims.plain n k p).rhsIdx (ix2 r j) ((contrEquiv1 (DotDims.plain n k p) k rfl rfl).symm l) = ix2 l j :=
    funext fun a => Fin.ext (by
      match a with
      | ⟨0, _⟩ => exact (plain_rhs0 _ _).trans hk
      | ⟨1, _⟩ => exact plain_rhs1 _ _)
  rw [el, er]

/-! ## One graph-convolution layer before its weight matrix -/

/-- The clamp of (a times s, plus the bias row broadcast over the rows) at entry (r, j): the maximum of the row-by-column
    sum plus the bias at column j, and the zero word. -/
theorem conv_apply {n k p : ℕ} {φ₁ φ₂ : FTy} (a : FVec Ideal ⟨2, ![n, k]⟩ φ₁) (s : FVec Ideal ⟨2, ![k, p]⟩ φ₂)
    (b : FVec Ideal ⟨2, ![1, p]⟩ .f32) (hc : (⟨2, ![1, p]⟩ : Shape).ShapeCasts ⟨2, ![1, p]⟩)
    (hb : (⟨2, ![1, p]⟩ : Shape).Broadcasts ⟨2, ![n, p]⟩) (r : Fin n) (j : Fin p) :
    maximumf (addf (matmul (DotDims.plain n k p) none a s (constant ⟨2, ![n, p]⟩ .f32 0x00000000#32))
        (broadcastTo ⟨2, ![n, p]⟩ (shapeCast ⟨2, ![1, p]⟩ b hc) hb))
      (broadcast ⟨2, ![n, p]⟩ (Scalar.ofBits (F := Ideal) .f32 0x00000000#32)) (ix2 r j)
      = max ((∑ l : Fin k, a (ix2 r l) * s (ix2 l j)) + b (ix2 0 j)) Cert.Spec.zero := by
  rw [maximumf_apply, addf_apply, broadcast_apply, shapeCast_self, broadcastTo_1b_ab_apply]
  refine congrArg (fun t => max (t + b (ix2 0 j)) Cert.Spec.zero) ?_
  exact matmul_plain_zero_apply none a s r j

/-! ## The five stored values -/

/-- The first pass's feature product: x W1 at (r, j), the specification's matrix product. -/
theorem pay1_apply (x : Vec Ideal S10000x128 .f32) (w : Vec Ideal S128x20 .f32) (r : Fin 10000) (j : Fin 20) :
    k0_pay1 (F := Ideal) x w (ix2 r j) = Cert.Spec.mm x w r j := by
  unfold k0_pay1
  rw [shapeCast_self]
  exact matmul_plain_zero_apply (φ₁ := .f32) (φ₂ := .f32) none x w r j

/-- The adjacency block's narrower copy is the block itself. -/
theorem pay2_eq (a : Vec Ideal S400x10000 .f32) : k0_pay2 (F := Ideal) a = a := rfl

/-- The first pass's output block: the first layer's clamp at row r, times W2. -/
theorem pay3_apply (a : Vec Ideal S400x10000 .f32) (s : Vec Ideal S10000x20 .bf16) (b : Vec Ideal S1x20 .f32)
    (w : Vec Ideal S20x20 .f32) (r : Fin 400) (j : Fin 20) :
    k0_pay3 (F := Ideal) a s b w (ix2 r j)
      = ∑ k : Fin 20, max ((∑ l : Fin 10000, a (ix2 r l) * s (ix2 l k)) + b (ix2 0 k)) Cert.Spec.zero * w (ix2 k j) := by
  unfold k0_pay3
  refine (matmul_plain_zero_apply (φ₁ := .f32) (φ₂ := .f32) none _ w r j).trans ?_
  refine Finset.sum_congr rfl fun k _ => ?_
  refine congrArg (· * w (ix2 k j)) ?_
  exact conv_apply (φ₁ := .bf16) (φ₂ := .bf16) (k0_pay2 a) s b _ _ r k

/-- The second pass's block: the second layer's clamp at row r, times W3. -/
theorem k1_pay1_apply (a : Vec Ideal S1000x10000 .bf16) (s : Vec Ideal S10000x20 .bf16) (b : Vec Ideal S1x20 .f32)
    (w : Vec Ideal S20x128 .f32) (r : Fin 1000) (j : Fin 128) :
    k1_pay1 (F := Ideal) a s b w (ix2 r j)
      = ∑ k : Fin 20, max ((∑ l : Fin 10000, a (ix2 r l) * s (ix2 l k)) + b (ix2 0 k)) Cert.Spec.zero * w (ix2 k j) := by
  unfold k1_pay1
  rw [shapeCast_self, shapeCast_self a, shapeCast_self s]
  refine (matmul_plain_zero_apply (φ₁ := .f32) (φ₂ := .f32) none _ w r j).trans ?_
  refine Finset.sum_congr rfl fun k _ => ?_
  refine congrArg (· * w (ix2 k j)) ?_
  exact conv_apply (φ₁ := .bf16) (φ₂ := .bf16) a s b _ _ r k

/-- The third pass's block: the third layer's clamp, plus the shortcut, clamped. -/
theorem k1_pay2_apply (a : Vec Ideal S1000x10000 .bf16) (s : Vec Ideal S10000x128 .bf16) (b : Vec Ideal S1x128 .f32)
    (xb : Vec Ideal S1000x128 .f32) (r : Fin 1000) (j : Fin 128) :
    k1_pay2 (F := Ideal) a s b xb (ix2 r j)
      = max (max ((∑ l : Fin 10000, a (ix2 r l) * s (ix2 l j)) + b (ix2 0 j)) Cert.Spec.zero + xb (ix2 r j))
          Cert.Spec.zero := by
  unfold k1_pay2
  rw [shapeCast_self a, maximumf_apply, addf_apply, broadcast_apply]
  refine congrArg (fun t => max (t + xb (ix2 r j)) Cert.Spec.zero) ?_
  exact conv_apply (φ₁ := .bf16) (φ₂ := .bf16) a s b _ _ r j

end Cert.KernelIdeal.Pay

end
-- ==== Proof.SpecTail.lean ====
/-
  The second half of the specification, as the second kernel launch sees it: from the adjacency matrix, the array S2
  and the remaining weights, the block's result; and the row of a 1 x f array.
-/
import proofs.«180365_g15126874816640_cont_week2b_32_13_alg».proof.Proof.Spec

noncomputable section

namespace Cert.Spec

open Idealize.ShloMosaic Idealize.ShloMosaic.ValueIdx

/-- The one row of a 1 x f matrix. -/
def rowOf {f : ℕ} (b : Mat 1 f) : Row f := fun j => b (ix2 0 (j 0))

/-- The second layer after its clamp, from S2: max (adj S2 + b2) 0. -/
def H2of (adj : Mat 10000 10000) (s2 : Mat 10000 20) (b2 : Row 20) : Mat 10000 20 :=
  fun i => conv adj s2 b2 (i 0) (i 1)

/-- S3 from S2: the second layer times W3. -/
def S3of (adj : Mat 10000 10000) (s2 : Mat 10000 20) (b2 : Row 20) (W3 : Mat 20 128) : Mat 10000 128 :=
  fun i => mm (H2of adj s2 b2) W3 (i 0) (i 1)

/-- Layers 2 (from S2 on) and 3 with the shortcut: max (max (adj S3 + b3) 0 + x) 0. -/
def tail (adj : Mat 10000 10000) (s2 : Mat 10000 20) (b2 : Row 20) (W3 : Mat 20 128) (b3 : Row 128) (x : Mat 10000 128) :
    Mat 10000 128 :=
  fun i => max (conv adj (S3of adj s2 b2 W3) b3 (i 0) (i 1) + x i) zero

/-- The specification is the second half applied to the first half's S2. -/
theorem out_eq_tail (x : Mat 10000 128) (adj : Mat 10000 10000) (W1 : Mat 128 20) (b1 : Row 20) (W2 : Mat 20 20) (b2 : Row 20)
    (W3 : Mat 20 128) (b3 : Row 128) :
    out x adj W1 b1 W2 b2 W3 b3 = tail adj (S2 x adj W1 b1 W2) b2 W3 b3 x := by
  unfold out tail H3 S3of S3 H2of H2; rfl

end Cert.Spec

end
-- ==== Proof.KI.R0Value.lean ====
/-
  What pass 1 leaves in its two output arrays, over the extended reals.

  The 25 grid points write back 25 blocks of 400 rows each, and row r of either output lies in the block of point
  r / 400, so the blocks cover both arrays.  At point t the adjacency window holds rows 400 t … 400 t + 399 of the
  adjacency matrix, and the four whole-array windows (x, W1, the bias row, W2) hold their arrays at every point.  The
  first output's block is the adjacency block itself (its narrower copy is the identity on extended reals), so the
  first output ends as the adjacency matrix.  The second output's block at point t is, entry by entry, the clamp of
  (adjacency row times the kept product x W1, plus the bias) times W2 — rows 400 t … 400 t + 399 of the
  specification's S2 — so the second output ends as S2.
-/
import proofs.«180365_g15126874816640_cont_week2b_32_13_alg».proof.Proof.KI.R0Frame
import proofs.«180365_g15126874816640_cont_week2b_32_13_alg».proof.Proof.PayIdeal
import proofs.«180365_g15126874816640_cont_week2b_32_13_alg».proof.Proof.SpecTail
import Idealize.ShloMosaic.Lib.Pipeline.Value

set_option maxRecDepth 16384

noncomputable section

open scoped BigOperators

namespace Cert.KernelIdeal.Hand

open Idealize.ShloMosaic Idealize.ShloMosaic.TcCoe Idealize.SL.Sem Idealize.ShloMosaic.ValueIdx
open Idealize.ShloMosaic.Pipeline (Dat)
open Cert.KernelIdeal Cert.KernelIdeal.Gen

section Region0Value

variable (V : (c : Dev nD) → (b : Ref sig .tc) → Buf (Elt Ideal) ((c : Thread nD τ).loc b))

/-! ## The index maps over the grid, and each input window's block as rows of its array -/

/-- At point t the adjacency window and both output windows sit at block row t, block column 0; the four whole-array
    windows sit at block (0, 0). -/
theorem idx_facts0 : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0
    ∧ win0_6.index t (0 : Fin 2) = t.val ∧ win0_6.index t (1 : Fin 2) = 0 :=
  (by decide +kernel : ∀ t : Fin grid0.N, _)

/-- Row p of the adjacency window's block at point t is row 400 t + p of the adjacency matrix. -/
theorem iblk0_0_apply (c : Dev nD) (t : Fin cfg0.N) (p : Fin 400) (l : Fin 10000) (k : Fin 10000) (hk : k.val = 400 * t.val + p.val) :
    (iblk0 V c 0 t : Vec Ideal S400x10000 .f32) (ix2 p l) = (V c main_arg1 : S10000x10000.Idx → EReal) (ix2 k l) := by
  obtain ⟨e0, e1, -⟩ := idx_facts0 t
  unfold iblk0
  rw [View.read_apply]
  show V c main_arg1 _ = V c main_arg1 _
  congr 1
  funext a
  apply Fin.ext
  match a with
  | ⟨0, _⟩ => show win0_0.index t 0 * 400 + 1 * p.val = k.val; rw [e0, hk]; omega
  | ⟨1, _⟩ => show win0_0.index t 1 * 10000 + 1 * l.val = l.val; rw [e1]; omega

/-- The window over x holds x at every point. -/
theorem iblk0_1_eq (c : Dev nD) (t : Fin cfg0.N) :
    (iblk0 V c 1 t : Vec Ideal S10000x128 .f32) = (V c main_arg0 : S10000x128.Idx → EReal) := by
  obtain ⟨-, -, e0, e1, -⟩ := idx_facts0 t
  funext y
  unfold iblk0
  rw [View.read_apply]
  show V c main_arg0 _ = V c main_arg0 _
  congr 1
  funext a
  apply Fin.ext
  match a with
  | ⟨0, _⟩ => show win0_1.index t 0 * 10000 + 1 * (y 0).val = (y 0).val; rw [e0]; omega
  | ⟨1, _⟩ => show win0_1.index t 1 * 128 + 1 * (y 1).val = (y 1).val; rw [e1]; omega

/-- The window over W1 holds W1 at every point. -/
theorem iblk0_2_eq (c : Dev nD) (t : Fin cfg0.N) :
    (iblk0 V c 2 t : Vec Ideal S128x20 .f32) = (V c main_arg2 : S128x20.Idx → EReal) := by
  obtain ⟨-, -, -, -, e0, e1, -⟩ := idx_facts0 t
  funext y
  unfold iblk0
  rw [View.read_apply]
  show V c main_arg2 _ = V c main_arg2 _
  congr 1
  funext a
  apply Fin.ext
  match a with
  | ⟨0, _⟩ => show win0_2.index t 0 * 128 + 1 * (y 0).val = (y 0).val; rw [e0]; omega
  | ⟨1, _⟩ => show win0_2.index t 1 * 20 + 1 * (y 1).val = (y 1).val; rw [e1]; omega

/-- The window over the bias row holds it at every point. -/
theorem iblk0_3_eq (c : Dev nD) (t : Fin cfg0.N) :
    (iblk0 V c 3 t : Vec Ideal S1x20 .f32) = (V c main_call0_v0 : S1x20.Idx → EReal) := by
  obtain ⟨-, -, -, -, -, -, e0, e1, -⟩ := idx_facts0 t
  funext y
  unfold iblk0
  rw [View.read_apply]
  show V c main_call0_v0 _ = V c main_call0_v0 _
  congr 1
  funext a
  apply Fin.ext
  match a with
  | ⟨0, _⟩ => show win0_3.index t 0 * 1 + 1 * (y 0).val = (y 0).val; rw [e0]; omega
  | ⟨1, _⟩ => show win0_3.index t 1 * 20 + 1 * (y 1).val = (y 1).val; rw [e1]; omega

/-- The window over W2 holds W2 at every point. -/
theorem iblk0_4_eq (c : Dev nD) (t : Fin cfg0.N) :
    (iblk0 V c 4 t : Vec Ideal S20x20 .f32) = (V c main_arg4 : S20x20.Idx → EReal) := by
  obtain ⟨-, -, -, -, -, -, -, -, e0, e1, -⟩ := idx_facts0 t
  funext y
  unfold iblk0
  rw [View.read_apply]
  show V c main_arg4 _ = V c main_arg4 _
  congr 1
  funext a
  apply Fin.ext
  match a with
  | ⟨0, _⟩ => show win0_4.index t 0 * 20 + 1 * (y 0).val = (y 0).val; rw [e0]; omega
  | ⟨1, _⟩ => show win0_4.index t 1 * 20 + 1 * (y 1).val = (y 1).val; rw [e1]; omega

/-! ## The first output: the adjacency matrix again -/

/-- An index is in point t's block of the first output iff each coordinate is in the block's range on its axis. -/
theorem mem_blk0_5 (t : Fin cfg0.N) (i : S10000x10000.Idx) :
    i ∈ ((cfg0.win 5).blk t).view.set ↔ ∀ a : Fin 2, win0_5.index t a * S400x10000.size a ≤ (i a).val ∧ (i a).val < win0_5.index t a * S400x10000.size a + S400x10000.size a := by
  show i ∈ ((View.whole main_call0_v3_0).slice (win0_5.rect t)).set ↔ _
  rw [View.set_slice_whole, Rect.mem_set_unit]
  exact Iff.rfl

/-- Row r lies in the block of point r / 400: the 25 blocks cover the array. -/
theorem cover0_5 (i : S10000x10000.Idx) : ∃ t : Fin cfg0.N, (cfg0.win 5).flush t = true ∧ i ∈ ((cfg0.win 5).blk t).view.set := by
  have hN : cfg0.N = 25 := N_0
  have hi0 : (i 0).val < 10000 := (i 0).isLt
  have hi1 : (i 1).val < 10000 := (i 1).isLt
  refine ⟨⟨(i 0).val / 400, by rw [hN]; omega⟩, flush0_5 _, ?_⟩
  rw [mem_blk0_5]
  obtain ⟨-, -, -, -, -, -, -, -, -, -, e0, e1, -⟩ := idx_facts0 ⟨(i 0).val / 400, by rw [hN]; omega⟩
  intro a
  match a with
  | ⟨0, _⟩ =>
    show win0_5.index _ (0 : Fin 2) * 400 ≤ (i 0).val ∧ (i 0).val < win0_5.index _ (0 : Fin 2) * 400 + 400
    rw [e0]; show (i 0).val / 400 * 400 ≤ (i 0).val ∧ (i 0).val < (i 0).val / 400 * 400 + 400; omega
  | ⟨1, _⟩ =>
    show win0_5.index _ (1 : Fin 2) * 10000 ≤ (i 1).val ∧ (i 1).val < win0_5.index _ (1 : Fin 2) * 10000 + 10000
    rw [e1]; omega

/-- What point t writes back to the first output is block t of the adjacency matrix. -/
theorem flushed0_5_eq (c : Dev nD) (t : Fin cfg0.N) :
    (dat0 V c).flushed 5 t = ((cfg0.win 5).blk t).view.read (Elt Ideal) (V c main_arg1 : S10000x10000.Idx → EReal) := by
  show (cfg0.win 5).cut (grid0.coords t) ((dat0 V c).after 5 t) = _
  rw [after0_5, Pay.pay2_eq]
  obtain ⟨e0, e1, -, -, -, -, -, -, -, -, f0, f1, -⟩ := idx_facts0 t
  funext y
  show V c main_arg1 (((cfg0.win 0).blk t).view.emb y) = V c main_arg1 (((cfg0.win 5).blk t).view.emb y)
  refine congrArg (V c main_arg1) (funext fun a => Fin.ext ?_)
  match a with
  | ⟨0, _⟩ => show win0_0.index t (0 : Fin 2) * 400 + 1 * (y 0).val = win0_5.index t (0 : Fin 2) * 400 + 1 * (y 0).val; rw [e0, f0]
  | ⟨1, _⟩ => show win0_0.index t (1 : Fin 2) * 10000 + 1 * (y 1).val = win0_5.index t (1 : Fin 2) * 10000 + 1 * (y 1).val; rw [e1, f1]

/-- The first output after the last point is the adjacency matrix. -/
theorem arr0_5 (c : Dev nD) : ((dat0 V c).arrAt 5 cfg0.N : S10000x10000.Idx → EReal) = (V c main_arg1 : S10000x10000.Idx → EReal) :=
  (dat0 V c).arrAt_eq_of_cover 5 (V c main_arg1 : S10000x10000.Idx → EReal) (fun t _ => flushed0_5_eq V c t) cover0_5

/-! ## The second output: S2 -/

/-- The kept product is x W1, entry by entry. -/
theorem sc0_apply (c : Dev nD) (l : Fin 10000) (k : Fin 20) :
    (sc0 V c : Vec Ideal S10000x20 .bf16) (ix2 l k) = Cert.Spec.mm (V c main_arg0 : S10000x128.Idx → EReal) (V c main_arg2 : S128x20.Idx → EReal) l k := by
  unfold sc0
  rw [iblk0_1_eq, iblk0_2_eq]
  exact Pay.pay1_apply _ _ l k

/-- An index is in point t's block of the second output iff each coordinate is in the block's range on its axis. -/
theorem mem_blk0_6 (t : Fin cfg0.N) (i : S10000x20.Idx) :
    i ∈ ((cfg0.win 6).blk t).view.set ↔ ∀ a : Fin 2, win0_6.index t a * S400x20.size a ≤ (i a).val ∧ (i a).val < win0_6.index t a * S400x20.size a + S400x20.size a := by
  show i ∈ ((View.whole main_call0_v3_1).slice (win0_6.rect t)).set ↔ _
  rw [View.set_slice_whole, Rect.mem_set_unit]
  exact Iff.rfl

/-- Row r lies in the block of point r / 400: the 25 blocks cover the array. -/
theorem cover0_6 (i : S10000x20.Idx) : ∃ t : Fin cfg0.N, (cfg0.win 6).flush t = true ∧ i ∈ ((cfg0.win 6).blk t).view.set := by
  have hN : cfg0.N = 25 := N_0
  have hi0 : (i 0).val < 10000 := (i 0).isLt
  have hi1 : (i 1).val < 20 := (i 1).isLt
  refine ⟨⟨(i 0).val / 400, by rw [hN]; omega⟩, flush0_6 _, ?_⟩
  rw [mem_blk0_6]
  obtain ⟨-, -, -, -, -, -, -, -, -, -, -, -, e0, e1⟩ := idx_facts0 ⟨(i 0).val / 400, by rw [hN]; omega⟩
  intro a
  match a with
  | ⟨0, _⟩ =>
    show win0_6.index _ (0 : Fin 2) * 400 ≤ (i 0).val ∧ (i 0).val < win0_6.index _ (0 : Fin 2) * 400 + 400
    rw [e0]; show (i 0).val / 400 * 400 ≤ (i 0).val ∧ (i 0).val < (i 0).val / 400 * 400 + 400; omega
  | ⟨1, _⟩ =>
    show win0_6.index _ (1 : Fin 2) * 20 ≤ (i 1).val ∧ (i 1).val < win0_6.index _ (1 : Fin 2) * 20 + 20
    rw [e1]; omega

/-- One entry of the second output's block, over any arrays: when row p of the adjacency block is row r of the adjacency
    matrix and the kept product is x W1, entry (p, j) of the block is entry (r, j) of S2 — both are
    ∑ k, max (∑ l, adj (r, l) * (x W1) (l, k) + b (k), 0) * W2 (k, j), with the sums in the same grouping. -/
theorem pass1_entry (ablk : Vec Ideal S400x10000 .f32) (sc : Vec Ideal S10000x20 .bf16) (bb : Vec Ideal S1x20 .f32)
    (w2 : Vec Ideal S20x20 .f32) (x : Cert.Spec.Mat 10000 128) (adj : Cert.Spec.Mat 10000 10000) (W1 : Cert.Spec.Mat 128 20)
    (r : Fin 10000) (p : Fin 400) (j : Fin 20) (hadj : ∀ l, ablk (ix2 p l) = adj (ix2 r l))
    (hsc : ∀ l k, sc (ix2 l k) = Cert.Spec.mm x W1 l k) :
    k0_pay3 (F := Ideal) ablk sc bb w2 (ix2 p j) = Cert.Spec.S2 x adj W1 (Cert.Spec.rowOf bb) w2 (ix2 r j) := by
  refine (Pay.pay3_apply ablk sc bb w2 p j).trans ?_
  show _ = ∑ k : Fin 20, max ((∑ l : Fin 10000, adj (ix2 r l) * Cert.Spec.mm x W1 l k) + bb (ix2 0 k)) Cert.Spec.zero * w2 (ix2 k j)
  refine Finset.sum_congr rfl fun k _ => ?_
  refine congrArg (fun s => max (s + bb (ix2 0 k)) Cert.Spec.zero * w2 (ix2 k j)) ?_
  refine Finset.sum_congr rfl fun l _ => ?_
  rw [hadj, hsc]

/-- S2 of the arrays as the region finds them. -/
abbrev G0_6 (c : Dev nD) : S10000x20.Idx → EReal :=
  Cert.Spec.S2 (V c main_arg0) (V c main_arg1) (V c main_arg2) (Cert.Spec.rowOf (V c main_call0_v0)) (V c main_arg4)

/-- What point t writes back to the second output is block t of S2. -/
theorem flushed0_6_eq (c : Dev nD) (t : Fin cfg0.N) :
    (dat0 V c).flushed 6 t = ((cfg0.win 6).blk t).view.read (Elt Ideal) (G0_6 V c) := by
  show (cfg0.win 6).cut (grid0.coords t) ((dat0 V c).after 6 t) = _
  rw [after0_6, iblk0_3_eq, iblk0_4_eq]
  obtain ⟨-, -, -, -, -, -, -, -, -, -, -, -, g0, g1⟩ := idx_facts0 t
  have hN : cfg0.N = 25 := N_0
  funext y
  obtain ⟨p, j, rfl⟩ : ∃ (p : Fin 400) (j : Fin 20), y = ix2 p j := ⟨y 0, y 1, eq_ix2 y⟩
  have hr : 400 * t.val + p.val < 10000 := by have := t.isLt; have := p.isLt; omega
  have hemb : ((cfg0.win 6).blk t).view.emb (ix2 p j) = ix2 (⟨400 * t.val + p.val, hr⟩ : Fin 10000) j :=
    funext fun a => Fin.ext (by
      match a with
      | ⟨0, _⟩ => show win0_6.index t (0 : Fin 2) * 400 + 1 * p.val = 400 * t.val + p.val; rw [g0]; omega
      | ⟨1, _⟩ => show win0_6.index t (1 : Fin 2) * 20 + 1 * j.val = j.val; rw [g1]; omega)
  show k0_pay3 (iblk0 V c 0 t) (sc0 V c) (V c main_call0_v0) (V c main_arg4) (ix2 p j) = G0_6 V c (((cfg0.win 6).blk t).view.emb (ix2 p j))
  rw [hemb]
  exact pass1_entry (iblk0 V c 0 t) (sc0 V c) (V c main_call0_v0) (V c main_arg4) (V c main_arg0) (V c main_arg1) (V c main_arg2)
    ⟨400 * t.val + p.val, hr⟩ p j (fun l => iblk0_0_apply V c t p l _ rfl) (fun l k => sc0_apply V c l k)

/-- The second output after the last point is S2. -/
theorem arr0_6 (c : Dev nD) : ((dat0 V c).arrAt 6 cfg0.N : S10000x20.Idx → EReal)
    = Cert.Spec.S2 (V c main_arg0) (V c main_arg1) (V c main_arg2) (Cert.Spec.rowOf (V c main_call0_v0)) (V c main_arg4) :=
  (dat0 V c).arrAt_eq_of_cover 6 (G0_6 V c) (fun t _ => flushed0_6_eq V c t) cover0_6

end Region0Value

end Cert.KernelIdeal.Hand

end
-- ==== Proof.KI.R1Value.lean ====
/-
  What passes 2 and 3 leave in the scratch buffer and in the output array, at the ideal values, as functions of the
  arrays the launch finds.  A block of a window at grid point t is its array read at the block's offset: the
  adjacency copy's block is rows [1000 (t mod 10), +1000), the blocks of x and of the output are rows
  [1000 (t - 10), +1000) during phase 1, and the four small operands are whole.  With the kernel's two stored values
  read entry by entry, point t of phase 0 stores rows [1000 t, +1000) of S3 = max (adj S2 + b2, 0) W3, so the ten
  results laid over one another are S3; and point t of phase 1 leaves in the output block the rows
  [1000 (t - 10), +1000) of max (max (adj S3 + b3, 0) + x, 0).  The ten phase-1 blocks tile the output array.
-/
import proofs.«180365_g15126874816640_cont_week2b_32_13_alg».proof.Proof.KI.R1Frame
import proofs.«180365_g15126874816640_cont_week2b_32_13_alg».proof.Proof.PayIdeal
import proofs.«180365_g15126874816640_cont_week2b_32_13_alg».proof.Proof.SpecTail
import Idealize.ShloMosaic.Lib.Pipeline.Value
import Idealize.ShloMosaic.Lib.ValueIdx

set_option maxRecDepth 16384

noncomputable section

open scoped BigOperators

namespace Cert.KernelIdeal.Hand

open Idealize.ShloMosaic Idealize.ShloMosaic.TcCoe Idealize.ShloMosaic.ValueIdx
open Idealize.ShloMosaic.Pipeline (Dat Cfg Window)
open Cert.KernelIdeal Cert.KernelIdeal.Gen

section Region1Value

variable (V : (c : Dev nD) → (b : Ref sig .tc) → Buf (Elt Ideal) ((c : Thread nD τ).loc b))

/-- The block indices of the seven windows over the grid: the adjacency block follows the second grid coordinate in
    both phases, the four small operands are whole, and the blocks of x and of the output stay at block 0 during phase 0
    and follow the second coordinate during phase 1. -/
theorem idx1_facts : ∀ t : Fin cfg1.N,
    win1_0.index t (0 : Fin 2) = t.val % 10 ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val - 10 ∧ win1_5.index t (1 : Fin 2) = 0
    ∧ win1_6.index t (0 : Fin 2) = t.val - 10 ∧ win1_6.index t (1 : Fin 2) = 0 :=
  (by decide +kernel : ∀ t : Fin grid1.N, _)

/-- The output block is written back exactly at the points of phase 1. -/
theorem flush1_6 : ∀ t : Fin cfg1.N, (cfg1.win 6).flush t = true ↔ 10 ≤ t.val :=
  (by decide +kernel : ∀ t : Fin grid1.N, _)

/-- Entry (r, l) of the adjacency block at point t is entry (1000 (t mod 10) + r, l) of the adjacency copy. -/
theorem iblk1_0_apply (c : Dev nD) (t : Fin cfg1.N) (r : Fin 1000) (l : Fin 10000) (r' : Fin 10000)
    (hr : r'.val = 1000 * (t.val % 10) + r.val) :
    (iblk1 V c 0 t : Vec Ideal S1000x10000 .bf16) (ix2 r l) = (V c main_call0_v3_0 : Cert.Spec.Mat 10000 10000) (ix2 r' l) := by
  obtain ⟨e0, e1, -⟩ := idx1_facts t
  unfold iblk1
  rw [View.read_apply]
  show V c main_call0_v3_0 _ = V c main_call0_v3_0 _
  congr 1
  funext a
  apply Fin.ext
  match a with
  | ⟨0, _⟩ => show win1_0.index t (0 : Fin 2) * 1000 + 1 * r.val = r'.val; rw [e0, hr]; omega
  | ⟨1, _⟩ => show win1_0.index t (1 : Fin 2) * 10000 + 1 * l.val = l.val; rw [e1]; omega

/-- The S2 operand is fetched whole: its block at every point is the array. -/
theorem iblk1_1_eq (c : Dev nD) (t : Fin cfg1.N) : (iblk1 V c 1 t : Vec Ideal S10000x20 .bf16) = V c main_call0_v3_1 := by
  obtain ⟨-, -, e0, e1, -⟩ := idx1_facts t
  funext x
  unfold iblk1
  rw [View.read_apply]
  show V c main_call0_v3_1 _ = V c main_call0_v3_1 _
  congr 1
  funext a
  apply Fin.ext
  match a with
  | ⟨0, _⟩ => show win1_1.index t (0 : Fin 2) * 10000 + 1 * (x 0).val = (x 0).val; rw [e0]; omega
  | ⟨1, _⟩ => show win1_1.index t (1 : Fin 2) * 20 + 1 * (x 1).val = (x 1).val; rw [e1]; omega

/-- The bias row b2 is fetched whole. -/
theorem iblk1_2_eq (c : Dev nD) (t : Fin cfg1.N) : (iblk1 V c 2 t : Vec Ideal S1x20 .f32) = V c main_call0_v1 := by
  obtain ⟨-, -, -, -, e0, e1, -⟩ := idx1_facts t
  funext x
  unfold iblk1
  rw [View.read_apply]
  show V c main_call0_v1 _ = V c main_call0_v1 _
  congr 1
  funext a
  apply Fin.ext
  match a with
  | ⟨0, _⟩ => show win1_2.index t (0 : Fin 2) * 1 + 1 * (x 0).val = (x 0).val; rw [e0]; omega
  | ⟨1, _⟩ => show win1_2.index t (1 : Fin 2) * 20 + 1 * (x 1).val = (x 1).val; rw [e1]; omega

/-- W3 is fetched whole. -/
theorem iblk1_3_eq (c : Dev nD) (t : Fin cfg1.N) : (iblk1 V c 3 t : Vec Ideal S20x128 .f32) = V c main_arg6 := by
  obtain ⟨-, -, -, -, -, -, e0, e1, -⟩ := idx1_facts t
  funext x
  unfold iblk1
  rw [View.read_apply]
  show V c main_arg6 _ = V c main_arg6 _
  congr 1
  funext a
  apply Fin.ext
  match a with
  | ⟨0, _⟩ => show win1_3.index t (0 : Fin 2) * 20 + 1 * (x 0).val = (x 0).val; rw [e0]; omega
  | ⟨1, _⟩ => show win1_3.index t (1 : Fin 2) * 128 + 1 * (x 1).val = (x 1).val; rw [e1]; omega

/-- The bias row b3 is fetched whole. -/
theorem iblk1_4_eq (c : Dev nD) (t : Fin cfg1.N) : (iblk1 V c 4 t : Vec Ideal S1x128 .f32) = V c main_call0_v2 := by
  obtain ⟨-, -, -, -, -, -, -, -, e0, e1, -⟩ := idx1_facts t
  funext x
  unfold iblk1
  rw [View.read_apply]
  show V c main_call0_v2 _ = V c main_call0_v2 _
  congr 1
  funext a
  apply Fin.ext
  match a with
  | ⟨0, _⟩ => show win1_4.index t (0 : Fin 2) * 1 + 1 * (x 0).val = (x 0).val; rw [e0]; omega
  | ⟨1, _⟩ => show win1_4.index t (1 : Fin 2) * 128 + 1 * (x 1).val = (x 1).val; rw [e1]; omega

/-- Entry (r, j) of the block of x at point t is entry (1000 (t - 10) + r, j) of x (block 0 throughout phase 0). -/
theorem iblk1_5_apply (c : Dev nD) (t : Fin cfg1.N) (r : Fin 1000) (j : Fin 128) (r' : Fin 10000)
    (hr : r'.val = 1000 * (t.val - 10) + r.val) :
    (iblk1 V c 5 t : Vec Ideal S1000x128 .f32) (ix2 r j) = (V c main_arg0 : Cert.Spec.Mat 10000 128) (ix2 r' j) := by
  obtain ⟨-, -, -, -, -, -, -, -, -, -, e0, e1, -⟩ := idx1_facts t
  unfold iblk1
  rw [View.read_apply]
  show V c main_arg0 _ = V c main_arg0 _
  congr 1
  funext a
  apply Fin.ext
  match a with
  | ⟨0, _⟩ => show win1_5.index t (0 : Fin 2) * 1000 + 1 * r.val = r'.val; rw [e0, hr]; omega
  | ⟨1, _⟩ => show win1_5.index t (1 : Fin 2) * 128 + 1 * j.val = j.val; rw [e1]; omega

/-- S3 as the second launch computes it from the arrays it finds: the specification's S3 of the adjacency copy, S2,
    the bias row b2 and W3. -/
abbrev s3G (c : Dev nD) : Cert.Spec.Mat 10000 128 :=
  Cert.Spec.S3of (V c main_call0_v3_0) (V c main_call0_v3_1) (Cert.Spec.rowOf (V c main_call0_v1)) (V c main_arg6)

/-- What a phase-0 point stores, entry by entry: row r of its result is row 1000 (t mod 10) + r of S3 — the clamp of
    (that row of the adjacency copy times S2, plus b2), times W3. -/
theorem s3blk_apply (c : Dev nD) (t : Fin cfg1.N) (r : Fin 1000) (j : Fin 128) (r' : Fin 10000)
    (hr : r'.val = 1000 * (t.val % 10) + r.val) :
    (s3blk V c t : Vec Ideal S1000x128 .bf16) (ix2 r j) = s3G V c (ix2 r' j) := by
  unfold s3blk
  rw [iblk1_1_eq V c t, iblk1_2_eq V c t, iblk1_3_eq V c t]
  refine (Cert.KernelIdeal.Pay.k1_pay1_apply (iblk1 V c 0 t) _ _ _ r j).trans ?_
  simp only [iblk1_0_apply V c t r _ r' hr]
  rfl

/-- The first n phase-0 results laid over one another hold S3 on the rows below 1000 n: the result of point n covers
    rows [1000 n, 1000 n + 1000) and leaves the earlier rows alone. -/
theorem scN_eq (c : Dev nD) : ∀ n : ℕ, n ≤ 10 → ∀ y : S10000x128.Idx, (y 0).val < 1000 * n →
    (scN V c n : Vec Ideal S10000x128 .bf16) y = s3G V c y
  | 0, _, y, hy => absurd hy (by omega)
  | n + 1, hn, y, hy => by
    have h : n < 10 := by omega
    rw [scN_succ V c n h]
    by_cases hlo : 1000 * n ≤ (y 0).val
    · obtain ⟨r', j, rfl⟩ : ∃ (r' : Fin 10000) (j : Fin 128), y = ix2 r' j := ⟨y 0, y 1, eq_ix2 y⟩
      have hlo' : 1000 * n ≤ r'.val := hlo
      have hy' : r'.val < 1000 * (n + 1) := hy
      have hemb : (s3rect (grid1.coords (pt1 n h)) ((hcond1 (pt1 n h)).mpr h)).emb (ix2 ⟨r'.val - 1000 * n, by omega⟩ j) = ix2 r' j := by
        funext a
        apply Fin.ext
        match a with
        | ⟨0, _⟩ =>
          show k1_off1 (grid1.coords (pt1 n h)) 0 + 1 * (r'.val - 1000 * n) = r'.val
          rw [off1_0 (pt1 n h) h]
          show 1000 * n + 1 * (r'.val - 1000 * n) = r'.val
          omega
        | ⟨1, _⟩ =>
          show k1_off1 (grid1.coords (pt1 n h)) 1 + 1 * j.val = j.val
          rw [off1_1 (pt1 n h) h]
          omega
      rw [← hemb, Rect.overlay_emb, hemb]
      exact s3blk_apply V c (pt1 n h) ⟨r'.val - 1000 * n, by omega⟩ j r'
        (by show r'.val = 1000 * (n % 10) + (r'.val - 1000 * n); omega)
    · rw [Rect.overlay_of_not_mem _ _ _ (fun hm => hlo ((mem_s3rect_iff (pt1 n h) h _ y).mp hm).1)]
      exact scN_eq c n (by omega) y (by omega)

/-- After phase 0 the scratch holds S3. -/
theorem scFull_eq (c : Dev nD) : (scFull V c : S10000x128.Idx → EReal) = s3G V c :=
  funext fun y => scN_eq V c 10 (Nat.le_refl _) y (by have := idx2_lt0 y; omega)

/-- The output array as the second launch leaves it: the specification's tail of the arrays it finds. -/
abbrev tailG (c : Dev nD) : Cert.Spec.Mat 10000 128 :=
  Cert.Spec.tail (V c main_call0_v3_0) (V c main_call0_v3_1) (Cert.Spec.rowOf (V c main_call0_v1)) (V c main_arg6)
    (Cert.Spec.rowOf (V c main_call0_v2)) (V c main_arg0)

/-- What a phase-1 point leaves in the output block, entry by entry: row r of the block is row 1000 (t - 10) + r of the
    result — the clamp of (that row of the adjacency copy times S3, plus b3), plus that row of x, clamped. -/
theorem outblk_apply (c : Dev nD) (t : Fin cfg1.N) (ht : 10 ≤ t.val) (r : Fin 1000) (j : Fin 128) (r' : Fin 10000)
    (hr : r'.val = 1000 * (t.val - 10) + r.val) :
    (k1_pay2 (iblk1 V c 0 t) (scFull V c) (iblk1 V c 4 t) (iblk1 V c 5 t) : Vec Ideal S1000x128 .f32) (ix2 r j)
      = tailG V c (ix2 r' j) := by
  have hN : t.val < 20 := Nat.lt_of_lt_of_eq t.isLt (show cfg1.N = 20 from N_1)
  rw [iblk1_4_eq V c t, scFull_eq V c]
  refine (Cert.KernelIdeal.Pay.k1_pay2_apply (iblk1 V c 0 t) _ _ (iblk1 V c 5 t) r j).trans ?_
  simp only [iblk1_0_apply V c t r _ r' (by omega), iblk1_5_apply V c t r j r' hr]
  rfl

/-- What a phase-1 point writes back is its block of the result. -/
theorem flushed1_6_eq (c : Dev nD) (t : Fin cfg1.N) (hf : (cfg1.win 6).flush t = true) :
    (dat1 V c).flushed 6 t = ((cfg1.win 6).blk t).view.read (Elt Ideal) (tailG V c) := by
  have ht : 10 ≤ t.val := (flush1_6 t).mp hf
  have hN : t.val < 20 := Nat.lt_of_lt_of_eq t.isLt (show cfg1.N = 20 from N_1)
  obtain ⟨-, -, -, -, -, -, -, -, -, -, -, -, e0, e1⟩ := idx1_facts t
  show (cfg1.win 6).cut (grid1.coords t) ((dat1 V c).after 6 t) = _
  rw [after1_6]
  funext y
  obtain ⟨r, j, rfl⟩ : ∃ (r : Fin 1000) (j : Fin 128), y = ix2 r j := ⟨y 0, y 1, eq_ix2 (n0 := 1000) (n1 := 128) y⟩
  rw [View.read_apply]
  show (k1_pay2 (iblk1 V c 0 t) (scFull V c) (iblk1 V c 4 t) (iblk1 V c 5 t) : Vec Ideal S1000x128 .f32) (ix2 r j)
    = tailG V c (((cfg1.win 6).blk t).view.emb (ix2 r j))
  have hemb : ((cfg1.win 6).blk t).view.emb (ix2 r j) = ix2 (⟨1000 * (t.val - 10) + r.val, by omega⟩ : Fin 10000) j := by
    funext a
    apply Fin.ext
    match a with
    | ⟨0, _⟩ => show win1_6.index t (0 : Fin 2) * 1000 + 1 * r.val = 1000 * (t.val - 10) + r.val; rw [e0]; omega
    | ⟨1, _⟩ => show win1_6.index t (1 : Fin 2) * 128 + 1 * j.val = j.val; rw [e1]; omega
  rw [hemb]
  exact outblk_apply V c t ht r j _ rfl

/-- Every row of the output lies in the block of the phase-1 point 10 + row / 1000. -/
theorem cover1_6 (i : S10000x128.Idx) :
    ∃ t : Fin cfg1.N, (cfg1.win 6).flush t = true ∧ i ∈ ((cfg1.win 6).blk t).view.set := by
  have hi0 : (i 0).val < 10000 := idx2_lt0 i
  have hi1 : (i 1).val < 128 := idx2_lt1 i
  have hlt : 10 + (i 0).val / 1000 < cfg1.N := by rw [show cfg1.N = 20 from N_1]; omega
  refine ⟨⟨10 + (i 0).val / 1000, hlt⟩, (flush1_6 _).mpr (Nat.le_add_right _ _), ?_⟩
  obtain ⟨-, -, -, -, -, -, -, -, -, -, -, -, e0, e1⟩ := idx1_facts ⟨10 + (i 0).val / 1000, hlt⟩
  show i ∈ ((View.whole main_v0).slice (win1_6.rect ⟨10 + (i 0).val / 1000, hlt⟩)).set
  rw [View.set_slice_whole, Rect.mem_set_unit]
  intro a
  match a with
  | ⟨0, _⟩ =>
    show win1_6.index ⟨10 + (i 0).val / 1000, hlt⟩ (0 : Fin 2) * 1000 ≤ (i 0).val
      ∧ (i 0).val < win1_6.index ⟨10 + (i 0).val / 1000, hlt⟩ (0 : Fin 2) * 1000 + 1000
    rw [e0]
    show (10 + (i 0).val / 1000 - 10) * 1000 ≤ (i 0).val ∧ (i 0).val < (10 + (i 0).val / 1000 - 10) * 1000 + 1000
    omega
  | ⟨1, _⟩ =>
    show win1_6.index ⟨10 + (i 0).val / 1000, hlt⟩ (1 : Fin 2) * 128 ≤ (i 1).val
      ∧ (i 1).val < win1_6.index ⟨10 + (i 0).val / 1000, hlt⟩ (1 : Fin 2) * 128 + 128
    rw [e1]
    omega

/-- The output array after passes 2 and 3: the specification's tail of the arrays the launch finds. -/
theorem arr1_6 (c : Dev nD) : ((dat1 V c).arrAt 6 cfg1.N : S10000x128.Idx → EReal) = tailG V c :=
  (dat1 V c).arrAt_eq_of_cover 6 (tailG V c) (flushed1_6_eq V c) cover1_6

end Region1Value

end Cert.KernelIdeal.Hand

end
-- ==== Proof.KI.Final.lean ====
/-
  The idealized kernel's result is the specification of its arguments.  The fold of buffer contents through the
  program is read back: the result array after passes 2 and 3 is the second half of the specification applied to
  the bf16 adjacency copy and S2 as pass 1 left them; the copy is the adjacency matrix itself (the cast is the
  identity on extended reals), S2 is the first half of the specification; the three bias rows are the bias vectors
  reshaped to 1 x f, read back at (0, j); every other operand is an argument array no one wrote.
-/
import proofs.«180365_g15126874816640_cont_week2b_32_13_alg».proof.Proof.KI.Run
import proofs.«180365_g15126874816640_cont_week2b_32_13_alg».proof.Proof.KI.R0Value
import proofs.«180365_g15126874816640_cont_week2b_32_13_alg».proof.Proof.KI.R1Value
import proofs.«180365_g15126874816640_cont_week2b_32_13_alg».proof.Proof.SpecTail
import Idealize.ShloMosaic.Lib.StableHlo.Run
import Idealize.ShloMosaic.Lib.ValueLayout

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.KernelIdeal Cert.KernelIdeal.Gen Idealize.ShloMosaic.ValueIdx Cert.Spec

variable (m : (ℓ : Loc nD τ sig) → Buf (Elt Ideal) ℓ) (ρ : Dev nD → PrngReg)

/-! The reshapes do not write an argument array. -/
theorem B1_main_arg0 (c : Dev nD) : B1 m ρ c main_arg0 = (m ((c : Thread nD τ).loc main_arg0)) :=
  (StableHlo.after_of_forall_not_mem (b := Proc.devRef .tc main_arg0) _ _ (List.forall_iff_forall_mem.mp (by
          simp only [hostOps0, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans rfl
theorem B1_main_arg1 (c : Dev nD) : B1 m ρ c main_arg1 = (m ((c : Thread nD τ).loc main_arg1)) :=
  (StableHlo.after_of_forall_not_mem (b := Proc.devRef .tc main_arg1) _ _ (List.forall_iff_forall_mem.mp (by
          simp only [hostOps0, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans rfl
theorem B1_main_arg2 (c : Dev nD) : B1 m ρ c main_arg2 = (m ((c : Thread nD τ).loc main_arg2)) :=
  (StableHlo.after_of_forall_not_mem (b := Proc.devRef .tc main_arg2) _ _ (List.forall_iff_forall_mem.mp (by
          simp only [hostOps0, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans rfl
theorem B1_main_arg3 (c : Dev nD) : B1 m ρ c main_arg3 = (m ((c : Thread nD τ).loc main_arg3)) :=
  (StableHlo.after_of_forall_not_mem (b := Proc.devRef .tc main_arg3) _ _ (List.forall_iff_forall_mem.mp (by
          simp only [hostOps0, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans rfl
theorem B1_main_arg4 (c : Dev nD) : B1 m ρ c main_arg4 = (m ((c : Thread nD τ).loc main_arg4)) :=
  (StableHlo.after_of_forall_not_mem (b := Proc.devRef .tc main_arg4) _ _ (List.forall_iff_forall_mem.mp (by
          simp only [hostOps0, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans rfl
theorem B1_main_arg5 (c : Dev nD) : B1 m ρ c main_arg5 = (m ((c : Thread nD τ).loc main_arg5)) :=
  (StableHlo.after_of_forall_not_mem (b := Proc.devRef .tc main_arg5) _ _ (List.forall_iff_forall_mem.mp (by
          simp only [hostOps0, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans rfl
theorem B1_main_arg6 (c : Dev nD) : B1 m ρ c main_arg6 = (m ((c : Thread nD τ).loc main_arg6)) :=
  (StableHlo.after_of_forall_not_mem (b := Proc.devRef .tc main_arg6) _ _ (List.forall_iff_forall_mem.mp (by
          simp only [hostOps0, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans rfl
theorem B1_main_arg7 (c : Dev nD) : B1 m ρ c main_arg7 = (m ((c : Thread nD τ).loc main_arg7)) :=
  (StableHlo.after_of_forall_not_mem (b := Proc.devRef .tc main_arg7) _ _ (List.forall_iff_forall_mem.mp (by
          simp only [hostOps0, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans rfl

/-! A bias vector reshaped to one row, read back as a row. -/
theorem row_b1 (c : Dev nD) : rowOf (B1 m ρ c main_call0_v0) = ((m ((c : Thread nD τ).loc main_arg3)) : Row 20) := by
  have e : (B1 m ρ c main_call0_v0 : S1x20.Idx → EReal)
      = shapeCast S1x20 ((m ((c : Thread nD τ).loc main_arg3)) : S20.Idx → EReal) shapeCasts_S20_S1x20 := by
    dsimp only [B1, E1, hostOps0]; after_results; rfl
  funext j
  obtain ⟨k, rfl⟩ : ∃ k : Fin 20, j = ix1 k := ⟨j 0, eq_ix1 j⟩
  exact (congrFun e (ix2 0 k)).trans (shapeCast_a_1a_apply _ _ 0 k)
theorem row_b2 (c : Dev nD) : rowOf (B1 m ρ c main_call0_v1) = ((m ((c : Thread nD τ).loc main_arg5)) : Row 20) := by
  have e : (B1 m ρ c main_call0_v1 : S1x20.Idx → EReal)
      = shapeCast S1x20 ((m ((c : Thread nD τ).loc main_arg5)) : S20.Idx → EReal) shapeCasts_S20_S1x20 := by
    dsimp only [B1, E1, hostOps0]; after_results; rfl
  funext j
  obtain ⟨k, rfl⟩ : ∃ k : Fin 20, j = ix1 k := ⟨j 0, eq_ix1 j⟩
  exact (congrFun e (ix2 0 k)).trans (shapeCast_a_1a_apply _ _ 0 k)
theorem row_b3 (c : Dev nD) : rowOf (B1 m ρ c main_call0_v2) = ((m ((c : Thread nD τ).loc main_arg7)) : Row 128) := by
  have e : (B1 m ρ c main_call0_v2 : S1x128.Idx → EReal)
      = shapeCast S1x128 ((m ((c : Thread nD τ).loc main_arg7)) : S128.Idx → EReal) shapeCasts_S128_S1x128 := by
    dsimp only [B1, E1, hostOps0]; after_results; rfl
  funext j
  obtain ⟨k, rfl⟩ : ∃ k : Fin 128, j = ix1 k := ⟨j 0, eq_ix1 j⟩
  exact (congrFun e (ix2 0 k)).trans (shapeCast_a_1a_apply _ _ 0 k)

/-! What passes 2 and 3 find. -/
theorem B2_adj (c : Dev nD) : (B2 m ρ c main_call0_v3_0 : Mat 10000 10000) = ((m ((c : Thread nD τ).loc main_arg1)) : Mat 10000 10000) :=
  ((E2_arr m ρ c 5).trans (arr0_5 (B1 m ρ) c)).trans (B1_main_arg1 m ρ c)
theorem B2_s2 (c : Dev nD) : (B2 m ρ c main_call0_v3_1 : Mat 10000 20)
    = S2 (m ((c : Thread nD τ).loc main_arg0)) (m ((c : Thread nD τ).loc main_arg1)) (m ((c : Thread nD τ).loc main_arg2)) (m ((c : Thread nD τ).loc main_arg3)) (m ((c : Thread nD τ).loc main_arg4)) := by
  refine ((E2_arr m ρ c 6).trans (arr0_6 (B1 m ρ) c)).trans ?_
  rw [row_b1 m ρ c, B1_main_arg0 m ρ c, B1_main_arg1 m ρ c, B1_main_arg2 m ρ c, B1_main_arg4 m ρ c]
theorem B2_b2 (c : Dev nD) : rowOf (B2 m ρ c main_call0_v1) = ((m ((c : Thread nD τ).loc main_arg5)) : Row 20) :=
  (congrArg rowOf (E2_of_ne m ρ c main_call0_v1 (by decide))).trans (row_b2 m ρ c)
theorem B2_b3 (c : Dev nD) : rowOf (B2 m ρ c main_call0_v2) = ((m ((c : Thread nD τ).loc main_arg7)) : Row 128) :=
  (congrArg rowOf (E2_of_ne m ρ c main_call0_v2 (by decide))).trans (row_b3 m ρ c)
theorem B2_W3 (c : Dev nD) : (B2 m ρ c main_arg6 : Mat 20 128) = (m ((c : Thread nD τ).loc main_arg6)) :=
  (E2_of_ne m ρ c main_arg6 (by decide)).trans (B1_main_arg6 m ρ c)
theorem B2_x (c : Dev nD) : (B2 m ρ c main_arg0 : Mat 10000 128) = (m ((c : Thread nD τ).loc main_arg0)) :=
  ((E2_arr m ρ c 1).trans (((dat0 (B1 m ρ) c).arrAt_in 1 rfl _).trans (A_eq0 (B1 m ρ) c 1))).trans (B1_main_arg0 m ρ c)

/-- The result array after the whole program is the specification of the argument arrays. -/
theorem result_eq (c : Dev nD) :
    (E3 m ρ c (Proc.devRef .tc main_v0) : Mat 10000 128)
      = out (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  refine ((E3_arr m ρ c 6).trans (arr1_6 (B2 m ρ) c)).trans ?_
  unfold tailG
  rw [out_eq_tail, B2_adj m ρ c, B2_s2 m ρ c, B2_b2 m ρ c, B2_b3 m ρ c, B2_W3 m ρ c, B2_x m ρ c]

end Cert.KernelIdeal.Hand

end
-- ==== Proof.RefLayer1.lean ====
/-
  The reference's first layer, read entry by entry: the product x W1 is the specification's S1, and the clamped
  sum adj S1 + b1 is its H1.  Each matrix product of the reference is a sum over the shared axis in the
  specification's own order, the bias reaches entry (r, j) through two broadcasts as b1 j, and the clamp compares
  with the same zero word.
-/
import proofs.«180365_g15126874816640_cont_week2b_32_13_alg».proof.Proof.Spec
import proofs.«180365_g15126874816640_cont_week2b_32_13_alg».proof.Proof.Gen.ReferenceIdeal.Read

noncomputable section

open scoped BigOperators

namespace Cert.RefSpec

open Idealize.ShloMosaic Idealize.ShloMosaic.ValueIdx Cert.ReferenceIdeal Cert.ReferenceIdeal.Read

/-- The left index of a product's term: row r, shared coordinate k. -/
theorem lidx_v0 (r : Fin 10000) (j : Fin 20) (k : Fin 128) : lidx_main_v0 (ix2 r j) k = ix2 r k :=
  funext fun a => by match a with | ⟨0, _⟩ => rfl | ⟨1, _⟩ => rfl
/-- The right index of a product's term: shared coordinate k, column j. -/
theorem ridx_v0 (r : Fin 10000) (j : Fin 20) (k : Fin 128) : ridx_main_v0 (ix2 r j) k = ix2 k j :=
  funext fun a => by match a with | ⟨0, _⟩ => rfl | ⟨1, _⟩ => rfl

/-- The reference's first product is x W1. -/
theorem s1 (x : Spec.Mat 10000 128) (W1 : Spec.Mat 128 20) : val_main_v0 (F := Ideal) x W1 = Spec.S1 x W1 := by
  funext i
  obtain ⟨r, j, rfl⟩ : ∃ (r : Fin 10000) (j : Fin 20), i = ix2 r j := ⟨i 0, i 1, eq_ix2 i⟩
  rw [val_main_v0_apply]
  simp only [lidx_v0, ridx_v0]
  rfl

theorem lidx_v1 (r : Fin 10000) (j : Fin 20) (k : Fin 10000) : lidx_main_v1 (ix2 r j) k = ix2 r k :=
  funext fun a => by match a with | ⟨0, _⟩ => rfl | ⟨1, _⟩ => rfl
theorem ridx_v1 (r : Fin 10000) (j : Fin 20) (k : Fin 10000) : ridx_main_v1 (ix2 r j) k = ix2 k j :=
  funext fun a => by match a with | ⟨0, _⟩ => rfl | ⟨1, _⟩ => rfl
/-- The bias of entry (r, j), after the two broadcasts, is b1 j. -/
theorem bidx_v3 (r : Fin 10000) (j : Fin 20) : idx_main_v2 (idx_main_v3 (ix2 r j)) = ix1 j :=
  funext fun a => by match a with | ⟨0, _⟩ => rfl

/-- The reference's first clamped layer is the specification's H1. -/
theorem h1 (x : Spec.Mat 10000 128) (adj : Spec.Mat 10000 10000) (W1 : Spec.Mat 128 20) (b1 : Spec.Row 20) :
    val_main_v5 (F := Ideal) x adj W1 b1 = Spec.H1 x adj W1 b1 := by
  funext i
  obtain ⟨r, j, rfl⟩ : ∃ (r : Fin 10000) (j : Fin 20), i = ix2 r j := ⟨i 0, i 1, eq_ix2 i⟩
  rw [val_main_v5_apply, val_main_v4_apply, val_main_v1_apply, val_main_v3_apply, val_main_v2_apply,
    val_main_call0_v0_apply, val_main_call0_cst_apply, s1]
  simp only [lidx_v1, ridx_v1, bidx_v3, Ideal.maximumf_def, Ideal.addf_def, Ideal.ofBits_def]
  rfl

end Cert.RefSpec

end
-- ==== Proof.RefLayer2.lean ====
/-
  The reference's second layer, read entry by entry over the first: the product H1 W2 is the specification's S2
  and the clamped sum adj S2 + b2 its H2.
-/
import proofs.«180365_g15126874816640_cont_week2b_32_13_alg».proof.Proof.Spec
import proofs.«180365_g15126874816640_cont_week2b_32_13_alg».proof.Proof.Gen.ReferenceIdeal.Read
import proofs.«180365_g15126874816640_cont_week2b_32_13_alg».proof.Proof.RefLayer1

noncomputable section

open scoped BigOperators

namespace Cert.RefSpec

open Idealize.ShloMosaic Idealize.ShloMosaic.ValueIdx Cert.ReferenceIdeal Cert.ReferenceIdeal.Read

theorem lidx_v6 (r : Fin 10000) (j : Fin 20) (k : Fin 20) : lidx_main_v6 (ix2 r j) k = ix2 r k :=
  funext fun a => by match a with | ⟨0, _⟩ => rfl | ⟨1, _⟩ => rfl
theorem ridx_v6 (r : Fin 10000) (j : Fin 20) (k : Fin 20) : ridx_main_v6 (ix2 r j) k = ix2 k j :=
  funext fun a => by match a with | ⟨0, _⟩ => rfl | ⟨1, _⟩ => rfl

/-- The reference's second product is H1 W2. -/
theorem s2 (x : Spec.Mat 10000 128) (adj : Spec.Mat 10000 10000) (W1 : Spec.Mat 128 20) (b1 : Spec.Row 20)
    (W2 : Spec.Mat 20 20) : val_main_v6 (F := Ideal) x adj W1 b1 W2 = Spec.S2 x adj W1 b1 W2 := by
  funext i
  obtain ⟨r, j, rfl⟩ : ∃ (r : Fin 10000) (j : Fin 20), i = ix2 r j := ⟨i 0, i 1, eq_ix2 i⟩
  rw [val_main_v6_apply, h1]
  simp only [lidx_v6, ridx_v6]
  rfl

theorem lidx_v7 (r : Fin 10000) (j : Fin 20) (k : Fin 10000) : lidx_main_v7 (ix2 r j) k = ix2 r k :=
  funext fun a => by match a with | ⟨0, _⟩ => rfl | ⟨1, _⟩ => rfl
theorem ridx_v7 (r : Fin 10000) (j : Fin 20) (k : Fin 10000) : ridx_main_v7 (ix2 r j) k = ix2 k j :=
  funext fun a => by match a with | ⟨0, _⟩ => rfl | ⟨1, _⟩ => rfl
/-- The bias of entry (r, j), after the two broadcasts, is b2 j. -/
theorem bidx_v9 (r : Fin 10000) (j : Fin 20) : idx_main_v8 (idx_main_v9 (ix2 r j)) = ix1 j :=
  funext fun a => by match a with | ⟨0, _⟩ => rfl

/-- The reference's second clamped layer is the specification's H2. -/
theorem h2 (x : Spec.Mat 10000 128) (adj : Spec.Mat 10000 10000) (W1 : Spec.Mat 128 20) (b1 : Spec.Row 20)
    (W2 : Spec.Mat 20 20) (b2 : Spec.Row 20) :
    val_main_v11 (F := Ideal) x adj W1 b1 W2 b2 = Spec.H2 x adj W1 b1 W2 b2 := by
  funext i
  obtain ⟨r, j, rfl⟩ : ∃ (r : Fin 10000) (j : Fin 20), i = ix2 r j := ⟨i 0, i 1, eq_ix2 i⟩
  rw [val_main_v11_apply, val_main_v10_apply, val_main_v7_apply, val_main_v9_apply, val_main_v8_apply,
    val_main_call1_v0_apply, val_main_call1_cst_apply, s2]
  simp only [lidx_v7, ridx_v7, bidx_v9, Ideal.maximumf_def, Ideal.addf_def, Ideal.ofBits_def]
  rfl

end Cert.RefSpec

end
-- ==== Proof.RefLayer3.lean ====
/-
  The reference's third layer and its last step, read entry by entry over the second: the product H2 W3 is the
  specification's S3, the clamped sum adj S3 + b3 its H3, and the clamp of H3 plus the shortcut x its result.
-/
import proofs.«180365_g15126874816640_cont_week2b_32_13_alg».proof.Proof.Spec
import proofs.«180365_g15126874816640_cont_week2b_32_13_alg».proof.Proof.Gen.ReferenceIdeal.Read
import proofs.«180365_g15126874816640_cont_week2b_32_13_alg».proof.Proof.RefLayer2

noncomputable section

open scoped BigOperators

namespace Cert.RefSpec

open Idealize.ShloMosaic Idealize.ShloMosaic.ValueIdx Cert.ReferenceIdeal Cert.ReferenceIdeal.Read

theorem lidx_v12 (r : Fin 10000) (j : Fin 128) (k : Fin 20) : lidx_main_v12 (ix2 r j) k = ix2 r k :=
  funext fun a => by match a with | ⟨0, _⟩ => rfl | ⟨1, _⟩ => rfl
theorem ridx_v12 (r : Fin 10000) (j : Fin 128) (k : Fin 20) : ridx_main_v12 (ix2 r j) k = ix2 k j :=
  funext fun a => by match a with | ⟨0, _⟩ => rfl | ⟨1, _⟩ => rfl

/-- The reference's third product is H2 W3. -/
theorem s3 (x : Spec.Mat 10000 128) (adj : Spec.Mat 10000 10000) (W1 : Spec.Mat 128 20) (b1 : Spec.Row 20)
    (W2 : Spec.Mat 20 20) (b2 : Spec.Row 20) (W3 : Spec.Mat 20 128) :
    val_main_v12 (F := Ideal) x adj W1 b1 W2 b2 W3 = Spec.S3 x adj W1 b1 W2 b2 W3 := by
  funext i
  obtain ⟨r, j, rfl⟩ : ∃ (r : Fin 10000) (j : Fin 128), i = ix2 r j := ⟨i 0, i 1, eq_ix2 i⟩
  rw [val_main_v12_apply, h2]
  simp only [lidx_v12, ridx_v12]
  rfl

theorem lidx_v13 (r : Fin 10000) (j : Fin 128) (k : Fin 10000) : lidx_main_v13 (ix2 r j) k = ix2 r k :=
  funext fun a => by match a with | ⟨0, _⟩ => rfl | ⟨1, _⟩ => rfl
theorem ridx_v13 (r : Fin 10000) (j : Fin 128) (k : Fin 10000) : ridx_main_v13 (ix2 r j) k = ix2 k j :=
  funext fun a => by match a with | ⟨0, _⟩ => rfl | ⟨1, _⟩ => rfl
/-- The bias of entry (r, j), after the two broadcasts, is b3 j. -/
theorem bidx_v15 (r : Fin 10000) (j : Fin 128) : idx_main_v14 (idx_main_v15 (ix2 r j)) = ix1 j :=
  funext fun a => by match a with | ⟨0, _⟩ => rfl

/-- The reference's third clamped layer is the specification's H3. -/
theorem h3 (x : Spec.Mat 10000 128) (adj : Spec.Mat 10000 10000) (W1 : Spec.Mat 128 20) (b1 : Spec.Row 20)
    (W2 : Spec.Mat 20 20) (b2 : Spec.Row 20) (W3 : Spec.Mat 20 128) (b3 : Spec.Row 128) :
    val_main_v17 (F := Ideal) x adj W1 b1 W2 b2 W3 b3 = Spec.H3 x adj W1 b1 W2 b2 W3 b3 := by
  funext i
  obtain ⟨r, j, rfl⟩ : ∃ (r : Fin 10000) (j : Fin 128), i = ix2 r j := ⟨i 0, i 1, eq_ix2 i⟩
  rw [val_main_v17_apply, val_main_v16_apply, val_main_v13_apply, val_main_v15_apply, val_main_v14_apply,
    val_main_call2_v0_apply, val_main_call2_cst_apply, s3]
  simp only [lidx_v13, ridx_v13, bidx_v15, Ideal.maximumf_def, Ideal.addf_def, Ideal.ofBits_def]
  rfl

/-- The reference's result: the third layer plus the shortcut, clamped, is the specification's result. -/
theorem out_eq (x : Spec.Mat 10000 128) (adj : Spec.Mat 10000 10000) (W1 : Spec.Mat 128 20) (b1 : Spec.Row 20)
    (W2 : Spec.Mat 20 20) (b2 : Spec.Row 20) (W3 : Spec.Mat 20 128) (b3 : Spec.Row 128) :
    val_main_v19 (F := Ideal) x adj W1 b1 W2 b2 W3 b3 = Spec.out x adj W1 b1 W2 b2 W3 b3 := by
  funext i
  rw [val_main_v19_apply, val_main_v18_apply, val_main_call3_v0_apply, val_main_call3_cst_apply, h3]
  simp only [Ideal.maximumf_def, Ideal.addf_def, Ideal.ofBits_def]
  rfl

end Cert.RefSpec

end
-- ==== Proof.RefSpec.lean ====
/-
  The reference program's run: it terminates, leaves its eight argument arrays as launched, and ends with its
  result array equal, entry by entry, to the specification's three stacked graph-convolution layers of those
  arguments.  The run itself is the generated one; what is added is that its composed term is the specification
  (the three layer modules).
-/
import proofs.«180365_g15126874816640_cont_week2b_32_13_alg».proof.Defs
import proofs.«180365_g15126874816640_cont_week2b_32_13_alg».proof.Proof.Spec
import proofs.«180365_g15126874816640_cont_week2b_32_13_alg».proof.Proof.Gen.ReferenceIdeal.Run
import proofs.«180365_g15126874816640_cont_week2b_32_13_alg».proof.Proof.Gen.ReferenceIdeal.Read
import proofs.«180365_g15126874816640_cont_week2b_32_13_alg».proof.Proof.Gen.Pre_finite_inputs
import proofs.«180365_g15126874816640_cont_week2b_32_13_alg».proof.Proof.RefLayer3

noncomputable section

namespace Cert.RefSpec

open Idealize.ShloMosaic Idealize.ShloMosaic.TcCoe Idealize.SL.Sem

/-- Every weakly fair execution of the reference ends with the result array at the specification's value of the
    launched arguments, and the arguments unchanged. -/
theorem run (m' : (ℓ : Loc Cert.ReferenceIdeal.nD Cert.ReferenceIdeal.τ Cert.ReferenceIdeal.sig) → Buf (Elt Ideal) ℓ)
    (ρ' : Dev Cert.ReferenceIdeal.nD → PrngReg) :
    θ_run (Cert.ReferenceIdeal.defs (F := Ideal)) (onTc (τ := Cert.ReferenceIdeal.τ) (Cert.ReferenceIdeal.main (F := Ideal))) ⟨m', fun _ => 0, ρ'⟩ (fun r => ∀ c : Dev Cert.ReferenceIdeal.nD,
      r.2.mem ((c.tc : Thread Cert.ReferenceIdeal.nD Cert.ReferenceIdeal.τ).loc Cert.ReferenceIdeal.main_v19) = Cert.Spec.out
          (m' ((c.tc : Thread Cert.ReferenceIdeal.nD Cert.ReferenceIdeal.τ).loc Cert.ReferenceIdeal.main_arg0))
          (m' ((c.tc : Thread Cert.ReferenceIdeal.nD Cert.ReferenceIdeal.τ).loc Cert.ReferenceIdeal.main_arg1))
          (m' ((c.tc : Thread Cert.ReferenceIdeal.nD Cert.ReferenceIdeal.τ).loc Cert.ReferenceIdeal.main_arg2))
          (m' ((c.tc : Thread Cert.ReferenceIdeal.nD Cert.ReferenceIdeal.τ).loc Cert.ReferenceIdeal.main_arg3))
          (m' ((c.tc : Thread Cert.ReferenceIdeal.nD Cert.ReferenceIdeal.τ).loc Cert.ReferenceIdeal.main_arg4))
          (m' ((c.tc : Thread Cert.ReferenceIdeal.nD Cert.ReferenceIdeal.τ).loc Cert.ReferenceIdeal.main_arg5))
          (m' ((c.tc : Thread Cert.ReferenceIdeal.nD Cert.ReferenceIdeal.τ).loc Cert.ReferenceIdeal.main_arg6))
          (m' ((c.tc : Thread Cert.ReferenceIdeal.nD Cert.ReferenceIdeal.τ).loc Cert.ReferenceIdeal.main_arg7))
      ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)) :=
  (θ_run Cert.ReferenceIdeal.defs _ _).mono
    (fun _ h c => ⟨(h c).1.trans (by rw [Cert.ReferenceIdeal.Read.val_main_v19_eq, out_eq]), (h c).2⟩)
    (Cert.ReferenceIdeal.Value.run (F := Ideal) m' ρ')

/-- The reference terminates, faults nowhere and leaves its arguments as launched: its run with the result dropped. -/
theorem frame : Cert.frame_ReferenceIdeal := fun m ρ _ =>
  (θ_run Cert.ReferenceIdeal.defs _ _).mono (fun _ h c => (h c).2) (Cert.ReferenceIdeal.Value.run (F := Ideal) m ρ)

end Cert.RefSpec

end
-- ==== Proof.lean ====
/-
  The certificate: a three-layer graph-convolution block computed by two fused kernel launches against the plain
  jnp reference.

  Over the extended reals both programs compute, entry by entry,
    out = max (max (adj S3 + b3) 0 + x) 0,   S3 = max (adj S2 + b2) 0 W3,   S2 = max (adj S1 + b1) 0 W2,   S1 = x W1,
  every matrix product a finite sum taken in the same grouping on both sides, so no algebraic law is needed and the
  finiteness of the inputs is never used.  The kernel differs from the reference only in how it walks the data: pass 1
  computes S1 once into a scratch buffer and then, 400 rows of the adjacency matrix at a time, writes out a bf16 copy
  of the matrix (the cast is the identity on extended reals) and the rows of S2; passes 2 and 3 run in one launch over
  a (phase, row block) grid, phase 0 collecting S3 in a scratch buffer 1000 rows at a time, phase 1 producing the
  output 1000 rows at a time.

  The frames (both kernel programs terminate without a fault and leave the arguments unchanged) come from one run of
  the program written once for any float instance: each launch's body is run on whole staging buffers in its two
  control cases, the scratch contents are carried between grid points as an invariant, and the two launches are
  chained with the host reshapes of the bias vectors.  The value of the idealized kernel's result is read off the
  same run; the reference's value is its generated run read one operation at a time.
-/
import proofs.«180365_g15126874816640_cont_week2b_32_13_alg».proof.Defs
import proofs.«180365_g15126874816640_cont_week2b_32_13_alg».proof.Proof.Gen.Kernel
import proofs.«180365_g15126874816640_cont_week2b_32_13_alg».proof.Proof.Gen.KernelIdeal
import proofs.«180365_g15126874816640_cont_week2b_32_13_alg».proof.Proof.Gen.ReferenceIdeal
import proofs.«180365_g15126874816640_cont_week2b_32_13_alg».proof.Proof.Gen.Pre_finite_inputs
import proofs.«180365_g15126874816640_cont_week2b_32_13_alg».proof.Proof.K.Run
import proofs.«180365_g15126874816640_cont_week2b_32_13_alg».proof.Proof.KI.Final
import proofs.«180365_g15126874816640_cont_week2b_32_13_alg».proof.Proof.RefSpec

noncomputable section

namespace Cert.Proof

open Idealize.ShloMosaic Idealize.SL.Sem

/-- The word-level kernel runs and leaves its arguments unchanged. -/
theorem frame_k : Cert.frame_Kernel (hKernel := Cert.Kernel.Gen.facts) (hPre_finite_inputs := Cert.Pre_finite_inputs.Gen.facts) :=
  fun m ρ _ => Cert.Kernel.Hand.frame_all m ρ

/-- So does the idealized kernel. -/
theorem frame_ki : Cert.frame_KernelIdeal (hKernelIdeal := Cert.KernelIdeal.Gen.facts) (hPre_finite_inputs := Cert.Pre_finite_inputs.Gen.facts) :=
  fun m ρ _ => Cert.KernelIdeal.Hand.frame_all m ρ

/-- The idealized kernel's result is the specification of its arguments; so is the idealized reference's, from
    arguments that agree. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.Spec.out (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)), ?_, ?_⟩
  · exact (θ_run Cert.KernelIdeal.defs _ _).mono (fun r h c =>
      ⟨(h c _ (Cert.KernelIdeal.Hand.mem_uc Cert.KernelIdeal.main_v0 (by decide))).trans (Cert.KernelIdeal.Hand.result_eq m ρ c),
       (h c _ (Cert.KernelIdeal.Hand.mem_uc Cert.KernelIdeal.main_arg0 (by decide))).trans (Cert.KernelIdeal.Hand.E3_main_arg0 m ρ c),
       (h c _ (Cert.KernelIdeal.Hand.mem_uc Cert.KernelIdeal.main_arg1 (by decide))).trans (Cert.KernelIdeal.Hand.E3_main_arg1 m ρ c),
       (h c _ (Cert.KernelIdeal.Hand.mem_uc Cert.KernelIdeal.main_arg2 (by decide))).trans (Cert.KernelIdeal.Hand.E3_main_arg2 m ρ c),
       (h c _ (Cert.KernelIdeal.Hand.mem_uc Cert.KernelIdeal.main_arg3 (by decide))).trans (Cert.KernelIdeal.Hand.E3_main_arg3 m ρ c),
       (h c _ (Cert.KernelIdeal.Hand.mem_uc Cert.KernelIdeal.main_arg4 (by decide))).trans (Cert.KernelIdeal.Hand.E3_main_arg4 m ρ c),
       (h c _ (Cert.KernelIdeal.Hand.mem_uc Cert.KernelIdeal.main_arg5 (by decide))).trans (Cert.KernelIdeal.Hand.E3_main_arg5 m ρ c),
       (h c _ (Cert.KernelIdeal.Hand.mem_uc Cert.KernelIdeal.main_arg6 (by decide))).trans (Cert.KernelIdeal.Hand.E3_main_arg6 m ρ c),
       (h c _ (Cert.KernelIdeal.Hand.mem_uc Cert.KernelIdeal.main_arg7 (by decide))).trans (Cert.KernelIdeal.Hand.E3_main_arg7 m ρ c)⟩)
      (Cert.KernelIdeal.Hand.run_all m ρ)
  · refine (θ_run Cert.ReferenceIdeal.defs _ _).mono (fun r h c => ⟨(h c).1.trans ?_, (h c).2⟩) (Cert.RefSpec.run m' ρ')
    rw [(hagree c).1, (hagree c).2.1, (hagree c).2.2.1, (hagree c).2.2.2.1, (hagree c).2.2.2.2.1, (hagree c).2.2.2.2.2.1,
      (hagree c).2.2.2.2.2.2.1, (hagree c).2.2.2.2.2.2.2]

theorem claim : Cert.Claim :=
  ⟨Cert.Kernel.Gen.facts, Cert.KernelIdeal.Gen.facts, Cert.ReferenceIdeal.Gen.facts, Cert.Pre_finite_inputs.Gen.facts,
    frame_k, frame_ki, Cert.RefSpec.frame, trivial, algebraic⟩

end Cert.Proof

end
